-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg12 : FVec F S3 .f32) (main_v48 : IVec S_ 1) (main_v49 : FVec F S32x3 .f32) (main_v50 : FVec F S32x3 .f32) : IVec S_ 1 :=
  let main_v51 : IVec S32x3 1 := cmpf .olt main_v49 main_v50
  let main_c_19 : IVec S_ 1 := constantI S_ 1 1#1
  let main_v52 : IVec S_ 1 := (fun x v => Host.reduce IntOp.andi x v reducesTo_S32x3_S_d0_1 h_S_) main_v51 main_c_19
  let main_v53 : IVec S_ 1 := andi main_v48 main_v52
  let main_v54 : FVec F S3 .f32 := Host.absf main_arg12
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg8 : FVec F S64 .f32) (main_arg9 : FVec F S64x32 .f32) (main_arg10 : FVec F S32 .f32) (main_arg11 : FVec F S32x3 .f32) (main_arg12 : FVec F S3 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x3 .f32 := Host.absf main_arg11
  let main_cst_18 : FVec F S_ .f32 := constant S_ .f32 0x7F800000#32
  let main_v50 : FVec F S32x3 .f32 := broadcastInDim S32x3 ![] bcast_S_S32x3 main_cst_18
  fn_part3 (F := F) main_arg12 main_v48 main_v49 main_v50

def fn_part1 {F : FTy → Type} [FloatOps F] (main_arg5 : FVec F S256x128 .f32) (main_arg6 : FVec F S128 .f32) (main_arg7 : FVec F S128x64 .f32) (main_arg8 : FVec F S64 .f32) (main_arg9 : FVec F S64x32 .f32) (main_arg10 : FVec F S32 .f32) (main_arg11 : FVec F S32x3 .f32) (main_arg12 : FVec F S3 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S10000x512 .f32) (main_arg1 : IVec S2x160000 32) (main_arg2 : FVec F S512x256 .f32) (main_arg3 : FVec F S256 .f32) (main_arg4 : FVec F S512x256 .f32) (main_arg5 : FVec F S256x128 .f32) (main_arg6 : FVec F S128 .f32) (main_arg7 : FVec F S128x64 .f32) (main_arg8 : FVec F S64 .f32) (main_arg9 : FVec F S64x32 .f32) (main_arg10 : FVec F S32 .f32) (main_arg11 : FVec F S32x3 .f32) (main_arg12 : FVec F S3 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_arg8 main_arg9 main_arg10 main_arg11 main_arg12 main_v13 main_v16
-- ==== Kernel.lean ====
abbrev S10000x512 : Shape := ⟨2, ![10000, 512]⟩
abbrev S2x160000 : Shape := ⟨2, ![2, 160000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S10000x256 : Shape := ⟨2, ![10000, 256]⟩
abbrev S1000x512 : Shape := ⟨2, ![1000, 512]⟩
abbrev S1000x256 : Shape := ⟨2, ![1000, 256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x256 : Shape := ⟨2, ![160000, 256]⟩
abbrev S10000 : Shape := ⟨1, ![10000]⟩
abbrev S10000x1 : Shape := ⟨2, ![10000, 1]⟩
abbrev S1x256 : Shape := ⟨2, ![1, 256]⟩
abbrev S1x128 : Shape := ⟨2, ![1, 128]⟩
abbrev S1x64 : Shape := ⟨2, ![1, 64]⟩
abbrev S1x32 : Shape := ⟨2, ![1, 32]⟩
abbrev S1x3 : Shape := ⟨2, ![1, 3]⟩
abbrev S10000x3 : Shape := ⟨2, ![10000, 3]⟩
abbrev S1000x3 : Shape := ⟨2, ![1000, 3]⟩
abbrev S1000x128 : Shape := ⟨2, ![1000, 128]⟩
abbrev S1000x64 : Shape := ⟨2, ![1000, 64]⟩
abbrev S1000x32 : Shape := ⟨2, ![1000, 32]⟩
abbrev S3x10000 : Shape := ⟨2, ![3, 10000]⟩
abbrev S10000x10000 : Shape := ⟨2, ![10000, 10000]⟩
abbrev S200x3 : Shape := ⟨2, ![200, 3]⟩
abbrev S200x10000 : Shape := ⟨2, ![200, 10000]⟩
abbrev S200x1 : Shape := ⟨2, ![200, 1]⟩
abbrev S1x10000 : Shape := ⟨2, ![1, 10000]⟩

abbrev nBuf : Space → Nat
  | .hbm => 51
  | .vmem => 26
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x3, .f32⟩
  | .hbm, ⟨12, _⟩ => ⟨S3, .f32⟩
  | .hbm, ⟨13, _⟩ => ⟨S10000x256, .f32⟩
  | .hbm, ⟨14, _⟩ => ⟨S1x160000, .i32⟩
  | .hbm, ⟨15, _⟩ => ⟨S160000, .i32⟩
  | .hbm, ⟨16, _⟩ => ⟨S1x160000, .i32⟩
  | .hbm, ⟨17, _⟩ => ⟨S160000, .i32⟩
  | .hbm, ⟨18, _⟩ => ⟨S_, .i32⟩
  | .hbm, ⟨19, _⟩ => ⟨S160000, .i32⟩
  | .hbm, ⟨20, _⟩ => ⟨S160000, .i1⟩
  | .hbm, ⟨21, _⟩ => ⟨S_, .i32⟩
  | .hbm, ⟨22, _⟩ => ⟨S160000, .i32⟩
  | .hbm, ⟨23, _⟩ => ⟨S160000, .i32⟩
  | .hbm, ⟨24, _⟩ => ⟨S160000, .i32⟩
  | .hbm, ⟨25, _⟩ => ⟨S160000x1, .i32⟩
  | .hbm, ⟨26, _⟩ => ⟨S160000x256, .f32⟩
  | .hbm, ⟨27, _⟩ => ⟨S_, .f32⟩
  | .hbm, ⟨28, _⟩ => ⟨S10000x256, .f32⟩
  | .hbm, ⟨29, _⟩ => ⟨S160000x1, .i32⟩
  | .hbm, ⟨30, _⟩ => ⟨S10000x256, .f32⟩
  | .hbm, ⟨31, _⟩ => ⟨S_, .f32⟩
  | .hbm, ⟨32, _⟩ => ⟨S160000, .f32⟩
  | .hbm, ⟨33, _⟩ => ⟨S_, .f32⟩
  | .hbm, ⟨34, _⟩ => ⟨S10000, .f32⟩
  | .hbm, ⟨35, _⟩ => ⟨S160000x1, .i32⟩
  | .hbm, ⟨36, _⟩ => ⟨S10000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S10000x1, .f32⟩
  | .hbm, ⟨41, _⟩ => ⟨S10000x256, .f32⟩
  | .hbm, ⟨42, _⟩ => ⟨S10000x256, .f32⟩
  | .hbm, ⟨43, _⟩ => ⟨S1x256, .f32⟩
  | .hbm, ⟨44, _⟩ => ⟨S1x128, .f32⟩
  | .hbm, ⟨45, _⟩ => ⟨S1x64, .f32⟩
  | .hbm, ⟨46, _⟩ => ⟨S1x32, .f32⟩
  | .hbm, ⟨47, _⟩ => ⟨S1x3, .f32⟩
  | .hbm, ⟨48, _⟩ => ⟨S10000x3, .f32⟩
  | .hbm, ⟨49, _⟩ => ⟨S3x10000, .f32⟩
  | .hbm, ⟨50, _⟩ => ⟨S10000x10000, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x512, .f32⟩
  | .local _ .vmem, ⟨8, _⟩ => ⟨S1000x512, .f32⟩
  | .local _ .vmem, ⟨9, _⟩ => ⟨S1x256, .f32⟩
  | .local _ .vmem, ⟨10, _⟩ => ⟨S512x256, .f32⟩
  | .local _ .vmem, ⟨11, _⟩ => ⟨S256x128, .f32⟩
  | .local _ .vmem, ⟨12, _⟩ => ⟨S1x128, .f32⟩
  | .local _ .vmem, ⟨13, _⟩ => ⟨S128x64, .f32⟩
  | .local _ .vmem, ⟨14, _⟩ => ⟨S1x64, .f32⟩
  | .local _ .vmem, ⟨15, _⟩ => ⟨S64x32, .f32⟩
  | .local _ .vmem, ⟨16, _⟩ => ⟨S1x32, .f32⟩
  | .local _ .vmem, ⟨17, _⟩ => ⟨S32x3, .f32⟩
  | .local _ .vmem, ⟨18, _⟩ => ⟨S1x3, .f32⟩
  | .local _ .vmem, ⟨19, _⟩ => ⟨S1000x3, .f32⟩
  | .local _ .vmem, ⟨20, _⟩ => ⟨S1000x3, .f32⟩
  | .local _ .vmem, ⟨21, _⟩ => ⟨S200x3, .f32⟩
  | .local _ .vmem, ⟨22, _⟩ => ⟨S200x3, .f32⟩
  | .local _ .vmem, ⟨23, _⟩ => ⟨S3x10000, .f32⟩
  | .local _ .vmem, ⟨24, _⟩ => ⟨S200x10000, .f32⟩
  | .local _ .vmem, ⟨25, _⟩ => ⟨S200x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg12_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem12_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S32x3 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x3 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1000x3 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x10000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x10000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1000x256_S1000x256_0_0 : ∀ a, (![0, 0] : Fin 2 → Nat) a + S1000x256.size a ≤ S1000x256.size a
  h_S1000x256 : 0 < S1000x256.numel
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  shapeCasts_S256_S1x256 : S256.ShapeCasts S1x256
  shapeCasts_S128_S1x128 : S128.ShapeCasts S1x128
  shapeCasts_S64_S1x64 : S64.ShapeCasts S1x64
  shapeCasts_S32_S1x32 : S32.ShapeCasts S1x32
  shapeCasts_S3_S1x3 : S3.ShapeCasts S1x3
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1000x3 : S1x3.Broadcasts S1000x3
  inb_S1000x3_S1000x3_0_0 : ∀ a, (![0, 0] : Fin 2 → Nat) a + S1000x3.size a ≤ S1000x3.size a
  h_S1000x3 : 0 < S1000x3.numel
  transposes_S10000x3_S3x10000_1_0 : S10000x3.Transposes [1, 0] S3x10000
  inb_S200x3_S200x3_0_0 : ∀ a, (![0, 0] : Fin 2 → Nat) a + S200x3.size a ≤ S200x3.size a
  h_S200x3 : 0 < S200x3.numel
  shapeCasts_S200x3_S200x3 : S200x3.ShapeCasts S200x3
  inb_S3x10000_S3x10000_0_0 : ∀ a, (![0, 0] : Fin 2 → Nat) a + S3x10000.size a ≤ S3x10000.size a
  h_S3x10000 : 0 < S3x10000.numel
  shapeCasts_S3x10000_S3x10000 : S3x10000.ShapeCasts S3x10000
  slices_S200x3_o0_0_S200x1 : S200x3.Slices ![0, 0] S200x1
  slices_S3x10000_o0_0_S1x10000 : S3x10000.Slices ![0, 0] S1x10000
  broadcasts_S200x1_S200x10000 : S200x1.Broadcasts S200x10000
  broadcasts_S1x10000_S200x10000 : S1x10000.Broadcasts S200x10000
  slices_S200x3_o0_1_S200x1 : S200x3.Slices ![0, 1] S200x1
  slices_S3x10000_o1_0_S1x10000 : S3x10000.Slices ![1, 0] S1x10000
  slices_S200x3_o0_2_S200x1 : S200x3.Slices ![0, 2] S200x1
  slices_S3x10000_o2_0_S1x10000 : S3x10000.Slices ![2, 0] S1x10000
  inb_S200x10000_S200x10000_0_0 : ∀ a, (![0, 0] : Fin 2 → Nat) a + S200x10000.size a ≤ S200x10000.size a
  h_S200x10000 : 0 < S200x10000.numel
  dot_S1000x512_S512x256_S1000x256_1_0_0_1_n_n_wf : DotDims.WF S1000x512 S512x256 S1000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  scatter_S10000_S160000x1_S160000_n_0_0_1_wf : ScatterDims.WF S10000 S160000x1 S160000 [] [0] [0] 1
  dot_S1000x256_S256x128_S1000x128_1_0_0_1_n_n_wf : DotDims.WF S1000x256 S256x128 S1000x128 [1] [0] [0] [1] [] []
  dot_S1000x128_S128x64_S1000x64_1_0_0_1_n_n_wf : DotDims.WF S1000x128 S128x64 S1000x64 [1] [0] [0] [1] [] []
  dot_S1000x64_S64x32_S1000x32_1_0_0_1_n_n_wf : DotDims.WF S1000x64 S64x32 S1000x32 [1] [0] [0] [1] [] []
  dot_S1000x32_S32x3_S1000x3_1_0_0_1_n_n_wf : DotDims.WF S1000x32 S32x3 S1000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S10000x512.size a
  hwx1_1 : ∀ i : grid1.Coords, EltTy.bits .f32 = 32 ∨ (Rect.block (s := S10000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x32.size a ≤ S64x32.size a
  hwx1_8 : ∀ i : grid1.Coords, EltTy.bits .f32 = 32 ∨ (Rect.block (s := S64x32) S64x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S32x3.size a ≤ S32x3.size a
  hwx1_10 : ∀ i : grid1.Coords, EltTy.bits .f32 = 32 ∨ (Rect.block (s := S32x3) S32x3.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x3.size a ≤ S1x3.size a
  hwx1_11 : ∀ i : grid1.Coords, EltTy.bits .f32 = 32 ∨ (Rect.block (s := S1x3) S1x3.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1000x3.size a ≤ S10000x3.size a
  hwx1_12 : ∀ i : grid1.Coords, EltTy.bits .f32 = 32 ∨ (Rect.block (s := S10000x3) S1000x3.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x3.size a ≤ S10000x3.size a
  hwx2_0 : ∀ i : grid2.Coords, EltTy.bits .f32 = 32 ∨ (Rect.block (s := S10000x3) S200x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x10000.size a ≤ S3x10000.size a
  hwx2_1 : ∀ i : grid2.Coords, EltTy.bits .f32 = 32 ∨ (Rect.block (s := S3x10000) S3x10000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x10000.size a ≤ S10000x10000.size a
  hwx2_2 : ∀ i : grid2.Coords, EltTy.bits .f32 = 32 ∨ (Rect.block (s := S10000x10000) S200x10000.size (cc2_transform_2 i) (hinb2_2 i)).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def dot_S1000x32_S32x3_S1000x3_1_0_0_1_n_n : DotDims S1000x32 S32x3 S1000x3 where
  lhsContracting := [1]
  rhsContracting := [0]
  lhsNonContracting := [0]
  rhsNonContracting := [1]
  lhsBatch := []
  rhsBatch := []
  wf := dot_S1000x32_S32x3_S1000x3_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S64x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S32x3.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v28) S1x3.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v29) S1000x3.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v29) S200x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S3x10000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S200x10000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S10000x128 : Shape := ⟨2, ![10000, 128]⟩
abbrev S1x128 : Shape := ⟨2, ![1, 128]⟩
abbrev S10000x64 : Shape := ⟨2, ![10000, 64]⟩
abbrev S1x64 : Shape := ⟨2, ![1, 64]⟩
abbrev S10000x32 : Shape := ⟨2, ![10000, 32]⟩
abbrev S1x32 : Shape := ⟨2, ![1, 32]⟩
abbrev S10000x3 : Shape := ⟨2, ![10000, 3]⟩
abbrev S1x3 : Shape := ⟨2, ![1, 3]⟩
abbrev S1x10000 : Shape := ⟨2, ![1, 10000]⟩
abbrev S10000x10000 : Shape := ⟨2, ![10000, 10000]⟩
abbrev S3x10000 : Shape := ⟨2, ![3, 10000]⟩

abbrev nBuf : Space → Nat
  | .hbm => 108
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x3, .f32⟩
  | .hbm, ⟨12, _⟩ => ⟨S3, .f32⟩
  | .hbm, ⟨13, _⟩ => ⟨S1x160000, .i32⟩
  | .hbm, ⟨14, _⟩ => ⟨S160000, .i32⟩
  | .hbm, ⟨15, _⟩ => ⟨S1x160000, .i32⟩
  | .hbm, ⟨16, _⟩ => ⟨S160000, .i32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S160000x1, .i32⟩
  | .hbm, ⟨25, _⟩ => ⟨S160000x512, .f32⟩
  | .hbm, ⟨26, _⟩ => ⟨S_, .f32⟩
  | .hbm, ⟨27, _⟩ => ⟨S10000x512, .f32⟩
  | .hbm, ⟨28, _⟩ => ⟨S160000x1, .i32⟩
  | .hbm, ⟨29, _⟩ => ⟨S10000x512, .f32⟩
  | .hbm, ⟨30, _⟩ => ⟨S_, .f32⟩
  | .hbm, ⟨31, _⟩ => ⟨S160000, .f32⟩
  | .hbm, ⟨32, _⟩ => ⟨S_, .f32⟩
  | .hbm, ⟨33, _⟩ => ⟨S10000, .f32⟩
  | .hbm, ⟨34, _⟩ => ⟨S160000x1, .i32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x512, .f32⟩
  | .hbm, ⟨41, _⟩ => ⟨S10000x512, .f32⟩
  | .hbm, ⟨42, _⟩ => ⟨S10000x256, .f32⟩
  | .hbm, ⟨43, _⟩ => ⟨S1x256, .f32⟩
  | .hbm, ⟨44, _⟩ => ⟨S10000x256, .f32⟩
  | .hbm, ⟨45, _⟩ => ⟨S10000x256, .f32⟩
  | .hbm, ⟨46, _⟩ => ⟨S10000x256, .f32⟩
  | .hbm, ⟨47, _⟩ => ⟨S10000x256, .f32⟩
  | .hbm, ⟨48, _⟩ => ⟨S_, .f32⟩
  | .hbm, ⟨49, _⟩ => ⟨S10000x256, .f32⟩
  | .hbm, ⟨50, _⟩ => ⟨S10000x256, .f32⟩
  | .hbm, ⟨51, _⟩ => ⟨S10000x128, .f32⟩
  | .hbm, ⟨52, _⟩ => ⟨S1x128, .f32⟩
  | .hbm, ⟨53, _⟩ => ⟨S10000x128, .f32⟩
  | .hbm, ⟨54, _⟩ => ⟨S10000x128, .f32⟩
  | .hbm, ⟨55, _⟩ => ⟨S_, .f32⟩
  | .hbm, ⟨56, _⟩ => ⟨S10000x128, .f32⟩
  | .hbm, ⟨57, _⟩ => ⟨S10000x128, .f32⟩
  | .hbm, ⟨58, _⟩ => ⟨S10000x64, .f32⟩
  | .hbm, ⟨59, _⟩ => ⟨S1x64, .f32⟩
  | .hbm, ⟨60, _⟩ => ⟨S10000x64, .f32⟩
  | .hbm, ⟨61, _⟩ => ⟨S10000x64, .f32⟩
  | .hbm, ⟨62, _⟩ => ⟨S_, .f32⟩
  | .hbm, ⟨63, _⟩ => ⟨S10000x64, .f32⟩
  | .hbm, ⟨64, _⟩ => ⟨S10000x64, .f32⟩
  | .hbm, ⟨65, _⟩ => ⟨S10000x32, .f32⟩
  | .hbm, ⟨66, _⟩ => ⟨S1x32, .f32⟩
  | .hbm, ⟨67, _⟩ => ⟨S10000x32, .f32⟩
  | .hbm, ⟨68, _⟩ => ⟨S10000x32, .f32⟩
  | .hbm, ⟨69, _⟩ => ⟨S_, .f32⟩
  | .hbm, ⟨70, _⟩ => ⟨S10000x32, .f32⟩
  | .hbm, ⟨71, _⟩ => ⟨S10000x32, .f32⟩
  | .hbm, ⟨72, _⟩ => ⟨S10000x3, .f32⟩
  | .hbm, ⟨73, _⟩ => ⟨S1x3, .f32⟩
  | .hbm, ⟨74, _⟩ => ⟨S10000x3, .f32⟩
  | .hbm, ⟨75, _⟩ => ⟨S10000x3, .f32⟩
  | .hbm, ⟨76, _⟩ => ⟨S10000x3, .f32⟩
  | .hbm, ⟨77, _⟩ => ⟨S_, .f32⟩
  | .hbm, ⟨78, _⟩ => ⟨S10000, .f32⟩
  | .hbm, ⟨79, _⟩ => ⟨S10000x1, .f32⟩
  | .hbm, ⟨80, _⟩ => ⟨S1x10000, .f32⟩
  | .hbm, ⟨81, _⟩ => ⟨S10000x10000, .f32⟩
  | .hbm, ⟨82, _⟩ => ⟨S10000x10000, .f32⟩
  | .hbm, ⟨83, _⟩ => ⟨S10000x10000, .f32⟩
  | .hbm, ⟨84, _⟩ => ⟨S3x10000, .f32⟩
  | .hbm, ⟨85, _⟩ => ⟨S10000x10000, .f32⟩
  | .hbm, ⟨86, _⟩ => ⟨S_, .f32⟩
  | .hbm, ⟨87, _⟩ => ⟨S10000x10000, .f32⟩
  | .hbm, ⟨88, _⟩ => ⟨S10000x10000, .f32⟩
  | .hbm, ⟨89, _⟩ => ⟨S10000x10000, .f32⟩
  | .hbm, ⟨90, _⟩ => ⟨S_, .f32⟩
  | .hbm, ⟨91, _⟩ => ⟨S10000x10000, .f32⟩
  | .hbm, ⟨92, _⟩ => ⟨S10000x10000, .f32⟩
  | .hbm, ⟨93, _⟩ => ⟨S_, .f32⟩
  | .hbm, ⟨94, _⟩ => ⟨S10000x10000, .f32⟩
  | .hbm, ⟨95, _⟩ => ⟨S10000x10000, .i1⟩
  | .hbm, ⟨96, _⟩ => ⟨S_, .f32⟩
  | .hbm, ⟨97, _⟩ => ⟨S_, .f32⟩
  | .hbm, ⟨98, _⟩ => ⟨S10000x10000, .f32⟩
  | .hbm, ⟨99, _⟩ => ⟨S10000x10000, .f32⟩
  | .hbm, ⟨100, _⟩ => ⟨S_, .f32⟩
  | .hbm, ⟨101, _⟩ => ⟨S10000x10000, .f32⟩
  | .hbm, ⟨102, _⟩ => ⟨S10000x10000, .i1⟩
  | .hbm, ⟨103, _⟩ => ⟨S10000x10000, .f32⟩
  | .hbm, ⟨104, _⟩ => ⟨S_, .f32⟩
  | .hbm, ⟨105, _⟩ => ⟨S_, .f32⟩
  | .hbm, ⟨106, _⟩ => ⟨S10000x10000, .f32⟩
  | .hbm, ⟨107, _⟩ => ⟨S10000x10000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call3_cst : Ref sig .tc := ⟨.hbm, 69, rfl⟩
abbrev main_call3_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_5 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_call4_v0 : Ref sig .tc := ⟨.hbm, 97, rfl⟩
abbrev main_call4_v1 : Ref sig .tc := ⟨.hbm, 98, rfl⟩
abbrev main_v65 : Ref sig .tc := ⟨.hbm, 99, rfl⟩
abbrev main_cst_9 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_call5_v0 : Ref sig .tc := ⟨.hbm, 105, rfl⟩
abbrev main_call5_v1 : Ref sig .tc := ⟨.hbm, 106, rfl⟩
abbrev main_v69 : Ref sig .tc := ⟨.hbm, 107, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S3_S1x3_1 : S3.BroadcastsInDim S1x3 (![1] : Fin 1 → Fin S1x3.rank)
  bcast_S1x3_S10000x3_0_1 : S1x3.BroadcastsInDim S10000x3 (![0, 1] : Fin 2 → Fin S10000x3.rank)
  reducesTo_S10000x3_S10000_d1 : S10000x3.ReducesTo [1] S10000
  h_S_ : 0 < S_.numel
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  transposes_S10000x3_S3x10000_1_0 : S10000x3.Transposes [1, 0] S3x10000
  bcast_S_S10000x10000 : S_.BroadcastsInDim S10000x10000 (![] : Fin 0 → Fin S10000x10000.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x256_S10000x256_1_0_0_1_n_n_wf : DotDims.WF S10000x512 S512x256 S10000x256 [1] [0] [0] [1] [] []
  dot_S10000x256_S256x128_S10000x128_1_0_0_1_n_n_wf : DotDims.WF S10000x256 S256x128 S10000x128 [1] [0] [0] [1] [] []
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S10000x32_S32x3_S10000x3_1_0_0_1_n_n_wf : DotDims.WF S10000x32 S32x3 S10000x3 [1] [0] [0] [1] [] []
  dot_S10000x3_S3x10000_S10000x10000_1_0_0_1_n_n_wf : DotDims.WF S10000x3 S3x10000 S10000x10000 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x3_S10000x3_1_0_0_1_n_n : DotDims S10000x32 S32x3 S10000x3 where
  lhsContracting := [1]
  rhsContracting := [0]
  lhsNonContracting := [0]
  rhsNonContracting := [1]
  lhsBatch := []
  rhsBatch := []
  wf := dot_S10000x32_S32x3_S10000x3_1_0_0_1_n_n_wf
def dot_S10000x3_S3x10000_S10000x10000_1_0_0_1_n_n : DotDims S10000x3 S3x10000 S10000x10000 where
  lhsContracting := [1]
  rhsContracting := [0]
  lhsNonContracting := [0]
  rhsNonContracting := [1]
  lhsBatch := []
  rhsBatch := []
  wf := dot_S10000x3_S3x10000_S10000x10000_1_0_0_1_n_n_wf

class Facts : Prop extends Facts₀ where

variable [Facts]
-- ==== Proof.KernelRun.lean ====
/-
  The idealized kernel's run with its result named: every weakly fair execution of the program terminates without a
  fault, its thirteen argument arrays end as launched, and the result array ends holding what the last of the three
  pipelined regions leaves there (the contents at the last segment boundary, read at the result's buffer).
  The three regions and the two stretches of array operations between them are run as a chain of segments; the
  final thread state holds every buffer at the last boundary's contents, and the result is read off it beside the
  arguments.
-/
import proofs.«152311_j26620207301224_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run : θ_run defs (onTc (τ := τ) (main (F := F))) ⟨m, fun _ => 0, ρ⟩ (fun r => ∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v31 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.RunNamed

end
-- ==== Proof.Spec.lean ====
/-
  The mathematics of the certificate, with no program in sight.

  A graph layer with mean aggregation over incoming edges, a chain of four affine maps with a positive part between them,
  and the matrix of pairwise Euclidean distances of the resulting points of R^3.  Matrices are functions of two
  finite indices into the extended reals; a matrix product is the sum over the contracted index.

  Two arrangements of the same computation are stated:
  * the FIRST projects the features through the neighbour weights and then averages the projected rows over the edges
    landing on a node, and takes a distance as the square root of the sum of the three squared coordinate differences;
  * the SECOND averages the raw feature rows and then projects, and takes a distance through the norm identity
    |a|^2 + |b|^2 - 2 a.b, clamped at zero and guarded at zero.
  That the two agree on real entries is proved elsewhere; here are only the definitions.
-/
import Idealize.ShloMosaic.PureOps.Ideal
import Idealize.ShloMosaic.Lib.ValueIdx
import Mathlib.Algebra.BigOperators.Group.Finset.Basic

noncomputable section

namespace Cert.SageDist

open Idealize.ShloMosaic Idealize.ShloMosaic.ValueIdx

/-- A matrix of extended reals. -/
abbrev Mat (a b : Nat) := Fin a → Fin b → EReal

/-- An array of rank 2 read as a matrix. -/
def toMat {a b : Nat} (A : (⟨2, ![a, b]⟩ : Shape).Idx → EReal) : Mat a b := fun p q => A (ix2 p q)
/-- An array of rank 1 read as a vector. -/
def toVec {a : Nat} (v : (⟨1, ![a]⟩ : Shape).Idx → EReal) : Fin a → EReal := fun p => v (ix1 p)

/-- The matrix product: entry (i, j) is the sum over t of A i t * B t j. -/
def mm {a k b : Nat} (A : Mat a k) (B : Mat k b) : Mat a b := fun i j => ∑ t : Fin k, A i t * B t j

/-- An affine map applied to every row: H W + bias. -/
def affine {a k b : Nat} (H : Mat a k) (W : Mat k b) (bias : Fin b → EReal) : Mat a b := fun i j => mm H W i j + bias j

/-- The positive part, entry by entry. -/
def relu {a b : Nat} (H : Mat a b) : Mat a b := fun i j => max (H i j) 0

/-- The float 1.0 and the float 2.0 as the programs spell them. -/
abbrev oneF : EReal := Ideal.ofBits .f32 0x3F800000#32
abbrev twoF : EReal := Ideal.ofBits .f32 0x40000000#32

/-- The divisor of node n: the number of edges whose target (an integer d e) is n, counted in ones, and at least one. -/
def degree {N E : Nat} (d : Fin E → Int) (n : Fin N) : EReal :=
  max (∑ e : Fin E, if d e = (n.val : Int) then oneF else 0) oneF

/-- Mean aggregation: row n is the sum, over the edges e whose target is n, of row s e of Z, divided by the degree. -/
def meanAgg {N E C : Nat} (s : Fin E → Fin N) (d : Fin E → Int) (Z : Mat N C) : Mat N C :=
  fun n c => Ideal.div (∑ e : Fin E, if d e = (n.val : Int) then Z (s e) c else 0) (degree d n)

/-- The first arrangement's graph layer: project, then aggregate. -/
def headProj {N E D C : Nat} (s : Fin E → Fin N) (d : Fin E → Int) (X : Mat N D) (Wl Wr : Mat D C) (bl : Fin C → EReal) : Mat N C :=
  fun n c => (mm X Wr n c + meanAgg s d (mm X Wl) n c) + bl c

/-- The second arrangement's graph layer: aggregate, then project. -/
def headAggr {N E D C : Nat} (s : Fin E → Fin N) (d : Fin E → Int) (X : Mat N D) (Wl Wr : Mat D C) (bl : Fin C → EReal) : Mat N C :=
  fun n c => (mm (meanAgg s d X) Wl n c + bl c) + mm X Wr n c

/-- The chain after the graph layer: positive part, then four affine maps with a positive part between them. -/
def chain {N C C1 C2 C3 C4 : Nat} (H0 : Mat N C) (Wa : Mat C C1) (ba : Fin C1 → EReal) (W1 : Mat C1 C2) (b1 : Fin C2 → EReal)
    (W2 : Mat C2 C3) (b2 : Fin C3 → EReal) (W3 : Mat C3 C4) (b3 : Fin C4 → EReal) : Mat N C4 :=
  affine (relu (affine (relu (affine (relu (affine (relu H0) Wa ba)) W1 b1)) W2 b2)) W3 b3

/-- Pairwise distance, directly: the square root of the sum of the squared coordinate differences. -/
def distDirect {N : Nat} (H : Mat N 3) : Mat N N := fun i j =>
  Ideal.sqrt (((H i 0 - H j 0) * (H i 0 - H j 0) + (H i 1 - H j 1) * (H i 1 - H j 1)) + (H i 2 - H j 2) * (H i 2 - H j 2))

/-- The squared distance through the norm identity, clamped at zero. -/
def sqNormTrick {N : Nat} (H : Mat N 3) (i j : Fin N) : EReal :=
  max (((∑ k : Fin 3, H i k * H i k) + (∑ k : Fin 3, H j k * H j k)) - twoF * (∑ k : Fin 3, H i k * H j k)) 0

/-- Pairwise distance through the norm identity: zero where the clamped square is not positive, else its root. -/
def distNormTrick {N : Nat} (H : Mat N 3) : Mat N N := fun i j =>
  if 0 < sqNormTrick H i j then Ideal.sqrt (if 0 < sqNormTrick H i j then sqNormTrick H i j else oneF) else 0

/-- The first arrangement, end to end. -/
def valueProj {N E D C C1 C2 C3 : Nat} (s : Fin E → Fin N) (d : Fin E → Int) (X : Mat N D) (Wl : Mat D C) (bl : Fin C → EReal) (Wr : Mat D C)
    (Wa : Mat C C1) (ba : Fin C1 → EReal) (W1 : Mat C1 C2) (b1 : Fin C2 → EReal)
    (W2 : Mat C2 C3) (b2 : Fin C3 → EReal) (W3 : Mat C3 3) (b3 : Fin 3 → EReal) : Mat N N :=
  distDirect (chain (headProj s d X Wl Wr bl) Wa ba W1 b1 W2 b2 W3 b3)

/-- The second arrangement, end to end. -/
def valueAggr {N E D C C1 C2 C3 : Nat} (s : Fin E → Fin N) (d : Fin E → Int) (X : Mat N D) (Wl : Mat D C) (bl : Fin C → EReal) (Wr : Mat D C)
    (Wa : Mat C C1) (ba : Fin C1 → EReal) (W1 : Mat C1 C2) (b1 : Fin C2 → EReal)
    (W2 : Mat C2 C3) (b2 : Fin C3 → EReal) (W3 : Mat C3 3) (b3 : Fin 3 → EReal) : Mat N N :=
  distNormTrick (chain (headAggr s d X Wl Wr bl) Wa ba W1 b1 W2 b2 W3 b3)

end Cert.SageDist

end
-- ==== Proof.KernelProducts.lean ====
/-
  The matrix products the kernel bodies take, read at an entry: a product into a zero accumulator is, at the exact
  extended-real reading, the sum over the contracted index of the products of the two operands' entries.
  One statement per pair of block shapes the three bodies multiply; the four small facts before each say which
  coordinate of an operand's index comes from the result's index and which from the contracted one.
-/
import proofs.«152311_j26620207301224_2_alg».proof.Proof.Gen.KernelIdeal.Frame
import proofs.«152311_j26620207301224_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Products

open Cert.KernelIdeal Cert.KernelIdeal.Gen Cert.SageDist
open Idealize.ShloMosaic Idealize.ShloMosaic.TcCoe Idealize.ShloMosaic.ValueIdx Idealize.SL.Sem
open Idealize.ShloMosaic.Pipeline (Dat Cfg Window)

/-- An array of extended reals, with its index type and entry type spelled out. -/
abbrev asArr (S : Shape) (v : S.Idx → EReal) : S.Idx → EReal := v

theorem lhs0_1000_512_256 (i : S1000x256.Idx) (q : dot_S1000x512_S512x256_S1000x256_1_0_0_1_n_n.contr.Idx) : (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem lhs1_1000_512_256 (i : S1000x256.Idx) (q : dot_S1000x512_S512x256_S1000x256_1_0_0_1_n_n.contr.Idx) : (dot_S1000x512_S512x256_S1000x256_1_0_0_1_n_n.lhsIdx i q 1).val = (q ⟨0, by decide⟩).val :=
  dot_S1000x512_S512x256_S1000x256_1_0_0_1_n_n.lhsIdx_val_of_single rfl i q
theorem rhs0_1000_512_256 (i : S1000x256.Idx) (q : dot_S1000x512_S512x256_S1000x256_1_0_0_1_n_n.contr.Idx) : (dot_S1000x512_S512x256_S1000x256_1_0_0_1_n_n.rhsIdx i q 0).val = (q ⟨0, by decide⟩).val :=
  dot_S1000x512_S512x256_S1000x256_1_0_0_1_n_n.rhsIdx_val_of_single rfl i q
theorem rhs1_1000_512_256 (i : S1000x256.Idx) (q : dot_S1000x512_S512x256_S1000x256_1_0_0_1_n_n.contr.Idx) : (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-- A 1000×512 by 512×256 product into a zero accumulator, read at (p, q): the sum over the contracted index. -/
theorem matmul_1000_512_256 {φ₁ φ₂ : FTy} (lhs : FVec Ideal S1000x512 φ₁) (rhs : FVec Ideal S512x256 φ₂) (p : Fin 1000) (q : Fin 256) :
    matmul dot_S1000x512_S512x256_S1000x256_1_0_0_1_n_n none lhs rhs (constant S1000x256 .f32 0x00000000#32) (ix2 p q)
      = ∑ k : Fin 512, lhs (ix2 p k) * rhs (ix2 k q) := by
  show FloatOps.matmul dot_S1000x512_S512x256_S1000x256_1_0_0_1_n_n none lhs rhs (constant S1000x256 .f32 0x00000000#32) (ix2 p q) = _
  rw [Ideal.matmul_constant_zero_apply, ← Equiv.sum_comp (ValueIdx.contrEquiv1 dot_S1000x512_S512x256_S1000x256_1_0_0_1_n_n 512 rfl rfl).symm]
  refine Finset.sum_congr rfl fun k _ => ?_
  have hk := ValueIdx.contrEquiv1_symm_val dot_S1000x512_S512x256_S1000x256_1_0_0_1_n_n 512 rfl rfl k
  have el : dot_S1000x512_S512x256_S1000x256_1_0_0_1_n_n.lhsIdx (ix2 p q) ((ValueIdx.contrEquiv1 dot_S1000x512_S512x256_S1000x256_1_0_0_1_n_n 512 rfl rfl).symm k) = ix2 p k := funext fun a => Fin.ext (by
    match a with
    | ⟨0, _⟩ => exact lhs0_1000_512_256 _ _
    | ⟨1, _⟩ => exact (lhs1_1000_512_256 _ _).trans hk)
  have er : dot_S1000x512_S512x256_S1000x256_1_0_0_1_n_n.rhsIdx (ix2 p q) ((ValueIdx.contrEquiv1 dot_S1000x512_S512x256_S1000x256_1_0_0_1_n_n 512 rfl rfl).symm k) = ix2 k q := funext fun a => Fin.ext (by
    match a with
    | ⟨0, _⟩ => exact (rhs0_1000_512_256 _ _).trans hk
    | ⟨1, _⟩ => exact rhs1_1000_512_256 _ _)
  rw [el, er]

theorem lhs0_1000_256_128 (i : S1000x128.Idx) (q : dot_S1000x256_S256x128_S1000x128_1_0_0_1_n_n.contr.Idx) : (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem lhs1_1000_256_128 (i : S1000x128.Idx) (q : dot_S1000x256_S256x128_S1000x128_1_0_0_1_n_n.contr.Idx) : (dot_S1000x256_S256x128_S1000x128_1_0_0_1_n_n.lhsIdx i q 1).val = (q ⟨0, by decide⟩).val :=
  dot_S1000x256_S256x128_S1000x128_1_0_0_1_n_n.lhsIdx_val_of_single rfl i q
theorem rhs0_1000_256_128 (i : S1000x128.Idx) (q : dot_S1000x256_S256x128_S1000x128_1_0_0_1_n_n.contr.Idx) : (dot_S1000x256_S256x128_S1000x128_1_0_0_1_n_n.rhsIdx i q 0).val = (q ⟨0, by decide⟩).val :=
  dot_S1000x256_S256x128_S1000x128_1_0_0_1_n_n.rhsIdx_val_of_single rfl i q
theorem rhs1_1000_256_128 (i : S1000x128.Idx) (q : dot_S1000x256_S256x128_S1000x128_1_0_0_1_n_n.contr.Idx) : (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- A 1000×256 by 256×128 product into a zero accumulator, read at (p, q): the sum over the contracted index. -/
theorem matmul_1000_256_128 {φ₁ φ₂ : FTy} (lhs : FVec Ideal S1000x256 φ₁) (rhs : FVec Ideal S256x128 φ₂) (p : Fin 1000) (q : Fin 128) :
    matmul dot_S1000x256_S256x128_S1000x128_1_0_0_1_n_n none lhs rhs (constant S1000x128 .f32 0x00000000#32) (ix2 p q)
      = ∑ k : Fin 256, lhs (ix2 p k) * rhs (ix2 k q) := by
  show FloatOps.matmul dot_S1000x256_S256x128_S1000x128_1_0_0_1_n_n none lhs rhs (constant S1000x128 .f32 0x00000000#32) (ix2 p q) = _
  rw [Ideal.matmul_constant_zero_apply, ← Equiv.sum_comp (ValueIdx.contrEquiv1 dot_S1000x256_S256x128_S1000x128_1_0_0_1_n_n 256 rfl rfl).symm]
  refine Finset.sum_congr rfl fun k _ => ?_
  have hk := ValueIdx.contrEquiv1_symm_val dot_S1000x256_S256x128_S1000x128_1_0_0_1_n_n 256 rfl rfl k
  have el : dot_S1000x256_S256x128_S1000x128_1_0_0_1_n_n.lhsIdx (ix2 p q) ((ValueIdx.contrEquiv1 dot_S1000x256_S256x128_S1000x128_1_0_0_1_n_n 256 rfl rfl).symm k) = ix2 p k := funext fun a => Fin.ext (by
    match a with
    | ⟨0, _⟩ => exact lhs0_1000_256_128 _ _
    | ⟨1, _⟩ => exact (lhs1_1000_256_128 _ _).trans hk)
  have er : dot_S1000x256_S256x128_S1000x128_1_0_0_1_n_n.rhsIdx (ix2 p q) ((ValueIdx.contrEquiv1 dot_S1000x256_S256x128_S1000x128_1_0_0_1_n_n 256 rfl rfl).symm k) = ix2 k q := funext fun a => Fin.ext (by
    match a with
    | ⟨0, _⟩ => exact (rhs0_1000_256_128 _ _).trans hk
    | ⟨1, _⟩ => exact rhs1_1000_256_128 _ _)
  rw [el, er]

theorem lhs0_1000_128_64 (i : S1000x64.Idx) (q : dot_S1000x128_S128x64_S1000x64_1_0_0_1_n_n.contr.Idx) : (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs1_1000_128_64 (i : S1000x64.Idx) (q : dot_S1000x128_S128x64_S1000x64_1_0_0_1_n_n.contr.Idx) : (dot_S1000x128_S128x64_S1000x64_1_0_0_1_n_n.lhsIdx i q 1).val = (q ⟨0, by decide⟩).val :=
  dot_S1000x128_S128x64_S1000x64_1_0_0_1_n_n.lhsIdx_val_of_single rfl i q
theorem rhs0_1000_128_64 (i : S1000x64.Idx) (q : dot_S1000x128_S128x64_S1000x64_1_0_0_1_n_n.contr.Idx) : (dot_S1000x128_S128x64_S1000x64_1_0_0_1_n_n.rhsIdx i q 0).val = (q ⟨0, by decide⟩).val :=
  dot_S1000x128_S128x64_S1000x64_1_0_0_1_n_n.rhsIdx_val_of_single rfl i q
theorem rhs1_1000_128_64 (i : S1000x64.Idx) (q : dot_S1000x128_S128x64_S1000x64_1_0_0_1_n_n.contr.Idx) : (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- A 1000×128 by 128×64 product into a zero accumulator, read at (p, q): the sum over the contracted index. -/
theorem matmul_1000_128_64 {φ₁ φ₂ : FTy} (lhs : FVec Ideal S1000x128 φ₁) (rhs : FVec Ideal S128x64 φ₂) (p : Fin 1000) (q : Fin 64) :
    matmul dot_S1000x128_S128x64_S1000x64_1_0_0_1_n_n none lhs rhs (constant S1000x64 .f32 0x00000000#32) (ix2 p q)
      = ∑ k : Fin 128, lhs (ix2 p k) * rhs (ix2 k q) := by
  show FloatOps.matmul dot_S1000x128_S128x64_S1000x64_1_0_0_1_n_n none lhs rhs (constant S1000x64 .f32 0x00000000#32) (ix2 p q) = _
  rw [Ideal.matmul_constant_zero_apply, ← Equiv.sum_comp (ValueIdx.contrEquiv1 dot_S1000x128_S128x64_S1000x64_1_0_0_1_n_n 128 rfl rfl).symm]
  refine Finset.sum_congr rfl fun k _ => ?_
  have hk := ValueIdx.contrEquiv1_symm_val dot_S1000x128_S128x64_S1000x64_1_0_0_1_n_n 128 rfl rfl k
  have el : dot_S1000x128_S128x64_S1000x64_1_0_0_1_n_n.lhsIdx (ix2 p q) ((ValueIdx.contrEquiv1 dot_S1000x128_S128x64_S1000x64_1_0_0_1_n_n 128 rfl rfl).symm k) = ix2 p k := funext fun a => Fin.ext (by
    match a with
    | ⟨0, _⟩ => exact lhs0_1000_128_64 _ _
    | ⟨1, _⟩ => exact (lhs1_1000_128_64 _ _).trans hk)
  have er : dot_S1000x128_S128x64_S1000x64_1_0_0_1_n_n.rhsIdx (ix2 p q) ((ValueIdx.contrEquiv1 dot_S1000x128_S128x64_S1000x64_1_0_0_1_n_n 128 rfl rfl).symm k) = ix2 k q := funext fun a => Fin.ext (by
    match a with
    | ⟨0, _⟩ => exact (rhs0_1000_128_64 _ _).trans hk
    | ⟨1, _⟩ => exact rhs1_1000_128_64 _ _)
  rw [el, er]

theorem lhs0_1000_64_32 (i : S1000x32.Idx) (q : dot_S1000x64_S64x32_S1000x32_1_0_0_1_n_n.contr.Idx) : (dot_S1000x64_S64x32_S1000x32_1_0_0_1_n_n.lhsIdx i q 0).val = (i 0).val := by
  unfold DotDims.lhsIdx
  rw [dif_neg (show ¬(0 : Fin S1000x64.rank) ∈ dot_S1000x64_S64x32_S1000x32_1_0_0_1_n_n.lhsBatch by decide), dif_pos (show (0 : Fin S1000x64.rank) ∈ dot_S1000x64_S64x32_S1000x32_1_0_0_1_n_n.lhsNonContracting by decide)]
  rfl
theorem lhs1_1000_64_32 (i : S1000x32.Idx) (q : dot_S1000x64_S64x32_S1000x32_1_0_0_1_n_n.contr.Idx) : (dot_S1000x64_S64x32_S1000x32_1_0_0_1_n_n.lhsIdx i q 1).val = (q ⟨0, by decide⟩).val :=
  dot_S1000x64_S64x32_S1000x32_1_0_0_1_n_n.lhsIdx_val_of_single rfl i q
theorem rhs0_1000_64_32 (i : S1000x32.Idx) (q : dot_S1000x64_S64x32_S1000x32_1_0_0_1_n_n.contr.Idx) : (dot_S1000x64_S64x32_S1000x32_1_0_0_1_n_n.rhsIdx i q 0).val = (q ⟨0, by decide⟩).val :=
  dot_S1000x64_S64x32_S1000x32_1_0_0_1_n_n.rhsIdx_val_of_single rfl i q
theorem rhs1_1000_64_32 (i : S1000x32.Idx) (q : dot_S1000x64_S64x32_S1000x32_1_0_0_1_n_n.contr.Idx) : (dot_S1000x64_S64x32_S1000x32_1_0_0_1_n_n.rhsIdx i q 1).val = (i 1).val := by
  unfold DotDims.rhsIdx
  rw [dif_neg (show ¬(1 : Fin S64x32.rank) ∈ dot_S1000x64_S64x32_S1000x32_1_0_0_1_n_n.rhsBatch by decide), dif_pos (show (1 : Fin S64x32.rank) ∈ dot_S1000x64_S64x32_S1000x32_1_0_0_1_n_n.rhsNonContracting by decide)]
  rfl

/-- A 1000×64 by 64×32 product into a zero accumulator, read at (p, q): the sum over the contracted index. -/
theorem matmul_1000_64_32 {φ₁ φ₂ : FTy} (lhs : FVec Ideal S1000x64 φ₁) (rhs : FVec Ideal S64x32 φ₂) (p : Fin 1000) (q : Fin 32) :
    matmul dot_S1000x64_S64x32_S1000x32_1_0_0_1_n_n none lhs rhs (constant S1000x32 .f32 0x00000000#32) (ix2 p q)
      = ∑ k : Fin 64, lhs (ix2 p k) * rhs (ix2 k q) := by
  show FloatOps.matmul dot_S1000x64_S64x32_S1000x32_1_0_0_1_n_n none lhs rhs (constant S1000x32 .f32 0x00000000#32) (ix2 p q) = _
  rw [Ideal.matmul_constant_zero_apply, ← Equiv.sum_comp (ValueIdx.contrEquiv1 dot_S1000x64_S64x32_S1000x32_1_0_0_1_n_n 64 rfl rfl).symm]
  refine Finset.sum_congr rfl fun k _ => ?_
  have hk := ValueIdx.contrEquiv1_symm_val dot_S1000x64_S64x32_S1000x32_1_0_0_1_n_n 64 rfl rfl k
  have el : dot_S1000x64_S64x32_S1000x32_1_0_0_1_n_n.lhsIdx (ix2 p q) ((ValueIdx.contrEquiv1 dot_S1000x64_S64x32_S1000x32_1_0_0_1_n_n 64 rfl rfl).symm k) = ix2 p k := funext fun a => Fin.ext (by
    match a with
    | ⟨0, _⟩ => exact lhs0_1000_64_32 _ _
    | ⟨1, _⟩ => exact (lhs1_1000_64_32 _ _).trans hk)
  have er : dot_S1000x64_S64x32_S1000x32_1_0_0_1_n_n.rhsIdx (ix2 p q) ((ValueIdx.contrEquiv1 dot_S1000x64_S64x32_S1000x32_1_0_0_1_n_n 64 rfl rfl).symm k) = ix2 k q := funext fun a => Fin.ext (by
    match a with
    | ⟨0, _⟩ => exact (rhs0_1000_64_32 _ _).trans hk
    | ⟨1, _⟩ => exact rhs1_1000_64_32 _ _)
  rw [el, er]

theorem lhs0_1000_32_3 (i : S1000x3.Idx) (q : dot_S1000x32_S32x3_S1000x3_1_0_0_1_n_n.contr.Idx) : (dot_S1000x32_S32x3_S1000x3_1_0_0_1_n_n.lhsIdx i q 0).val = (i 0).val := by
  unfold DotDims.lhsIdx
  rw [dif_neg (show ¬(0 : Fin S1000x32.rank) ∈ dot_S1000x32_S32x3_S1000x3_1_0_0_1_n_n.lhsBatch by decide), dif_pos (show (0 : Fin S1000x32.rank) ∈ dot_S1000x32_S32x3_S1000x3_1_0_0_1_n_n.lhsNonContracting by decide)]
  rfl
theorem lhs1_1000_32_3 (i : S1000x3.Idx) (q : dot_S1000x32_S32x3_S1000x3_1_0_0_1_n_n.contr.Idx) : (dot_S1000x32_S32x3_S1000x3_1_0_0_1_n_n.lhsIdx i q 1).val = (q ⟨0, by decide⟩).val :=
  dot_S1000x32_S32x3_S1000x3_1_0_0_1_n_n.lhsIdx_val_of_single rfl i q
theorem rhs0_1000_32_3 (i : S1000x3.Idx) (q : dot_S1000x32_S32x3_S1000x3_1_0_0_1_n_n.contr.Idx) : (dot_S1000x32_S32x3_S1000x3_1_0_0_1_n_n.rhsIdx i q 0).val = (q ⟨0, by decide⟩).val :=
  dot_S1000x32_S32x3_S1000x3_1_0_0_1_n_n.rhsIdx_val_of_single rfl i q
theorem rhs1_1000_32_3 (i : S1000x3.Idx) (q : dot_S1000x32_S32x3_S1000x3_1_0_0_1_n_n.contr.Idx) : (dot_S1000x32_S32x3_S1000x3_1_0_0_1_n_n.rhsIdx i q 1).val = (i 1).val := by
  unfold DotDims.rhsIdx
  rw [dif_neg (show ¬(1 : Fin S32x3.rank) ∈ dot_S1000x32_S32x3_S1000x3_1_0_0_1_n_n.rhsBatch by decide), dif_pos (show (1 : Fin S32x3.rank) ∈ dot_S1000x32_S32x3_S1000x3_1_0_0_1_n_n.rhsNonContracting by decide)]
  rfl

/-- A 1000×32 by 32×3 product into a zero accumulator, read at (p, q): the sum over the contracted index. -/
theorem matmul_1000_32_3 {φ₁ φ₂ : FTy} (lhs : FVec Ideal S1000x32 φ₁) (rhs : FVec Ideal S32x3 φ₂) (p : Fin 1000) (q : Fin 3) :
    matmul dot_S1000x32_S32x3_S1000x3_1_0_0_1_n_n none lhs rhs (constant S1000x3 .f32 0x00000000#32) (ix2 p q)
      = ∑ k : Fin 32, lhs (ix2 p k) * rhs (ix2 k q) := by
  show FloatOps.matmul dot_S1000x32_S32x3_S1000x3_1_0_0_1_n_n none lhs rhs (constant S1000x3 .f32 0x00000000#32) (ix2 p q) = _
  rw [Ideal.matmul_constant_zero_apply, ← Equiv.sum_comp (ValueIdx.contrEquiv1 dot_S1000x32_S32x3_S1000x3_1_0_0_1_n_n 32 rfl rfl).symm]
  refine Finset.sum_congr rfl fun k _ => ?_
  have hk := ValueIdx.contrEquiv1_symm_val dot_S1000x32_S32x3_S1000x3_1_0_0_1_n_n 32 rfl rfl k
  have el : dot_S1000x32_S32x3_S1000x3_1_0_0_1_n_n.lhsIdx (ix2 p q) ((ValueIdx.contrEquiv1 dot_S1000x32_S32x3_S1000x3_1_0_0_1_n_n 32 rfl rfl).symm k) = ix2 p k := funext fun a => Fin.ext (by
    match a with
    | ⟨0, _⟩ => exact lhs0_1000_32_3 _ _
    | ⟨1, _⟩ => exact (lhs1_1000_32_3 _ _).trans hk)
  have er : dot_S1000x32_S32x3_S1000x3_1_0_0_1_n_n.rhsIdx (ix2 p q) ((ValueIdx.contrEquiv1 dot_S1000x32_S32x3_S1000x3_1_0_0_1_n_n 32 rfl rfl).symm k) = ix2 k q := funext fun a => Fin.ext (by
    match a with
    | ⟨0, _⟩ => exact (rhs0_1000_32_3 _ _).trans hk
    | ⟨1, _⟩ => exact rhs1_1000_32_3 _ _)
  rw [el, er]

end Cert.KernelIdeal.Products

end
-- ==== Proof.KernelRegion0.lean ====
/-
  The first region: the feature rows projected through the neighbour weights, a thousand rows per grid point.
  Grid point t loads rows 1000 t … 1000 t + 999 of the feature array and the whole weight matrix and writes back the
  product of the two blocks; the ten blocks tile the result, so the array the region leaves is the whole product
  X · W_l, entry (r, c) the sum over k of X r k · W_l k c.
-/
import proofs.«152311_j26620207301224_2_alg».proof.Proof.Gen.KernelIdeal.Frame
import proofs.«152311_j26620207301224_2_alg».proof.Proof.Spec
import proofs.«152311_j26620207301224_2_alg».proof.Proof.KernelProducts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.SageDist
open Idealize.ShloMosaic Idealize.ShloMosaic.TcCoe Idealize.ShloMosaic.ValueIdx Idealize.SL.Sem
open Idealize.ShloMosaic.Pipeline (Dat Cfg Window)

open Cert.KernelIdeal.Products

variable (V : (c : Dev nD) → (b : Ref sig .tc) → Buf (Elt Ideal) ((c : Thread nD τ).loc b))

theorem hz : (![0, 0] : Fin 2 → Nat) = fun _ => 0 := funext fun a => by fin_cases a <;> rfl

/-- The product of the feature array and the neighbour weights, as an array. -/
def proj (X : S10000x512.Idx → EReal) (W : S512x256.Idx → EReal) : S10000x256.Idx → EReal :=
  fun i => mm (toMat X) (toMat W) (i 0) (i 1)

/-- The body's stored value at (p, q): row p of the feature block times column q of the weights. -/
theorem pay_apply (x0 : Vec Ideal S1000x512 .f32) (x1 : Vec Ideal S512x256 .f32) (p : Fin 1000) (q : Fin 256) :
    k0_pay1 (F := Ideal) x0 x1 (ix2 p q) = ∑ k : Fin 512, x0 (ix2 p k) * x1 (ix2 k q) := by
  unfold k0_pay1
  exact matmul_1000_512_256 _ _ p q

/-- The block index maps over the grid: the feature block and the result block move together down the rows, the
    weight block stays. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What grid point t writes back is block t of the whole product. -/
theorem flushed_eq (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero hz]
  simp only [View.ld_unit_zero (S := S1000x512) hz, View.ld_unit_zero (S := S512x256) hz]
  obtain ⟨e0, e1, e2, e3, e4, e5⟩ := idx_facts t
  funext j
  obtain ⟨p, q, rfl⟩ : ∃ (p : Fin 1000) (q : Fin 256), j = ix2 p q := ⟨j 0, j 1, eq_ix2 j⟩
  refine (pay_apply _ _ p q).trans ?_
  show _ = ∑ k : Fin 512, asArr S10000x512 (V c main_arg0) (ix2 ((((cfg0.win 2).blk t).view.emb (ix2 p q)) 0) k) * asArr S512x256 (V c main_arg2) (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 1000 + 1 * p.val = win0_2.index t (0 : Fin 2) * 1000 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  show asArr S10000x512 (V c main_arg0) (((cfg0.win 0).blk t).view.emb (ix2 p k)) * asArr S512x256 (V c main_arg2) (((cfg0.win 1).blk t).view.emb (ix2 k q)) = _
  rw [h0, h1]
  try rfl

/-- An index is in point t's block iff each coordinate is in the block's range on its axis. -/
theorem mem_blk (t : Fin cfg0.N) (i : S10000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v0).slice (win0_2.rect t)).set ↔ _
  rw [View.set_slice_whole, Rect.mem_set_unit]
  exact Iff.rfl

/-- Every entry of the result is in some point's block: row r is in block r / 1000. -/
theorem cover (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  refine ⟨⟨(i 0).val / 1000, by show (i 0).val / 1000 < 10; omega⟩, flush0_2 _, ?_⟩
  rw [mem_blk]
  obtain ⟨e0, e1, e2, e3, e4, e5⟩ := idx_facts ⟨(i 0).val / 1000, by show (i 0).val / 1000 < 10; omega⟩
  intro a
  match a with
  | ⟨0, _⟩ => show win0_2.index _ (0 : Fin 2) * 1000 ≤ (i 0).val ∧ (i 0).val < win0_2.index _ (0 : Fin 2) * 1000 + 1000; simp only [e5]; omega
  | ⟨1, _⟩ => show win0_2.index _ (1 : Fin 2) * 256 ≤ (i 1).val ∧ (i 1).val < win0_2.index _ (1 : Fin 2) * 256 + 256; omega

/-- The array the region leaves: the whole product. -/
theorem final (c : Dev nD) : (dat0 V c).arrAt 2 cfg0.N = proj (V c main_arg0) (V c main_arg2) :=
  (dat0 V c).arrAt_eq_of_cover 2 (proj (V c main_arg0) (V c main_arg2)) (fun t _ => flushed_eq V c t) cover

end Cert.KernelIdeal.Region0

end
-- ==== Proof.KernelRegion1.lean ====
/-
  The second region: the graph layer's combination and the chain of affine maps, a thousand rows per grid point.
  Grid point t loads rows 1000 t … 1000 t + 999 of the aggregated projection and of the features, and every weight
  matrix and bias row whole; for each of its rows it adds the root projection X · W_r, the aggregated row and the
  bias, and runs the chain (positive part, affine map, four times); the ten blocks of three columns tile the result.
  Every row of the result depends only on the same row of the two row-blocked inputs.
-/
import proofs.«152311_j26620207301224_2_alg».proof.Proof.Gen.KernelIdeal.Frame
import proofs.«152311_j26620207301224_2_alg».proof.Proof.Spec
import proofs.«152311_j26620207301224_2_alg».proof.Proof.KernelProducts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.SageDist
open Idealize.ShloMosaic Idealize.ShloMosaic.TcCoe Idealize.ShloMosaic.ValueIdx Idealize.SL.Sem
open Idealize.ShloMosaic.Pipeline (Dat Cfg Window)

open Cert.KernelIdeal.Products

variable (V : (c : Dev nD) → (b : Ref sig .tc) → Buf (Elt Ideal) ((c : Thread nD τ).loc b))

theorem hz : (![0, 0] : Fin 2 → Nat) = fun _ => 0 := funext fun a => by fin_cases a <;> rfl

/-- A one-row array read as a vector. -/
def rowVec {b : Nat} (v : (⟨2, ![1, b]⟩ : Shape).Idx → EReal) : Fin b → EReal := fun q => v (ix2 0 q)

/-- The graph layer's combination, before the chain: root projection plus aggregated row plus bias. -/
def combine {n : Nat} (A : Mat n 256) (X : Mat n 512) (Wr : Mat 512 256) (bl : Fin 256 → EReal) : Mat n 256 :=
  fun r c => (mm X Wr r c + A r c) + bl c

/-- The chain's value depends, row by row, only on the same row of its input. -/
theorem chain_congr {N N' C C1 C2 C3 C4 : Nat} {H0 : Mat N C} {H0' : Mat N' C}
    {Wa Wa' : Mat C C1} {ba ba' : Fin C1 → EReal} {W1 W1' : Mat C1 C2} {b1 b1' : Fin C2 → EReal}
    {W2 W2' : Mat C2 C3} {b2 b2' : Fin C3 → EReal} {W3 W3' : Mat C3 C4} {b3 b3' : Fin C4 → EReal}
    (p : Fin N) (p' : Fin N') (hH : ∀ c, H0 p c = H0' p' c)
    (hWa : Wa = Wa') (hba : ba = ba') (hW1 : W1 = W1') (hb1 : b1 = b1') (hW2 : W2 = W2') (hb2 : b2 = b2')
    (hW3 : W3 = W3') (hb3 : b3 = b3') (q : Fin C4) :
    chain H0 Wa ba W1 b1 W2 b2 W3 b3 p q = chain H0' Wa' ba' W1' b1' W2' b2' W3' b3' p' q := by
  subst hWa hba hW1 hb1 hW2 hb2 hW3 hb3
  simp only [chain, affine, relu, mm, hH]

/-- A bias row broadcast down the rows, read at (p, q). -/
theorem bias_128 (b : Vec Ideal S1x128 .f32) (p : Fin 1000) (q : Fin 128) :
    broadcastTo S1000x128 (shapeCast S1x128 b shapeCasts_S1x128_S1x128) broadcasts_S1x128_S1000x128 (ix2 p q) = b (ix2 0 q) := by
  rw [broadcastTo_apply _ _ _ (ix2 (0 : Fin 1) q) (fun a => by match a with | ⟨0, _⟩ => rfl | ⟨1, _⟩ => rfl), shapeCast_self]

/-- One affine step of the body as a matrix: the block times the weights plus the bias row. -/
theorem layer_256_128 {φ : FTy} (h : FVec Ideal S1000x256 φ) (w : Vec Ideal S256x128 .f32) (b : Vec Ideal S1x128 .f32) :
    toMat (addf (matmul dot_S1000x256_S256x128_S1000x128_1_0_0_1_n_n none h (truncf .bf16 w bitsLt_bf16_f32) (constant S1000x128 .f32 0x00000000#32))
        (broadcastTo S1000x128 (shapeCast S1x128 b shapeCasts_S1x128_S1x128) broadcasts_S1x128_S1000x128))
      = affine (toMat h) (toMat w) (rowVec b) := by
  funext p q
  show matmul dot_S1000x256_S256x128_S1000x128_1_0_0_1_n_n none h (truncf .bf16 w bitsLt_bf16_f32) (constant S1000x128 .f32 0x00000000#32) (ix2 p q)
      + broadcastTo S1000x128 (shapeCast S1x128 b shapeCasts_S1x128_S1x128) broadcasts_S1x128_S1000x128 (ix2 p q) = _
  rw [matmul_1000_256_128, bias_128]
  rfl

/-- A bias row broadcast down the rows, read at (p, q). -/
theorem bias_64 (b : Vec Ideal S1x64 .f32) (p : Fin 1000) (q : Fin 64) :
    broadcastTo S1000x64 (shapeCast S1x64 b shapeCasts_S1x64_S1x64) broadcasts_S1x64_S1000x64 (ix2 p q) = b (ix2 0 q) := by
  rw [broadcastTo_apply _ _ _ (ix2 (0 : Fin 1) q) (fun a => by match a with | ⟨0, _⟩ => rfl | ⟨1, _⟩ => rfl), shapeCast_self]

/-- One affine step of the body as a matrix: the block times the weights plus the bias row. -/
theorem layer_128_64 {φ : FTy} (h : FVec Ideal S1000x128 φ) (w : Vec Ideal S128x64 .f32) (b : Vec Ideal S1x64 .f32) :
    toMat (addf (matmul dot_S1000x128_S128x64_S1000x64_1_0_0_1_n_n none h (truncf .bf16 w bitsLt_bf16_f32) (constant S1000x64 .f32 0x00000000#32))
        (broadcastTo S1000x64 (shapeCast S1x64 b shapeCasts_S1x64_S1x64) broadcasts_S1x64_S1000x64))
      = affine (toMat h) (toMat w) (rowVec b) := by
  funext p q
  show matmul dot_S1000x128_S128x64_S1000x64_1_0_0_1_n_n none h (truncf .bf16 w bitsLt_bf16_f32) (constant S1000x64 .f32 0x00000000#32) (ix2 p q)
      + broadcastTo S1000x64 (shapeCast S1x64 b shapeCasts_S1x64_S1x64) broadcasts_S1x64_S1000x64 (ix2 p q) = _
  rw [matmul_1000_128_64, bias_64]
  rfl

/-- A bias row broadcast down the rows, read at (p, q). -/
theorem bias_32 (b : Vec Ideal S1x32 .f32) (p : Fin 1000) (q : Fin 32) :
    broadcastTo S1000x32 (shapeCast S1x32 b shapeCasts_S1x32_S1x32) broadcasts_S1x32_S1000x32 (ix2 p q) = b (ix2 0 q) := by
  rw [broadcastTo_apply _ _ _ (ix2 (0 : Fin 1) q) (fun a => by match a with | ⟨0, _⟩ => rfl | ⟨1, _⟩ => rfl), shapeCast_self]

/-- One affine step of the body as a matrix: the block times the weights plus the bias row. -/
theorem layer_64_32 {φ : FTy} (h : FVec Ideal S1000x64 φ) (w : Vec Ideal S64x32 .f32) (b : Vec Ideal S1x32 .f32) :
    toMat (addf (matmul dot_S1000x64_S64x32_S1000x32_1_0_0_1_n_n none h (truncf .bf16 w bitsLt_bf16_f32) (constant S1000x32 .f32 0x00000000#32))
        (broadcastTo S1000x32 (shapeCast S1x32 b shapeCasts_S1x32_S1x32) broadcasts_S1x32_S1000x32))
      = affine (toMat h) (toMat w) (rowVec b) := by
  funext p q
  show matmul dot_S1000x64_S64x32_S1000x32_1_0_0_1_n_n none h (truncf .bf16 w bitsLt_bf16_f32) (constant S1000x32 .f32 0x00000000#32) (ix2 p q)
      + broadcastTo S1000x32 (shapeCast S1x32 b shapeCasts_S1x32_S1x32) broadcasts_S1x32_S1000x32 (ix2 p q) = _
  rw [matmul_1000_64_32, bias_32]
  rfl

/-- A bias row broadcast down the rows, read at (p, q). -/
theorem bias_3 (b : Vec Ideal S1x3 .f32) (p : Fin 1000) (q : Fin 3) :
    broadcastTo S1000x3 (shapeCast S1x3 b shapeCasts_S1x3_S1x3) broadcasts_S1x3_S1000x3 (ix2 p q) = b (ix2 0 q) := by
  rw [broadcastTo_apply _ _ _ (ix2 (0 : Fin 1) q) (fun a => by match a with | ⟨0, _⟩ => rfl | ⟨1, _⟩ => rfl), shapeCast_self]

/-- One affine step of the body as a matrix: the block times the weights plus the bias row. -/
theorem layer_32_3 {φ : FTy} (h : FVec Ideal S1000x32 φ) (w : Vec Ideal S32x3 .f32) (b : Vec Ideal S1x3 .f32) :
    toMat (addf (matmul dot_S1000x32_S32x3_S1000x3_1_0_0_1_n_n none h (truncf .bf16 w bitsLt_bf16_f32) (constant S1000x3 .f32 0x00000000#32))
        (broadcastTo S1000x3 (shapeCast S1x3 b shapeCasts_S1x3_S1x3) broadcasts_S1x3_S1000x3))
      = affine (toMat h) (toMat w) (rowVec b) := by
  funext p q
  show matmul dot_S1000x32_S32x3_S1000x3_1_0_0_1_n_n none h (truncf .bf16 w bitsLt_bf16_f32) (constant S1000x3 .f32 0x00000000#32) (ix2 p q)
      + broadcastTo S1000x3 (shapeCast S1x3 b shapeCasts_S1x3_S1x3) broadcasts_S1x3_S1000x3 (ix2 p q) = _
  rw [matmul_1000_32_3, bias_3]
  rfl

/-- The positive part of a block (its format narrowed, which changes nothing here) as a matrix. -/
theorem relu_256 (v : FVec Ideal S1000x256 .f32) :
    toMat (truncf .bf16 (maximumf v (broadcast S1000x256 (Scalar.ofBits .f32 0x00000000#32))) bitsLt_bf16_f32 : FVec Ideal S1000x256 .bf16) = relu (toMat v) := by
  funext p q
  show max (v (ix2 p q)) (Ideal.ofBits .f32 0x00000000#32) = max (v (ix2 p q)) 0
  rw [Ideal.ofBits_zero_f32]

/-- The positive part of a block (its format narrowed, which changes nothing here) as a matrix. -/
theorem relu_128 (v : FVec Ideal S1000x128 .f32) :
    toMat (truncf .bf16 (maximumf v (broadcast S1000x128 (Scalar.ofBits .f32 0x00000000#32))) bitsLt_bf16_f32 : FVec Ideal S1000x128 .bf16) = relu (toMat v) := by
  funext p q
  show max (v (ix2 p q)) (Ideal.ofBits .f32 0x00000000#32) = max (v (ix2 p q)) 0
  rw [Ideal.ofBits_zero_f32]

/-- The positive part of a block (its format narrowed, which changes nothing here) as a matrix. -/
theorem relu_64 (v : FVec Ideal S1000x64 .f32) :
    toMat (truncf .bf16 (maximumf v (broadcast S1000x64 (Scalar.ofBits .f32 0x00000000#32))) bitsLt_bf16_f32 : FVec Ideal S1000x64 .bf16) = relu (toMat v) := by
  funext p q
  show max (v (ix2 p q)) (Ideal.ofBits .f32 0x00000000#32) = max (v (ix2 p q)) 0
  rw [Ideal.ofBits_zero_f32]

/-- The positive part of a block (its format narrowed, which changes nothing here) as a matrix. -/
theorem relu_32 (v : FVec Ideal S1000x32 .f32) :
    toMat (truncf .bf16 (maximumf v (broadcast S1000x32 (Scalar.ofBits .f32 0x00000000#32))) bitsLt_bf16_f32 : FVec Ideal S1000x32 .bf16) = relu (toMat v) := by
  funext p q
  show max (v (ix2 p q)) (Ideal.ofBits .f32 0x00000000#32) = max (v (ix2 p q)) 0
  rw [Ideal.ofBits_zero_f32]

/-- A bias row broadcast down the rows, read at (p, q). -/
theorem bias_256 (b : Vec Ideal S1x256 .f32) (p : Fin 1000) (q : Fin 256) :
    broadcastTo S1000x256 (shapeCast S1x256 b shapeCasts_S1x256_S1x256) broadcasts_S1x256_S1000x256 (ix2 p q) = b (ix2 0 q) := by
  rw [broadcastTo_apply _ _ _ (ix2 (0 : Fin 1) q) (fun a => by match a with | ⟨0, _⟩ => rfl | ⟨1, _⟩ => rfl), shapeCast_self]

/-- The first step of the body as a matrix: root projection plus the aggregated block plus the bias row. -/
theorem head_mat (a : Vec Ideal S1000x256 .f32) (x : Vec Ideal S1000x512 .f32) (wr : Vec Ideal S512x256 .f32) (bl : Vec Ideal S1x256 .f32) :
    toMat ((addf (addf (matmul dot_S1000x512_S512x256_S1000x256_1_0_0_1_n_n none (truncf .bf16 x bitsLt_bf16_f32) (truncf .bf16 wr bitsLt_bf16_f32) (constant S1000x256 .f32 0x00000000#32))
          (shapeCast S1000x256 a shapeCasts_S1000x256_S1000x256))
        (broadcastTo S1000x256 (shapeCast S1x256 bl shapeCasts_S1x256_S1x256) broadcasts_S1x256_S1000x256)) : FVec Ideal S1000x256 .f32)
      = combine (toMat a) (toMat x) (toMat wr) (rowVec bl) := by
  funext p q
  show ((matmul dot_S1000x512_S512x256_S1000x256_1_0_0_1_n_n none (truncf .bf16 x bitsLt_bf16_f32) (truncf .bf16 wr bitsLt_bf16_f32) (constant S1000x256 .f32 0x00000000#32) : FVec Ideal S1000x256 .f32) (ix2 p q)
      + shapeCast S1000x256 a shapeCasts_S1000x256_S1000x256 (ix2 p q))
      + broadcastTo S1000x256 (shapeCast S1x256 bl shapeCasts_S1x256_S1x256) broadcasts_S1x256_S1000x256 (ix2 p q) = _
  rw [matmul_1000_512_256, bias_256, shapeCast_self]
  rfl

/-- The body's stored block as a matrix: the chain of the combination, on the blocks it loaded. -/
theorem pay_mat (a : Vec Ideal S1000x256 .f32) (x : Vec Ideal S1000x512 .f32) (wr : Vec Ideal S512x256 .f32) (bl : Vec Ideal S1x256 .f32)
    (wa : Vec Ideal S256x128 .f32) (ba : Vec Ideal S1x128 .f32) (w1 : Vec Ideal S128x64 .f32) (b1 : Vec Ideal S1x64 .f32)
    (w2 : Vec Ideal S64x32 .f32) (b2 : Vec Ideal S1x32 .f32) (w3 : Vec Ideal S32x3 .f32) (b3 : Vec Ideal S1x3 .f32) :
    toMat (k1_pay1 (F := Ideal) (k1_pay2 (F := Ideal) a x wr bl wa ba w1 b1) w2 b2 w3 b3)
      = chain (combine (toMat a) (toMat x) (toMat wr) (rowVec bl)) (toMat wa) (rowVec ba) (toMat w1) (rowVec b1) (toMat w2) (rowVec b2) (toMat w3) (rowVec b3) := by
  unfold k1_pay1 k1_pay2
  dsimp only
  rw [layer_32_3, relu_32, layer_64_32, relu_64, layer_128_64, relu_128, layer_256_128, relu_256, head_mat]
  rfl

/-- The result of the region as an array: the chain of the combination, on whole arrays. -/
def mlp (A : S10000x256.Idx → EReal) (X : S10000x512.Idx → EReal) (bl : S1x256.Idx → EReal) (Wr : S512x256.Idx → EReal)
    (Wa : S256x128.Idx → EReal) (ba : S1x128.Idx → EReal) (W1 : S128x64.Idx → EReal) (b1 : S1x64.Idx → EReal)
    (W2 : S64x32.Idx → EReal) (b2 : S1x32.Idx → EReal) (W3 : S32x3.Idx → EReal) (b3 : S1x3.Idx → EReal) : S10000x3.Idx → EReal :=
  fun i => chain (combine (toMat A) (toMat X) (toMat Wr) (rowVec bl)) (toMat Wa) (rowVec ba) (toMat W1) (rowVec b1) (toMat W2) (rowVec b2) (toMat W3) (rowVec b3) (i 0) (i 1)

/-- The block index maps over the grid: the weight and bias blocks stay. -/
theorem idx_const : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0 :=
  (by decide +kernel : ∀ t : Fin grid1.N, _)

/-- The row-blocked windows move together down the rows. -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_12.index t (0 : Fin 2) = t.val ∧ win1_12.index t (1 : Fin 2) = 0 :=
  (by decide +kernel : ∀ t : Fin grid1.N, _)

theorem whole_2 (c : Dev nD) (t : Fin cfg1.N) : asArr S1x256 (iblk1 V c 2 t) = V c main_v24 := by
  have hf := idx_const t
  funext j
  show V c main_v24 (((cfg1.win 2).blk t).view.emb j) = V c main_v24 j
  refine congrArg (V c main_v24) (funext fun a => Fin.ext ?_)
  match a with
  | ⟨0, _⟩ => show win1_2.index t (0 : Fin 2) * 1 + 1 * (j 0).val = (j 0).val; have := hf.1; omega
  | ⟨1, _⟩ => show win1_2.index t (1 : Fin 2) * 256 + 1 * (j 1).val = (j 1).val; have := hf.2.1; omega

theorem whole_3 (c : Dev nD) (t : Fin cfg1.N) : asArr S512x256 (iblk1 V c 3 t) = V c main_arg4 := by
  have hf := idx_const t
  funext j
  show V c main_arg4 (((cfg1.win 3).blk t).view.emb j) = V c main_arg4 j
  refine congrArg (V c main_arg4) (funext fun a => Fin.ext ?_)
  match a with
  | ⟨0, _⟩ => show win1_3.index t (0 : Fin 2) * 512 + 1 * (j 0).val = (j 0).val; have := hf.2.2.1; omega
  | ⟨1, _⟩ => show win1_3.index t (1 : Fin 2) * 256 + 1 * (j 1).val = (j 1).val; have := hf.2.2.2.1; omega

theorem whole_4 (c : Dev nD) (t : Fin cfg1.N) : (iblk1 V c 4 t : S256x128.Idx → EReal) = V c main_arg5 := by
  have hf := idx_const t
  funext j
  show V c main_arg5 (((cfg1.win 4).blk t).view.emb j) = V c main_arg5 j
  refine congrArg (V c main_arg5) (funext fun a => Fin.ext ?_)
  match a with
  | ⟨0, _⟩ => show win1_4.index t (0 : Fin 2) * 256 + 1 * (j 0).val = (j 0).val; have := hf.2.2.2.2.1; omega
  | ⟨1, _⟩ => show win1_4.index t (1 : Fin 2) * 128 + 1 * (j 1).val = (j 1).val; have := hf.2.2.2.2.2.1; omega

theorem whole_5 (c : Dev nD) (t : Fin cfg1.N) : (iblk1 V c 5 t : S1x128.Idx → EReal) = V c main_v25 := by
  have hf := idx_const t
  funext j
  show V c main_v25 (((cfg1.win 5).blk t).view.emb j) = V c main_v25 j
  refine congrArg (V c main_v25) (funext fun a => Fin.ext ?_)
  match a with
  | ⟨0, _⟩ => show win1_5.index t (0 : Fin 2) * 1 + 1 * (j 0).val = (j 0).val; have := hf.2.2.2.2.2.2.1; omega
  | ⟨1, _⟩ => show win1_5.index t (1 : Fin 2) * 128 + 1 * (j 1).val = (j 1).val; have := hf.2.2.2.2.2.2.2.1; omega

theorem whole_6 (c : Dev nD) (t : Fin cfg1.N) : (iblk1 V c 6 t : S128x64.Idx → EReal) = V c main_arg7 := by
  have hf := idx_const t
  funext j
  show V c main_arg7 (((cfg1.win 6).blk t).view.emb j) = V c main_arg7 j
  refine congrArg (V c main_arg7) (funext fun a => Fin.ext ?_)
  match a with
  | ⟨0, _⟩ => show win1_6.index t (0 : Fin 2) * 128 + 1 * (j 0).val = (j 0).val; have := hf.2.2.2.2.2.2.2.2.1; omega
  | ⟨1, _⟩ => show win1_6.index t (1 : Fin 2) * 64 + 1 * (j 1).val = (j 1).val; have := hf.2.2.2.2.2.2.2.2.2.1; omega

theorem whole_7 (c : Dev nD) (t : Fin cfg1.N) : (iblk1 V c 7 t : S1x64.Idx → EReal) = V c main_v26 := by
  have hf := idx_const t
  funext j
  show V c main_v26 (((cfg1.win 7).blk t).view.emb j) = V c main_v26 j
  refine congrArg (V c main_v26) (funext fun a => Fin.ext ?_)
  match a with
  | ⟨0, _⟩ => show win1_7.index t (0 : Fin 2) * 1 + 1 * (j 0).val = (j 0).val; have := hf.2.2.2.2.2.2.2.2.2.2.1; omega
  | ⟨1, _⟩ => show win1_7.index t (1 : Fin 2) * 64 + 1 * (j 1).val = (j 1).val; have := hf.2.2.2.2.2.2.2.2.2.2.2.1; omega

theorem whole_8 (c : Dev nD) (t : Fin cfg1.N) : (iblk1 V c 8 t : S64x32.Idx → EReal) = V c main_arg9 := by
  have hf := idx_const t
  funext j
  show V c main_arg9 (((cfg1.win 8).blk t).view.emb j) = V c main_arg9 j
  refine congrArg (V c main_arg9) (funext fun a => Fin.ext ?_)
  match a with
  | ⟨0, _⟩ => show win1_8.index t (0 : Fin 2) * 64 + 1 * (j 0).val = (j 0).val; have := hf.2.2.2.2.2.2.2.2.2.2.2.2.1; omega
  | ⟨1, _⟩ => show win1_8.index t (1 : Fin 2) * 32 + 1 * (j 1).val = (j 1).val; have := hf.2.2.2.2.2.2.2.2.2.2.2.2.2.1; omega

theorem whole_9 (c : Dev nD) (t : Fin cfg1.N) : (iblk1 V c 9 t : S1x32.Idx → EReal) = V c main_v27 := by
  have hf := idx_const t
  funext j
  show V c main_v27 (((cfg1.win 9).blk t).view.emb j) = V c main_v27 j
  refine congrArg (V c main_v27) (funext fun a => Fin.ext ?_)
  match a with
  | ⟨0, _⟩ => show win1_9.index t (0 : Fin 2) * 1 + 1 * (j 0).val = (j 0).val; have := hf.2.2.2.2.2.2.2.2.2.2.2.2.2.2.1; omega
  | ⟨1, _⟩ => show win1_9.index t (1 : Fin 2) * 32 + 1 * (j 1).val = (j 1).val; have := hf.2.2.2.2.2.2.2.2.2.2.2.2.2.2.2.1; omega

theorem whole_10 (c : Dev nD) (t : Fin cfg1.N) : (iblk1 V c 10 t : S32x3.Idx → EReal) = V c main_arg11 := by
  have hf := idx_const t
  funext j
  show V c main_arg11 (((cfg1.win 10).blk t).view.emb j) = V c main_arg11 j
  refine congrArg (V c main_arg11) (funext fun a => Fin.ext ?_)
  match a with
  | ⟨0, _⟩ => show win1_10.index t (0 : Fin 2) * 32 + 1 * (j 0).val = (j 0).val; have := hf.2.2.2.2.2.2.2.2.2.2.2.2.2.2.2.2.1; omega
  | ⟨1, _⟩ => show win1_10.index t (1 : Fin 2) * 3 + 1 * (j 1).val = (j 1).val; have := hf.2.2.2.2.2.2.2.2.2.2.2.2.2.2.2.2.2.1; omega

theorem whole_11 (c : Dev nD) (t : Fin cfg1.N) : (iblk1 V c 11 t : S1x3.Idx → EReal) = V c main_v28 := by
  have hf := idx_const t
  funext j
  show V c main_v28 (((cfg1.win 11).blk t).view.emb j) = V c main_v28 j
  refine congrArg (V c main_v28) (funext fun a => Fin.ext ?_)
  match a with
  | ⟨0, _⟩ => show win1_11.index t (0 : Fin 2) * 1 + 1 * (j 0).val = (j 0).val; have := hf.2.2.2.2.2.2.2.2.2.2.2.2.2.2.2.2.2.2.1; omega
  | ⟨1, _⟩ => show win1_11.index t (1 : Fin 2) * 3 + 1 * (j 1).val = (j 1).val; have := hf.2.2.2.2.2.2.2.2.2.2.2.2.2.2.2.2.2.2.2; omega

/-- What grid point t writes back is block t of the region's result. -/
theorem flushed_eq (c : Dev nD) (t : Fin cfg1.N) :
    (dat1 V c).flushed 12 t = ((cfg1.win 12).blk t).view.read (Elt Ideal)
      (mlp (V c main_v23) (V c main_arg0) (V c main_v24) (V c main_arg4) (V c main_arg5) (V c main_v25) (V c main_arg7) (V c main_v26) (V c main_arg9) (V c main_v27) (V c main_arg11) (V c main_v28)) := by
  show (cfg1.win 12).cut (grid1.coords t) ((dat1 V c).after 12 t) = _
  rw [after1_12]
  unfold out1_12
  rw [View.canon_unit_zero hz]
  simp only [View.ld_unit_zero (S := S1000x256) hz, View.ld_unit_zero (S := S1000x512) hz, View.ld_unit_zero (S := S1x256) hz, View.ld_unit_zero (S := S512x256) hz,
    View.ld_unit_zero (S := S256x128) hz, View.ld_unit_zero (S := S1x128) hz, View.ld_unit_zero (S := S128x64) hz, View.ld_unit_zero (S := S1x64) hz,
    View.ld_unit_zero (S := S64x32) hz, View.ld_unit_zero (S := S1x32) hz, View.ld_unit_zero (S := S32x3) hz, View.ld_unit_zero (S := S1x3) hz]
  obtain ⟨r0, r1, r2, r3, r4, r5⟩ := idx_rows t
  funext j
  obtain ⟨p, q, rfl⟩ : ∃ (p : Fin 1000) (q : Fin 3), j = ix2 p q := ⟨j 0, j 1, eq_ix2 j⟩
  refine (congrFun (congrFun (pay_mat (iblk1 V c 0 t) (iblk1 V c 1 t) (iblk1 V c 3 t) (iblk1 V c 2 t) (iblk1 V c 4 t) (iblk1 V c 5 t)
    (iblk1 V c 6 t) (iblk1 V c 7 t) (iblk1 V c 8 t) (iblk1 V c 9 t) (iblk1 V c 10 t) (iblk1 V c 11 t)) p) q).trans ?_
  have hq : ((((cfg1.win 12).blk t).view.emb (ix2 p q)) 1) = q := Fin.ext (by
    show win1_12.index t (1 : Fin 2) * 3 + 1 * q.val = q.val; omega)
  show _ = chain _ _ _ _ _ _ _ _ _ ((((cfg1.win 12).blk t).view.emb (ix2 p q)) 0) ((((cfg1.win 12).blk t).view.emb (ix2 p q)) 1)
  rw [hq]
  refine chain_congr p _ ?_ (congrArg toMat (whole_4 V c t)) (congrArg rowVec (whole_5 V c t)) (congrArg toMat (whole_6 V c t)) (congrArg rowVec (whole_7 V c t))
    (congrArg toMat (whole_8 V c t)) (congrArg rowVec (whole_9 V c t)) (congrArg toMat (whole_10 V c t)) (congrArg rowVec (whole_11 V c t)) q
  intro c'
  have hA : ((cfg1.win 0).blk t).view.emb (ix2 p c') = ix2 ((((cfg1.win 12).blk t).view.emb (ix2 p q)) 0) c' := by
    funext a; apply Fin.ext
    match a with
    | ⟨0, _⟩ => show win1_0.index t (0 : Fin 2) * 1000 + 1 * p.val = win1_12.index t (0 : Fin 2) * 1000 + 1 * p.val; omega
    | ⟨1, _⟩ => show win1_0.index t (1 : Fin 2) * 256 + 1 * c'.val = c'.val; omega
  have hX : ∀ k : Fin 512, ((cfg1.win 1).blk t).view.emb (ix2 p k) = ix2 ((((cfg1.win 12).blk t).view.emb (ix2 p q)) 0) k := by
    intro k; funext a; apply Fin.ext
    match a with
    | ⟨0, _⟩ => show win1_1.index t (0 : Fin 2) * 1000 + 1 * p.val = win1_12.index t (0 : Fin 2) * 1000 + 1 * p.val; omega
    | ⟨1, _⟩ => show win1_1.index t (1 : Fin 2) * 512 + 1 * k.val = k.val; omega
  show ((∑ k : Fin 512, asArr S10000x512 (V c main_arg0) (((cfg1.win 1).blk t).view.emb (ix2 p k)) * asArr S512x256 (iblk1 V c 3 t) (ix2 k c'))
      + asArr S10000x256 (V c main_v23) (((cfg1.win 0).blk t).view.emb (ix2 p c'))) + asArr S1x256 (iblk1 V c 2 t) (ix2 0 c') = _
  rw [whole_3 V c t, whole_2 V c t, hA]
  simp only [hX]
  rfl

/-- An index is in point t's block iff each coordinate is in the block's range on its axis. -/
theorem mem_blk (t : Fin cfg1.N) (i : S10000x3.Idx) :
    i ∈ ((cfg1.win 12).blk t).view.set ↔ ∀ a : Fin 2, win1_12.index t a * S1000x3.size a ≤ (i a).val ∧ (i a).val < win1_12.index t a * S1000x3.size a + S1000x3.size a := by
  show i ∈ ((View.whole main_v29).slice (win1_12.rect t)).set ↔ _
  rw [View.set_slice_whole, Rect.mem_set_unit]
  exact Iff.rfl

/-- Every entry of the result is in some point's block: row r is in block r / 1000. -/
theorem cover (i : S10000x3.Idx) : ∃ t : Fin cfg1.N, (cfg1.win 12).flush t = true ∧ i ∈ ((cfg1.win 12).blk t).view.set := by
  have hi0 : (i 0).val < 10000 := (i 0).isLt
  have hi1 : (i 1).val < 3 := (i 1).isLt
  refine ⟨⟨(i 0).val / 1000, by show (i 0).val / 1000 < 10; omega⟩, flush1_12 _, ?_⟩
  rw [mem_blk]
  obtain ⟨r0, r1, r2, r3, r4, r5⟩ := idx_rows ⟨(i 0).val / 1000, by show (i 0).val / 1000 < 10; omega⟩
  intro a
  match a with
  | ⟨0, _⟩ => show win1_12.index _ (0 : Fin 2) * 1000 ≤ (i 0).val ∧ (i 0).val < win1_12.index _ (0 : Fin 2) * 1000 + 1000; simp only [r4]; omega
  | ⟨1, _⟩ => show win1_12.index _ (1 : Fin 2) * 3 ≤ (i 1).val ∧ (i 1).val < win1_12.index _ (1 : Fin 2) * 3 + 3; omega

/-- The array the region leaves. -/
theorem final (c : Dev nD) : (dat1 V c).arrAt 12 cfg1.N
    = mlp (V c main_v23) (V c main_arg0) (V c main_v24) (V c main_arg4) (V c main_arg5) (V c main_v25) (V c main_arg7) (V c main_v26) (V c main_arg9) (V c main_v27) (V c main_arg11) (V c main_v28) :=
  (dat1 V c).arrAt_eq_of_cover 12 _ (fun t _ => flushed_eq V c t) cover

end Cert.KernelIdeal.Region1

end
-- ==== Proof.KernelRegion2.lean ====
/-
  The third region: the matrix of pairwise distances of the ten thousand points of R^3, two hundred rows per grid
  point.  Grid point t loads rows 200 t … 200 t + 199 of the points and the whole transposed array, and writes back,
  at (p, q), the square root of the sum over the three coordinates of the squared difference of point 200 t + p and
  point q; the fifty blocks tile the result.
-/
import proofs.«152311_j26620207301224_2_alg».proof.Proof.Gen.KernelIdeal.Frame
import proofs.«152311_j26620207301224_2_alg».proof.Proof.Spec
import proofs.«152311_j26620207301224_2_alg».proof.Proof.KernelProducts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.SageDist
open Idealize.ShloMosaic Idealize.ShloMosaic.TcCoe Idealize.ShloMosaic.ValueIdx Idealize.SL.Sem
open Idealize.ShloMosaic.Pipeline (Dat Cfg Window)

open Cert.KernelIdeal.Products

variable (V : (c : Dev nD) → (b : Ref sig .tc) → Buf (Elt Ideal) ((c : Thread nD τ).loc b))

theorem hz : (![0, 0] : Fin 2 → Nat) = fun _ => 0 := funext fun a => by fin_cases a <;> rfl

theorem rowPick0 (x : Vec Ideal S200x3 .f32) (p : Fin 200) (q : Fin 10000) :
    broadcastTo S200x10000 (extractStridedSlice S200x1 ![0, 0] (shapeCast S200x3 x shapeCasts_S200x3_S200x3) slices_S200x3_o0_0_S200x1) broadcasts_S200x1_S200x10000 (ix2 p q)
      = x (ix2 p 0) := by
  rw [broadcastTo_apply _ _ _ (ix2 p (0 : Fin 1)) (fun a => by match a with | ⟨0, _⟩ => rfl | ⟨1, _⟩ => rfl),
    extractStridedSlice_apply _ _ _ _ (ix2 p (0 : Fin 3)) (fun a => by match a with | ⟨0, _⟩ => exact (Nat.zero_add _).symm | ⟨1, _⟩ => rfl),
    shapeCast_self]
theorem colPick0 (x : Vec Ideal S3x10000 .f32) (p : Fin 200) (q : Fin 10000) :
    broadcastTo S200x10000 (extractStridedSlice S1x10000 ![0, 0] (shapeCast S3x10000 x shapeCasts_S3x10000_S3x10000) slices_S3x10000_o0_0_S1x10000) broadcasts_S1x10000_S200x10000 (ix2 p q)
      = x (ix2 0 q) := by
  rw [broadcastTo_apply _ _ _ (ix2 (0 : Fin 1) q) (fun a => by match a with | ⟨0, _⟩ => rfl | ⟨1, _⟩ => rfl),
    extractStridedSlice_apply _ _ _ _ (ix2 (0 : Fin 3) q) (fun a => by match a with | ⟨0, _⟩ => rfl | ⟨1, _⟩ => exact (Nat.zero_add _).symm),
    shapeCast_self]

theorem rowPick1 (x : Vec Ideal S200x3 .f32) (p : Fin 200) (q : Fin 10000) :
    broadcastTo S200x10000 (extractStridedSlice S200x1 ![0, 1] (shapeCast S200x3 x shapeCasts_S200x3_S200x3) slices_S200x3_o0_1_S200x1) broadcasts_S200x1_S200x10000 (ix2 p q)
      = x (ix2 p 1) := by
  rw [broadcastTo_apply _ _ _ (ix2 p (0 : Fin 1)) (fun a => by match a with | ⟨0, _⟩ => rfl | ⟨1, _⟩ => rfl),
    extractStridedSlice_apply _ _ _ _ (ix2 p (1 : Fin 3)) (fun a => by match a with | ⟨0, _⟩ => exact (Nat.zero_add _).symm | ⟨1, _⟩ => rfl),
    shapeCast_self]
theorem colPick1 (x : Vec Ideal S3x10000 .f32) (p : Fin 200) (q : Fin 10000) :
    broadcastTo S200x10000 (extractStridedSlice S1x10000 ![1, 0] (shapeCast S3x10000 x shapeCasts_S3x10000_S3x10000) slices_S3x10000_o1_0_S1x10000) broadcasts_S1x10000_S200x10000 (ix2 p q)
      = x (ix2 1 q) := by
  rw [broadcastTo_apply _ _ _ (ix2 (0 : Fin 1) q) (fun a => by match a with | ⟨0, _⟩ => rfl | ⟨1, _⟩ => rfl),
    extractStridedSlice_apply _ _ _ _ (ix2 (1 : Fin 3) q) (fun a => by match a with | ⟨0, _⟩ => rfl | ⟨1, _⟩ => exact (Nat.zero_add _).symm),
    shapeCast_self]

theorem rowPick2 (x : Vec Ideal S200x3 .f32) (p : Fin 200) (q : Fin 10000) :
    broadcastTo S200x10000 (extractStridedSlice S200x1 ![0, 2] (shapeCast S200x3 x shapeCasts_S200x3_S200x3) slices_S200x3_o0_2_S200x1) broadcasts_S200x1_S200x10000 (ix2 p q)
      = x (ix2 p 2) := by
  rw [broadcastTo_apply _ _ _ (ix2 p (0 : Fin 1)) (fun a => by match a with | ⟨0, _⟩ => rfl | ⟨1, _⟩ => rfl),
    extractStridedSlice_apply _ _ _ _ (ix2 p (2 : Fin 3)) (fun a => by match a with | ⟨0, _⟩ => exact (Nat.zero_add _).symm | ⟨1, _⟩ => rfl),
    shapeCast_self]
theorem colPick2 (x : Vec Ideal S3x10000 .f32) (p : Fin 200) (q : Fin 10000) :
    broadcastTo S200x10000 (extractStridedSlice S1x10000 ![2, 0] (shapeCast S3x10000 x shapeCasts_S3x10000_S3x10000) slices_S3x10000_o2_0_S1x10000) broadcasts_S1x10000_S200x10000 (ix2 p q)
      = x (ix2 2 q) := by
  rw [broadcastTo_apply _ _ _ (ix2 (0 : Fin 1) q) (fun a => by match a with | ⟨0, _⟩ => rfl | ⟨1, _⟩ => rfl),
    extractStridedSlice_apply _ _ _ _ (ix2 (2 : Fin 3) q) (fun a => by match a with | ⟨0, _⟩ => rfl | ⟨1, _⟩ => exact (Nat.zero_add _).symm),
    shapeCast_self]

/-- The distance matrix of the rows of H against the columns of Ht, as an array. -/
def dist (H : S10000x3.Idx → EReal) (Ht : S3x10000.Idx → EReal) : S10000x10000.Idx → EReal := fun i =>
  Ideal.sqrt (((H (ix2 (i 0) 0) - Ht (ix2 0 (i 1))) * (H (ix2 (i 0) 0) - Ht (ix2 0 (i 1)))
      + (H (ix2 (i 0) 1) - Ht (ix2 1 (i 1))) * (H (ix2 (i 0) 1) - Ht (ix2 1 (i 1))))
    + (H (ix2 (i 0) 2) - Ht (ix2 2 (i 1))) * (H (ix2 (i 0) 2) - Ht (ix2 2 (i 1))))

/-- The body's stored value at (p, q). -/
theorem pay_apply (x0 : Vec Ideal S200x3 .f32) (x1 : Vec Ideal S3x10000 .f32) (p : Fin 200) (q : Fin 10000) :
    k2_pay1 (F := Ideal) x0 x1 (ix2 p q)
      = Ideal.sqrt (((x0 (ix2 p 0) - x1 (ix2 0 q)) * (x0 (ix2 p 0) - x1 (ix2 0 q))
          + (x0 (ix2 p 1) - x1 (ix2 1 q)) * (x0 (ix2 p 1) - x1 (ix2 1 q)))
        + (x0 (ix2 p 2) - x1 (ix2 2 q)) * (x0 (ix2 p 2) - x1 (ix2 2 q))) := by
  unfold k2_pay1
  simp only [sqrt, addf, mulf, subf, Ideal.sqrt_def, Ideal.addf_def, Ideal.mulf_def, Ideal.subf_def]
  rw [rowPick0, rowPick1, rowPick2, colPick0, colPick1, colPick2]

/-- The block index maps over the grid: the row block of the points and the result block move together, the
    transposed array's block stays. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What grid point t writes back is block t of the distance matrix. -/
theorem flushed_eq (c : Dev nD) (t : Fin cfg2.N) :
    (dat2 V c).flushed 2 t = ((cfg2.win 2).blk t).view.read (Elt Ideal) (dist (V c main_v29) (V c main_v30)) := by
  show (cfg2.win 2).cut (grid2.coords t) ((dat2 V c).after 2 t) = _
  rw [after2_2]
  unfold out2_2
  rw [View.canon_unit_zero hz]
  simp only [View.ld_unit_zero (S := S200x3) hz, View.ld_unit_zero (S := S3x10000) hz]
  obtain ⟨e0, e1, e2, e3, e4, e5⟩ := idx_facts t
  funext j
  obtain ⟨p, q, rfl⟩ : ∃ (p : Fin 200) (q : Fin 10000), j = ix2 p q := ⟨j 0, j 1, eq_ix2 j⟩
  refine (pay_apply _ _ p q).trans ?_
  have hr : ∀ k : Fin 3, ((cfg2.win 0).blk t).view.emb (ix2 p k) = ix2 ((((cfg2.win 2).blk t).view.emb (ix2 p q)) 0) k := by
    intro k; funext a; apply Fin.ext
    match a with
    | ⟨0, _⟩ => show win2_0.index t (0 : Fin 2) * 200 + 1 * p.val = win2_2.index t (0 : Fin 2) * 200 + 1 * p.val; omega
    | ⟨1, _⟩ => show win2_0.index t (1 : Fin 2) * 3 + 1 * k.val = k.val; omega
  have hc : ∀ k : Fin 3, ((cfg2.win 1).blk t).view.emb (ix2 k q) = ix2 k ((((cfg2.win 2).blk t).view.emb (ix2 p q)) 1) := by
    intro k; funext a; apply Fin.ext
    match a with
    | ⟨0, _⟩ => show win2_1.index t (0 : Fin 2) * 3 + 1 * k.val = k.val; omega
    | ⟨1, _⟩ => show win2_1.index t (1 : Fin 2) * 10000 + 1 * q.val = win2_2.index t (1 : Fin 2) * 10000 + 1 * q.val; omega
  show Ideal.sqrt (((asArr S10000x3 (V c main_v29) (((cfg2.win 0).blk t).view.emb (ix2 p 0)) - asArr S3x10000 (V c main_v30) (((cfg2.win 1).blk t).view.emb (ix2 0 q))) * (asArr S10000x3 (V c main_v29) (((cfg2.win 0).blk t).view.emb (ix2 p 0)) - asArr S3x10000 (V c main_v30) (((cfg2.win 1).blk t).view.emb (ix2 0 q)))
        + (asArr S10000x3 (V c main_v29) (((cfg2.win 0).blk t).view.emb (ix2 p 1)) - asArr S3x10000 (V c main_v30) (((cfg2.win 1).blk t).view.emb (ix2 1 q))) * (asArr S10000x3 (V c main_v29) (((cfg2.win 0).blk t).view.emb (ix2 p 1)) - asArr S3x10000 (V c main_v30) (((cfg2.win 1).blk t).view.emb (ix2 1 q))))
      + (asArr S10000x3 (V c main_v29) (((cfg2.win 0).blk t).view.emb (ix2 p 2)) - asArr S3x10000 (V c main_v30) (((cfg2.win 1).blk t).view.emb (ix2 2 q))) * (asArr S10000x3 (V c main_v29) (((cfg2.win 0).blk t).view.emb (ix2 p 2)) - asArr S3x10000 (V c main_v30) (((cfg2.win 1).blk t).view.emb (ix2 2 q)))) = _
  rw [hr 0, hr 1, hr 2, hc 0, hc 1, hc 2]
  try rfl

/-- An index is in point t's block iff each coordinate is in the block's range on its axis. -/
theorem mem_blk (t : Fin cfg2.N) (i : S10000x10000.Idx) :
    i ∈ ((cfg2.win 2).blk t).view.set ↔ ∀ a : Fin 2, win2_2.index t a * S200x10000.size a ≤ (i a).val ∧ (i a).val < win2_2.index t a * S200x10000.size a + S200x10000.size a := by
  show i ∈ ((View.whole main_v31).slice (win2_2.rect t)).set ↔ _
  rw [View.set_slice_whole, Rect.mem_set_unit]
  exact Iff.rfl

/-- Every entry of the result is in some point's block: row r is in block r / 200. -/
theorem cover (i : S10000x10000.Idx) : ∃ t : Fin cfg2.N, (cfg2.win 2).flush t = true ∧ i ∈ ((cfg2.win 2).blk t).view.set := by
  have hi0 : (i 0).val < 10000 := (i 0).isLt
  have hi1 : (i 1).val < 10000 := (i 1).isLt
  refine ⟨⟨(i 0).val / 200, by show (i 0).val / 200 < 50; omega⟩, flush2_2 _, ?_⟩
  rw [mem_blk]
  obtain ⟨e0, e1, e2, e3, e4, e5⟩ := idx_facts ⟨(i 0).val / 200, by show (i 0).val / 200 < 50; omega⟩
  intro a
  match a with
  | ⟨0, _⟩ => show win2_2.index _ (0 : Fin 2) * 200 ≤ (i 0).val ∧ (i 0).val < win2_2.index _ (0 : Fin 2) * 200 + 200; simp only [e5]; omega
  | ⟨1, _⟩ => show win2_2.index _ (1 : Fin 2) * 10000 ≤ (i 1).val ∧ (i 1).val < win2_2.index _ (1 : Fin 2) * 10000 + 10000; omega

/-- The array the region leaves: the whole distance matrix. -/
theorem final (c : Dev nD) : (dat2 V c).arrAt 2 cfg2.N = dist (V c main_v29) (V c main_v30) :=
  (dat2 V c).arrAt_eq_of_cover 2 (dist (V c main_v29) (V c main_v30)) (fun t _ => flushed_eq V c t) cover

end Cert.KernelIdeal.Region2

end
-- ==== Proof.Edges.lean ====
/-
  The edge list as the mathematics needs it: for every edge its source row (the row gathered, an index clamped into
  the node range) and its target as an integer (compared with a node number when the edge's contribution is placed).
  Both are read off the two index columns the programs derive from the edge array; how those columns are derived
  (slicing, wrapping negative sources, recasting as a column) is the same text in both programs and is never opened.
-/
import proofs.«152311_j26620207301224_2_alg».proof.Proof.Gen.ReferenceIdeal.Read
import proofs.«152311_j26620207301224_2_alg».proof.Proof.Spec

noncomputable section

namespace Cert.SageDist

open Idealize.ShloMosaic Idealize.ShloMosaic.ValueIdx Cert.ReferenceIdeal

/-- The column of source indices (negative ones wrapped once), one per edge. -/
abbrev srcCol (ei : (⟨S2x160000, .i32⟩ : BufTy).Contents (Elt Ideal)) : (⟨S160000x1, .i32⟩ : BufTy).Contents (Elt Ideal) :=
  Cert.ReferenceIdeal.Read.val_main_v9 (F := Ideal) ei

/-- The column of target indices, one per edge. -/
abbrev dstCol (ei : (⟨S2x160000, .i32⟩ : BufTy).Contents (Elt Ideal)) : (⟨S160000x1, .i32⟩ : BufTy).Contents (Elt Ideal) :=
  Cert.ReferenceIdeal.Read.val_main_v12 (F := Ideal) ei

/-- The row an edge gathers: its source index read signed and clamped into the node range. -/
def srcRow (ei : (⟨S2x160000, .i32⟩ : BufTy).Contents (Elt Ideal)) (e : Fin 160000) : Fin 10000 :=
  ⟨min (srcCol ei (ix2 e ⟨0, Nat.one_pos⟩)).toInt.toNat (10000 - 1), by omega⟩

/-- The node an edge contributes to, as a signed integer (an edge whose target is no node contributes nowhere). -/
def dstInt (ei : (⟨S2x160000, .i32⟩ : BufTy).Contents (Elt Ideal)) (e : Fin 160000) : Int :=
  (dstCol ei (ix2 e ⟨0, Nat.one_pos⟩)).toInt

end Cert.SageDist

end
-- ==== Proof.KernelAggrOps.lean ====
/-
  The mean aggregation as the program's array operations spell it, applied to an array Y of 256 columns:
  gather the rows of Y the edges' sources name, add each gathered row into the row its edge's target names
  (starting from zeros), and divide every row by its node's degree column (the count of landing edges, at least one).
  The two index columns and the degree column are the ones the edge array determines; they are shared, as terms,
  by both programs.
-/
import proofs.«152311_j26620207301224_2_alg».proof.Proof.Gen.KernelIdeal
import proofs.«152311_j26620207301224_2_alg».proof.Proof.Edges

noncomputable section

namespace Cert.SageDist

open Idealize.ShloMosaic Idealize.ShloMosaic.ValueIdx Cert.KernelIdeal Cert.KernelIdeal.Facts₀

/-- The degree column: for every node the number of edges landing on it, at least one. -/
abbrev degCol (ei : (⟨Cert.ReferenceIdeal.S2x160000, .i32⟩ : BufTy).Contents (Elt Ideal)) :
    (⟨Cert.ReferenceIdeal.S10000x1, .f32⟩ : BufTy).Contents (Elt Ideal) :=
  Cert.ReferenceIdeal.Read.val_main_v20 (F := Ideal) ei

/-- Mean aggregation of a 256-column array over the edges, as array operations. -/
def aggrOps (Y : S10000x256.Idx → EReal) (ei : (⟨Cert.ReferenceIdeal.S2x160000, .i32⟩ : BufTy).Contents (Elt Ideal)) :
    S10000x256.Idx → EReal :=
  Host.divf (F := Ideal)
    (Host.scatterAdd (F := Ideal) scatter_S10000x256_S160000x1_S160000x256_1_0_0_1
      (broadcastInDim S10000x256 ![] bcast_S_S10000x256 (constant (F := Ideal) S_ .f32 0x00000000#32))
      (dstCol ei)
      (Host.gather gather_S10000x256_S160000x1_S160000x256_1_0_n_n_0_1_1256 Y (srcCol ei)))
    (broadcastInDim S10000x256 ![0, 1] bcast_S10000x1_S10000x256_0_1 (degCol ei))

end Cert.SageDist

end
-- ==== Proof.LibScatterGather.lean ====
import Idealize.ShloMosaic.PureOps.Ideal
import Idealize.ShloMosaic.PureOps.ShapeOps
import Idealize.ShloMosaic.Lib.ValueIdx

/-!
# Scatter and gather at an index

Three facts about `stablehlo.scatter` and `stablehlo.gather` read at one index.

* COUNT. An integer scatter-add of the constant `1` into zeros leaves, at each operand element, the
  number of update elements whose result index is that element (as a 32-bit word): the left fold
  adds `1` exactly once per update that lands there.
* ROW GATHER. A gather of whole rows of a two-dimensional table (collapsed row axis, one start
  index per result row) reads, at result element `(e, c)`, the table at row `clamp (idx e)` and
  column `c`.
* SCATTER LANDING. A scatter of whole rows (inserted row axis, one scatter index per update row)
  sends update element `(e, c)` to operand element `(n, c')` exactly when the signed index of row
  `e` is `n` and `c = c'`; so the sum over the updates landing at `(n, c)` is the sum over the
  update rows whose index is `n`, at column `c`.
-/

open scoped BigOperators

namespace Idealize.ShloMosaic.ScatterGather

open Idealize.ShloMosaic Idealize.ShloMosaic.ValueIdx

/-! ## Count -/

/-- A left fold whose step adds `1` at the element `g n` names (and does nothing when it names
    none), read at `i`: the start value plus the number of list entries naming `i`. -/
theorem foldl_addOne_apply {ι κ : Type} [DecidableEq ι] (g : κ → Option ι)
    (step : (ι → BitVec 32) → κ → ι → BitVec 32)
    (hsome : ∀ r n i0, g n = some i0 → ∀ i', step r n i' = if i' = i0 then r i0 + 1#32 else r i')
    (hnone : ∀ r n, g n = none → step r n = r)
    (L : List κ) (x : ι → BitVec 32) (i : ι) :
    (L.foldl step x) i = x i + BitVec.ofNat 32 (L.countP (fun n => g n = some i)) := by
  induction L generalizing x with
  | nil => simp
  | cons n L ih =>
    rw [List.foldl_cons, ih, List.countP_cons]
    cases hg : g n with
    | none => rw [hnone _ _ hg]; simp
    | some i0 =>
      rw [hsome _ _ _ hg]
      by_cases h : i = i0
      · subst h
        simp [BitVec.ofNat_add, BitVec.add_assoc, BitVec.add_comm]
      · have h' : ¬ i0 = i := fun e => h e.symm
        simp [h, h']

/-- Over the whole of `Fin N`, in order, counting the entries with a property is the cardinality of
    the set of elements with it. -/
theorem countP_finRange {N : Nat} (p : Fin N → Prop) [DecidablePred p] :
    (List.finRange N).countP (fun n => decide (p n)) = (Finset.univ.filter p).card := by
  rw [Finset.card_def, Finset.filter_val, Fin.univ_def, ← Multiset.countP_eq_card_filter]
  exact (Multiset.coe_countP _ _).symm

/-- COUNT. An integer scatter-add of the constant `1` into zeros, read at `i`: the number of update
    indices whose result index is `i`, as a 32-bit word. -/
theorem scatter_addi_one_apply {s si u : Shape} {w : Nat} (d : ScatterDims s si u) (idx : IVec si w)
    (i : s.Idx) :
    Host.scatter d IntOp.addi (fun _ => (0 : BitVec 32)) idx (fun _ => (1 : BitVec 32)) i
      = BitVec.ofNat 32 (Finset.univ.filter (fun j : u.Idx => d.resultIdx? j idx = some i)).card := by
  unfold Host.scatter
  refine (foldl_addOne_apply (fun n => d.resultIdx? (u.rowMajor.symm n) idx) _ ?_ ?_
    (List.finRange u.numel) (fun _ => (0 : BitVec 32)) i).trans ?_
  · intro r n i0 h i'
    simp only [h]
    rfl
  · intro r n h
    simp only [h]
  refine (BitVec.zero_add _).trans ?_
  rw [countP_finRange (fun n => d.resultIdx? (u.rowMajor.symm n) idx = some i)]
  congr 1
  exact Finset.card_equiv u.rowMajor.symm (by simp)

/-- COUNT, for any operand that is `0` everywhere and any updates that are `1` everywhere (however
    the two constants are spelled). -/
theorem scatter_addi_one_apply' {s si u : Shape} {w : Nat} (d : ScatterDims s si u) (idx : IVec si w)
    (x : s.Idx → BitVec 32) (upd : u.Idx → BitVec 32) (hx : ∀ i, x i = 0#32) (hu : ∀ j, upd j = 1#32)
    (i : s.Idx) :
    Host.scatter d IntOp.addi x idx upd i
      = BitVec.ofNat 32 (Finset.univ.filter (fun j : u.Idx => d.resultIdx? j idx = some i)).card := by
  obtain rfl : x = fun _ => (0 : BitVec 32) := funext hx
  obtain rfl : upd = fun _ => (1 : BitVec 32) := funext hu
  exact scatter_addi_one_apply d idx i

/-! ## Row gather

A gather of whole rows of a table `[N, C]` at start indices `[R, 1]` (offset axis `1`, collapsed
slice axis `0`, start index map `[0]`, index vector axis `1`, slice sizes `[1, C]`): result element
`(e, c)` is the table at row `idx[e, 0]`, read signed and clamped into `[0, N − 1]`, and column `c`. -/

section RowGather
variable {α : Type}

/-- Those dimension numbers for a table `[N, C]`, start indices `[R, 1]` and result `[R, C]`; their
    conditions `wf` are decided on literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at the row `idx[e, 0]` names, read signed and clamped
    into `[0, N − 1]`, and column `c`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  refine funext (Fin.forall_fin_two.2 ⟨Fin.ext ?_, Fin.ext ?_⟩)
  · show (rowGatherDims N R C wf).start (ix2 e c) idx 0 + (rowGatherDims N R C wf).batchCoord (ix2 e c) 0
      + (rowGatherDims N R C wf).offCoord (ix2 e c) 0 = _
    rw [GatherDims.batchCoord_eq_zero _ _ _ List.not_mem_nil, Nat.add_zero]
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowGatherDims N R C wf).startIndexMap from List.mem_singleton.mpr rfl)]
    have hsi : (rowGatherDims N R C wf).siIdx (ix2 e c)
        ⟨List.idxOf (0 : Fin 2) (rowGatherDims N R C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  · show (rowGatherDims N R C wf).start (ix2 e c) idx 1 + (rowGatherDims N R C wf).batchCoord (ix2 e c) 1
      + (rowGatherDims N R C wf).offCoord (ix2 e c) 1 = _
    rw [GatherDims.batchCoord_eq_zero _ _ _ List.not_mem_nil, Nat.add_zero]
    have hs : (rowGatherDims N R C wf).start (ix2 e c) idx 1 = 0 := by
      unfold GatherDims.start
      rw [dif_neg (show ¬ (1 : Fin 2) ∈ (rowGatherDims N R C wf).startIndexMap from
        fun h => absurd (congrArg Fin.val (List.mem_singleton.mp h)) Nat.one_ne_zero)]
    rw [hs, Nat.zero_add]
    rfl

end RowGather

/-! ### The two literal row gathers: tables `[100000, 64]` and `[100000, 128]`, `1200000` rows read -/

section RowGatherLiteral
variable {α : Type}

/-- The table row that start index `idx[e, 0]` names: read signed, clamped into `[0, 99999]`. The
    same function of the start indices at every table width. -/
def gatherRow {w : Nat} (idx : IVec ⟨2, ![1200000, 1]⟩ w) (e : Fin 1200000) : Fin 100000 :=
  ⟨min (idx (ix2 e 0)).toInt.toNat 99999, by omega⟩

/-- The row gather's dimension numbers at a table `[100000, 64]`. -/
def rowGather64 : GatherDims ⟨2, ![100000, 64]⟩ ⟨2, ![1200000, 1]⟩ ⟨2, ![1200000, 64]⟩ :=
  { offsetDims := [1], collapsedSliceDims := [0], operandBatchingDims := [], startIndicesBatchingDims := [],
    startIndexMap := [0], indexVectorDim := 1, sliceSizes := ![1, 64] }

/-- The row gather's dimension numbers at a table `[100000, 128]`. -/
def rowGather128 : GatherDims ⟨2, ![100000, 128]⟩ ⟨2, ![1200000, 1]⟩ ⟨2, ![1200000, 128]⟩ :=
  { offsetDims := [1], collapsedSliceDims := [0], operandBatchingDims := [], startIndicesBatchingDims := [],
    startIndexMap := [0], indexVectorDim := 1, sliceSizes := ![1, 128] }

/-- The 64-wide row gather at `(e, c)`: the table at row `gatherRow idx e`, column `c`. -/
theorem rowGather64_apply {w : Nat} (x : (⟨2, ![100000, 64]⟩ : Shape).Idx → α)
    (idx : IVec ⟨2, ![1200000, 1]⟩ w) (e : Fin 1200000) (c : Fin 64) :
    Host.gather rowGather64 x idx (ix2 e c) = x (ix2 (gatherRow idx e) c) :=
  rowGather_apply (N := 100000) (R := 1200000) (C := 64) (by omega) rowGather64.wf x idx e c

/-- The 128-wide row gather at `(e, c)`: the table at row `gatherRow idx e`, column `c`. -/
theorem rowGather128_apply {w : Nat} (x : (⟨2, ![100000, 128]⟩ : Shape).Idx → α)
    (idx : IVec ⟨2, ![1200000, 1]⟩ w) (e : Fin 1200000) (c : Fin 128) :
    Host.gather rowGather128 x idx (ix2 e c) = x (ix2 (gatherRow idx e) c) :=
  rowGather_apply (N := 100000) (R := 1200000) (C := 128) (by omega) rowGather128.wf x idx e c

end RowGatherLiteral

/-! ## Scatter landing

A scatter of whole rows `[R, C]` into a table `[N, C]` at scatter indices `[R, 1]` (update window
axis `1`, inserted window axis `0`, scatter-dims-to-operand-dims `[0]`, index vector axis `1`):
update element `(e, c)` lands at row `idx[e, 0]`, read signed and NOT clamped, column `c`, and is
dropped when that row is outside `[0, N)`. -/

section RowScatter

/-- Those dimension numbers for a table `[N, C]`, scatter indices `[R, 1]` and updates `[R, C]`;
    their conditions `wf` are decided on literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the row axis the window starts at the signed scatter index of the update's row … -/
theorem rowScatter_start0 (idx : IVec ⟨2, ![R, 1]⟩ w) (e : Fin R) (c : Fin C) :
    (rowScatterDims N R C wf).start (ix2 e c) idx 0 = (idx (ix2 e 0)).toInt := by
  unfold ScatterDims.start
  rw [dif_pos (show (0 : Fin 2) ∈ (rowScatterDims N R C wf).scatterDimsToOperandDims from
    List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and has no window coordinate (the row axis is inserted). -/
theorem rowScatter_window0 (e : Fin R) (c : Fin C) :
    (rowScatterDims N R C wf).window (ix2 e c) 0 = 0 := by
  unfold ScatterDims.window
  rw [dif_neg (show ¬ (0 : Fin 2) ∈ (rowScatterDims N R C wf).sKept from by
    simp [ScatterDims.sKept, Shape.kept, List.mem_filter, List.mem_finRange])]

/-- On the column axis the window starts at `0` … -/
theorem rowScatter_start1 (idx : IVec ⟨2, ![R, 1]⟩ w) (e : Fin R) (c : Fin C) :
    (rowScatterDims N R C wf).start (ix2 e c) idx 1 = 0 := by
  unfold ScatterDims.start
  rw [dif_neg (show ¬ (1 : Fin 2) ∈ (rowScatterDims N R C wf).scatterDimsToOperandDims from
    fun h => absurd (congrArg Fin.val (List.mem_singleton.mp h)) Nat.one_ne_zero)]

/-- … and the window coordinate is the update's column. -/
theorem rowScatter_window1 (e : Fin R) (c : Fin C) :
    (rowScatterDims N R C wf).window (ix2 e c) 1 = c.val := by
  unfold ScatterDims.window
  rw [dif_pos (show (1 : Fin 2) ∈ (rowScatterDims N R C wf).sKept from by
    simp [ScatterDims.sKept, Shape.kept, List.mem_filter, List.mem_finRange])]
  rfl

/-- WHERE AN UPDATE LANDS: update element `(e, c)` lands at row `idx[e, 0]` (signed) and column `c`
    when that row is inside `[0, N)`, and is dropped when it is not. -/
theorem rowScatter_resultIdx_eq (idx : IVec ⟨2, ![R, 1]⟩ w) (e : Fin R) (c : Fin C) :
    (rowScatterDims N R C wf).resultIdx? (ix2 e c) idx
      = if h : 0 ≤ (idx (ix2 e 0)).toInt ∧ (idx (ix2 e 0)).toInt < (N : Int) then
          some (ix2 ⟨(idx (ix2 e 0)).toInt.toNat, by omega⟩ c)
        else none := by
  have h0 : (rowScatterDims N R C wf).start (ix2 e c) idx 0 + (rowScatterDims N R C wf).window (ix2 e c) 0
      = (idx (ix2 e 0)).toInt := by
    rw [rowScatter_start0, rowScatter_window0]; simp
  have h1 : (rowScatterDims N R C wf).start (ix2 e c) idx 1 + (rowScatterDims N R C wf).window (ix2 e c) 1
      = (c.val : Int) := by
    rw [rowScatter_start1, rowScatter_window1]; simp
  unfold ScatterDims.resultIdx?
  by_cases h : 0 ≤ (idx (ix2 e 0)).toInt ∧ (idx (ix2 e 0)).toInt < (N : Int)
  · have hall : ∀ a, 0 ≤ (rowScatterDims N R C wf).start (ix2 e c) idx a + (rowScatterDims N R C wf).window (ix2 e c) a
        ∧ (rowScatterDims N R C wf).start (ix2 e c) idx a + (rowScatterDims N R C wf).window (ix2 e c) a
          < ((⟨2, ![N, C]⟩ : Shape).size a : Int) := by
      refine Fin.forall_fin_two.2 ⟨?_, ?_⟩
      · rw [h0]; exact h
      · rw [h1]; exact ⟨Int.natCast_nonneg _, Int.ofNat_lt.2 c.isLt⟩
    rw [dif_pos hall, dif_pos h]
    congr 1
    refine funext (Fin.forall_fin_two.2 ⟨Fin.ext ?_, Fin.ext ?_⟩)
    · show ((rowScatterDims N R C wf).start (ix2 e c) idx 0 + (rowScatterDims N R C wf).window (ix2 e c) 0).toNat = _
      rw [h0]
    · show ((rowScatterDims N R C wf).start (ix2 e c) idx 1 + (rowScatterDims N R C wf).window (ix2 e c) 1).toNat = _
      rw [h1]; exact Int.toNat_natCast _
  · rw [dif_neg h, dif_neg]
    intro hall
    have := hall 0
    rw [h0] at this
    exact h this

/-- SCATTER LANDING: update element `(e, c)` lands on table element `(n, c')` exactly when the signed
    scatter index of row `e` is `n` and the columns agree. -/
theorem rowScatter_resultIdx_iff (idx : IVec ⟨2, ![R, 1]⟩ w) (e : Fin R) (c : Fin C) (n : Fin N) (c' : Fin C) :
    (rowScatterDims N R C wf).resultIdx? (ix2 e c) idx = some (ix2 n c')
      ↔ ((idx (ix2 e 0)).toInt = (n.val : Int) ∧ c = c') := by
  rw [rowScatter_resultIdx_eq]
  by_cases h : 0 ≤ (idx (ix2 e 0)).toInt ∧ (idx (ix2 e 0)).toInt < (N : Int)
  · rw [dif_pos h]
    constructor
    · intro heq
      have heq' := Option.some.inj heq
      have h0 : (⟨(idx (ix2 e 0)).toInt.toNat, by omega⟩ : Fin N) = n := congrFun heq' 0
      have h1 : c = c' := congrFun heq' 1
      have h0' : (idx (ix2 e 0)).toInt.toNat = n.val := congrArg Fin.val h0
      exact ⟨by omega, h1⟩
    · rintro ⟨ht, rfl⟩
      have h0 : (⟨(idx (ix2 e 0)).toInt.toNat, by omega⟩ : Fin N) = n := Fin.ext (by simp [ht])
      rw [h0]
  · rw [dif_neg h]
    constructor
    · intro h'; cases h'
    · rintro ⟨ht, _⟩
      exact absurd ⟨by omega, by have := n.isLt; omega⟩ h

/-- THE SUM OVER WHAT LANDS AT `(n, c)`: over the update rows whose signed scatter index is `n`, at
    column `c`. -/
theorem rowScatter_sum {M : Type} [AddCommMonoid M] (idx : IVec ⟨2, ![R, 1]⟩ w) (n : Fin N) (c : Fin C)
    (f : (⟨2, ![R, C]⟩ : Shape).Idx → M)
    [hd : DecidablePred (fun j => (rowScatterDims N R C wf).resultIdx? j idx = some (ix2 n c))] :
    ∑ j ∈ Finset.univ.filter (fun j => (rowScatterDims N R C wf).resultIdx? j idx = some (ix2 n c)), f j
      = ∑ e ∈ Finset.univ.filter (fun e : Fin R => (idx (ix2 e 0)).toInt = (n.val : Int)), f (ix2 e c) := by
  symm
  refine Finset.sum_bij (fun e _ => ix2 e c) ?_ ?_ ?_ ?_
  · intro e he
    rw [Finset.mem_filter] at he ⊢
    exact ⟨Finset.mem_univ _, (rowScatter_resultIdx_iff wf idx e c n c).2 ⟨he.2, rfl⟩⟩
  · intro e _ e' _ heq
    exact congrFun heq 0
  · intro j hj
    rw [Finset.mem_filter] at hj
    have hj' : j = ix2 (n0 := R) (n1 := C) (j 0) (j 1) := eq_ix2 j
    have hj2 : (rowScatterDims N R C wf).resultIdx? (ix2 (n0 := R) (n1 := C) (j 0) (j 1)) idx
        = some (ix2 n c) := by rw [← hj']; exact hj.2
    have hj3 := (rowScatter_resultIdx_iff wf idx (j 0) (j 1) n c).1 hj2
    refine ⟨j 0, Finset.mem_filter.2 ⟨Finset.mem_univ _, hj3.1⟩, ?_⟩
    show ix2 (n0 := R) (n1 := C) (j 0) c = j
    rw [← hj3.2]
    exact hj'.symm
  · intro e _
    rfl

end RowScatter

/-! ### The two literal row scatters: tables `[100000, 64]` and `[100000, 128]`, `1200000` update rows -/

section RowScatterLiteral

/-- The update rows whose signed scatter index is `n`: the rows that land on table row `n`. The same
    set at every table width. -/
def landsAt {w : Nat} (idx : IVec ⟨2, ![1200000, 1]⟩ w) (n : Fin 100000) : Finset (Fin 1200000) :=
  Finset.univ.filter (fun e => (idx (ix2 e 0)).toInt = (n.val : Int))

/-- Membership in `landsAt`, unfolded. -/
theorem mem_landsAt {w : Nat} (idx : IVec ⟨2, ![1200000, 1]⟩ w) (n : Fin 100000) (e : Fin 1200000) :
    e ∈ landsAt idx n ↔ (idx (ix2 e 0)).toInt = (n.val : Int) := by
  unfold landsAt; rw [Finset.mem_filter]; exact ⟨fun h => h.2, fun h => ⟨Finset.mem_univ _, h⟩⟩

/-- The row scatter's dimension numbers at a table `[100000, 64]`. -/
def rowScatter64 : ScatterDims ⟨2, ![100000, 64]⟩ ⟨2, ![1200000, 1]⟩ ⟨2, ![1200000, 64]⟩ :=
  { updateWindowDims := [1], insertedWindowDims := [0], scatterDimsToOperandDims := [0], indexVectorDim := 1 }

/-- The row scatter's dimension numbers at a table `[100000, 128]`. -/
def rowScatter128 : ScatterDims ⟨2, ![100000, 128]⟩ ⟨2, ![1200000, 1]⟩ ⟨2, ![1200000, 128]⟩ :=
  { updateWindowDims := [1], insertedWindowDims := [0], scatterDimsToOperandDims := [0], indexVectorDim := 1 }

/-- The 64-wide row scatter: update `(e, c)` lands on `(n, c')` exactly when row `e`'s signed index is
    `n` and `c = c'`. -/
theorem rowScatter64_resultIdx {w : Nat} (idx : IVec ⟨2, ![1200000, 1]⟩ w) (e : Fin 1200000) (c : Fin 64)
    (n : Fin 100000) (c' : Fin 64) :
    rowScatter64.resultIdx? (ix2 e c) idx = some (ix2 n c')
      ↔ ((idx (ix2 e 0)).toInt = (n.val : Int) ∧ c = c') :=
  rowScatter_resultIdx_iff (N := 100000) (R := 1200000) (C := 64) rowScatter64.wf idx e c n c'

/-- The 128-wide row scatter: update `(e, c)` lands on `(n, c')` exactly when row `e`'s signed index
    is `n` and `c = c'`. -/
theorem rowScatter128_resultIdx {w : Nat} (idx : IVec ⟨2, ![1200000, 1]⟩ w) (e : Fin 1200000) (c : Fin 128)
    (n : Fin 100000) (c' : Fin 128) :
    rowScatter128.resultIdx? (ix2 e c) idx = some (ix2 n c')
      ↔ ((idx (ix2 e 0)).toInt = (n.val : Int) ∧ c = c') :=
  rowScatter_resultIdx_iff (N := 100000) (R := 1200000) (C := 128) rowScatter128.wf idx e c n c'

/-- The 64-wide row scatter's sum over what lands at `(n, c)`: over `landsAt idx n`, at column `c`. -/
theorem rowScatter64_sum {M : Type} [AddCommMonoid M] {w : Nat} (idx : IVec ⟨2, ![1200000, 1]⟩ w)
    (n : Fin 100000) (c : Fin 64) (f : (⟨2, ![1200000, 64]⟩ : Shape).Idx → M)
    [hd : DecidablePred (fun j => rowScatter64.resultIdx? j idx = some (ix2 n c))] :
    ∑ j ∈ Finset.univ.filter (fun j => rowScatter64.resultIdx? j idx = some (ix2 n c)), f j
      = ∑ e ∈ landsAt idx n, f (ix2 e c) :=
  rowScatter_sum (N := 100000) (R := 1200000) (C := 64) rowScatter64.wf idx n c f (hd := hd)

/-- The 128-wide row scatter's sum over what lands at `(n, c)`: over `landsAt idx n`, at column `c`. -/
theorem rowScatter128_sum {M : Type} [AddCommMonoid M] {w : Nat} (idx : IVec ⟨2, ![1200000, 1]⟩ w)
    (n : Fin 100000) (c : Fin 128) (f : (⟨2, ![1200000, 128]⟩ : Shape).Idx → M)
    [hd : DecidablePred (fun j => rowScatter128.resultIdx? j idx = some (ix2 n c))] :
    ∑ j ∈ Finset.univ.filter (fun j => rowScatter128.resultIdx? j idx = some (ix2 n c)), f j
      = ∑ e ∈ landsAt idx n, f (ix2 e c) :=
  rowScatter_sum (N := 100000) (R := 1200000) (C := 128) rowScatter128.wf idx n c f (hd := hd)

end RowScatterLiteral

/-! ## Scalar scatter landing

A scatter of scalars `[R]` into a vector `[N]` at scatter indices `[R, 1]` (no update window axis,
inserted window axis `0`, scatter-dims-to-operand-dims `[0]`, index vector axis `1`): update element
`e` lands at position `idx[e, 0]`, read signed and NOT clamped, and is dropped outside `[0, N)`. -/

section VecScatter

/-- Those dimension numbers for a vector `[N]`, scatter indices `[R, 1]` and updates `[R]`; their
    conditions `wf` are decided on literal shapes. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The window starts at the signed scatter index of the update … -/
theorem vecScatter_start0 (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from
    List.mem_singleton.mpr rfl)]
  have hsi : (vecScatterDims N R wf).siIdx (ix1 e)
      ⟨List.idxOf (0 : Fin 1) (vecScatterDims N R wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and has no window coordinate (the one axis is inserted). -/
theorem vecScatter_window0 (e : Fin R) :
    (vecScatterDims N R wf).window (ix1 e) 0 = 0 := by
  unfold ScatterDims.window
  rw [dif_neg (show ¬ (0 : Fin 1) ∈ (vecScatterDims N R wf).sKept from by
    simp [ScatterDims.sKept, Shape.kept, List.mem_filter, List.mem_finRange])]

/-- WHERE AN UPDATE LANDS: update element `e` lands at position `idx[e, 0]` (signed) when that is
    inside `[0, N)`, and is dropped when it is not. -/
theorem vecScatter_resultIdx_eq (idx : IVec ⟨2, ![R, 1]⟩ w) (e : Fin R) :
    (vecScatterDims N R wf).resultIdx? (ix1 e) idx
      = if h : 0 ≤ (idx (ix2 e 0)).toInt ∧ (idx (ix2 e 0)).toInt < (N : Int) then
          some (ix1 ⟨(idx (ix2 e 0)).toInt.toNat, by omega⟩)
        else none := by
  have h0 : (vecScatterDims N R wf).start (ix1 e) idx 0 + (vecScatterDims N R wf).window (ix1 e) 0
      = (idx (ix2 e 0)).toInt := by
    rw [vecScatter_start0, vecScatter_window0]; simp
  unfold ScatterDims.resultIdx?
  by_cases h : 0 ≤ (idx (ix2 e 0)).toInt ∧ (idx (ix2 e 0)).toInt < (N : Int)
  · have hall : ∀ a, 0 ≤ (vecScatterDims N R wf).start (ix1 e) idx a + (vecScatterDims N R wf).window (ix1 e) a
        ∧ (vecScatterDims N R wf).start (ix1 e) idx a + (vecScatterDims N R wf).window (ix1 e) a
          < ((⟨1, ![N]⟩ : Shape).size a : Int) := by
      intro a
      obtain rfl : a = 0 := Subsingleton.elim _ _
      rw [h0]; exact h
    rw [dif_pos hall, dif_pos h]
    congr 1
    funext a
    obtain rfl : a = 0 := Subsingleton.elim _ _
    refine Fin.ext ?_
    show ((vecScatterDims N R wf).start (ix1 e) idx 0 + (vecScatterDims N R wf).window (ix1 e) 0).toNat = _
    rw [h0]
    rfl
  · rw [dif_neg h, dif_neg]
    intro hall
    have := hall 0
    rw [h0] at this
    exact h this

/-- SCALAR SCATTER LANDING: update element `e` lands on position `n` exactly when its signed scatter
    index is `n`. -/
theorem vecScatter_resultIdx_iff (idx : IVec ⟨2, ![R, 1]⟩ w) (e : Fin R) (n : Fin N) :
    (vecScatterDims N R wf).resultIdx? (ix1 e) idx = some (ix1 n)
      ↔ (idx (ix2 e 0)).toInt = (n.val : Int) := by
  rw [vecScatter_resultIdx_eq]
  by_cases h : 0 ≤ (idx (ix2 e 0)).toInt ∧ (idx (ix2 e 0)).toInt < (N : Int)
  · rw [dif_pos h]
    constructor
    · intro heq
      have h0 : (⟨(idx (ix2 e 0)).toInt.toNat, by omega⟩ : Fin N) = n := congrFun (Option.some.inj heq) 0
      have h0' : (idx (ix2 e 0)).toInt.toNat = n.val := congrArg Fin.val h0
      omega
    · intro ht
      have h0 : (⟨(idx (ix2 e 0)).toInt.toNat, by omega⟩ : Fin N) = n := Fin.ext (by simp [ht])
      rw [h0]
  · rw [dif_neg h]
    constructor
    · intro h'; cases h'
    · intro ht
      exact absurd ⟨by omega, by have := n.isLt; omega⟩ h

/-- THE SUM OVER WHAT LANDS AT `n`: over the update elements whose signed scatter index is `n`. -/
theorem vecScatter_sum {M : Type} [AddCommMonoid M] (idx : IVec ⟨2, ![R, 1]⟩ w) (n : Fin N)
    (f : (⟨1, ![R]⟩ : Shape).Idx → M)
    [hd : DecidablePred (fun j => (vecScatterDims N R wf).resultIdx? j idx = some (ix1 n))] :
    ∑ j ∈ Finset.univ.filter (fun j => (vecScatterDims N R wf).resultIdx? j idx = some (ix1 n)), f j
      = ∑ e ∈ Finset.univ.filter (fun e : Fin R => (idx (ix2 e 0)).toInt = (n.val : Int)), f (ix1 e) := by
  symm
  refine Finset.sum_bij (fun e _ => ix1 e) ?_ ?_ ?_ ?_
  · intro e he
    rw [Finset.mem_filter] at he ⊢
    exact ⟨Finset.mem_univ _, (vecScatter_resultIdx_iff wf idx e n).2 he.2⟩
  · intro e _ e' _ heq
    exact congrFun heq 0
  · intro j hj
    rw [Finset.mem_filter] at hj
    have hj' : j = ix1 (n := R) (j 0) := eq_ix1 j
    have hj2 : (vecScatterDims N R wf).resultIdx? (ix1 (n := R) (j 0)) idx = some (ix1 n) := by
      rw [← hj']; exact hj.2
    have hj3 := (vecScatter_resultIdx_iff wf idx (j 0) n).1 hj2
    exact ⟨j 0, Finset.mem_filter.2 ⟨Finset.mem_univ _, hj3⟩, hj'.symm⟩
  · intro e _
    rfl

/-- HOW MANY LAND AT `n`: as many as there are update elements whose signed scatter index is `n`. -/
theorem vecScatter_card (idx : IVec ⟨2, ![R, 1]⟩ w) (n : Fin N)
    [hd : DecidablePred (fun j => (vecScatterDims N R wf).resultIdx? j idx = some (ix1 n))] :
    (Finset.univ.filter (fun j => (vecScatterDims N R wf).resultIdx? j idx = some (ix1 n))).card
      = (Finset.univ.filter (fun e : Fin R => (idx (ix2 e 0)).toInt = (n.val : Int))).card := by
  rw [Finset.card_eq_sum_ones, Finset.card_eq_sum_ones]
  exact vecScatter_sum wf idx n (fun _ => 1)

end VecScatter

end Idealize.ShloMosaic.ScatterGather
-- ==== Proof.RefDegree.lean ====
/-
  The divisor column of the mean aggregation: for every node, the number of edges landing on it, counted in ones by an
  accumulating scatter into zeros, and raised to at least one.
-/
import proofs.«152311_j26620207301224_2_alg».proof.Proof.Gen.ReferenceIdeal.Read
import proofs.«152311_j26620207301224_2_alg».proof.Proof.Spec
import proofs.«152311_j26620207301224_2_alg».proof.Proof.Edges
import proofs.«152311_j26620207301224_2_alg».proof.Proof.LibScatterGather
import Idealize.ShloMosaic.Lib.ValueIdx
import Idealize.ShloMosaic.PureOps.Ideal.Laws

noncomputable section

open scoped BigOperators

namespace Cert.SageDist.Ref

open Idealize.ShloMosaic Idealize.ShloMosaic.ValueIdx Cert.ReferenceIdeal Cert.ReferenceIdeal.Read Cert.SageDist

variable (x1 : (⟨S2x160000, .i32⟩ : BufTy).Contents (Elt Ideal))

/-- The target of an edge is the signed reading of the target column. -/
theorem dstInt_eq (e : Fin 160000) :
    dstInt x1 e = (val_main_v12 (F := Ideal) x1 (ix2 e ⟨0, Nat.one_pos⟩)).toInt := rfl

/-- The two target columns the reference builds are the same column. -/
theorem dstCol_twice : val_main_v16 (F := Ideal) x1 = val_main_v12 (F := Ideal) x1 := rfl

/-- The counts: entry n adds a one for every edge whose target is n (starting from zero). -/
theorem count_at (n : Fin 10000) :
    val_main_v17 x1 (ix1 n) = ∑ e : Fin 160000, if dstInt x1 e = (n.val : Int) then oneF else 0 := by
  unfold val_main_v17 Host.scatterAdd
  rw [Ideal.hostScatterAdd_def, dstCol_twice]
  show Ideal.hostScatterAdd (Idealize.ShloMosaic.ScatterGather.vecScatterDims 10000 160000 Facts₀.scatter_S10000_S160000x1_S160000_n_0_0_1_wf)
    (val_main_v15 (F := Ideal)) (val_main_v12 (F := Ideal) x1) (val_main_v14 (F := Ideal)) (ix1 n) = _
  unfold Ideal.hostScatterAdd
  rw [Idealize.ShloMosaic.ScatterGather.vecScatter_sum, val_main_v15_apply, val_main_cst_2_apply, Ideal.ofBits_def,
    Ideal.ofBits_zero_f32, zero_add, Finset.sum_filter]
  refine Finset.sum_congr rfl fun e _ => ?_
  rw [val_main_v14_apply, val_main_cst_1_apply, Ideal.ofBits_def, dstInt_eq]
  rfl

/-- THE DIVISOR COLUMN: entry (n, 0) is the number of edges landing on node n, counted in ones, and at least one. -/
theorem degree_col (x1 : (⟨S2x160000, .i32⟩ : BufTy).Contents (Elt Ideal)) (n : Fin 10000) :
    Cert.ReferenceIdeal.Read.val_main_v20 (F := Ideal) x1 (ix2 n ⟨0, Nat.one_pos⟩) = degree (dstInt x1) n := by
  unfold degree
  rw [val_main_v20_apply, val_main_v19_apply, val_main_v18_apply, val_main_cst_3_apply, Ideal.ofBits_def,
    Ideal.maximumf_def]
  have e : idx_main_v20 (ix2 n ⟨0, Nat.one_pos⟩) = ix1 n := by
    funext a; match a with | ⟨0, _⟩ => rfl
  rw [e, count_at]

end Cert.SageDist.Ref

end
-- ==== Proof.LibRowScatter.lean ====
/-
  ROW GATHER AND ACCUMULATING ROW SCATTER, READ AT AN INDEX.

  Two StableHLO host operations on a matrix `[N, C]` whose rows are addressed by an integer column `[E, 1]`, with
  the "rows" dimension numbers that `h[src]` (take rows) and a segment sum over destination rows lower to:

  * the row gather (offset_dims `[1]`, collapsed_slice_dims `[0]`, start_index_map `[0]`, index_vector_dim 1,
    slice_sizes `[1, C]`): result element `(e, q)` is the operand at row `idx[e, 0]` — read as a signed integer and
    clamped into `[0, N − 1]` — and column `q` (`gather_rows_apply`);
  * the scatter with an `add` body at the ideal instance (update_window_dims `[1]`, inserted_window_dims `[0]`,
    scatter_dims_to_operand_dims `[0]`, index_vector_dim 1): result element `(n, q)` is the operand's plus the sum
    of `upd[e, q]` over the rows `e` of the updates whose index `idx[e, 0]`, read signed and NOT clamped, is `n`
    (`scatterAdd_rows_apply`); an update row whose index is outside `[0, N)` lands nowhere.

  Everything is stated for arbitrary extents `N`, `E`, `C` and index width `w`; the dimension numbers' side
  conditions are a hypothesis `wf`, decided on a program's literal shapes.
-/
import Idealize.ShloMosaic.PureOps.Ideal
import Idealize.ShloMosaic.Lib.ValueIdx

noncomputable section

open scoped BigOperators

namespace Cert.Lib.RowOps

open Idealize.ShloMosaic Idealize.ShloMosaic.ValueIdx

/-! ## The row gather: `result[e, q] = operand[clamp(idx[e, 0]), q]` -/

section Gather
variable {α : Type}

/-- The row gather's dimension numbers for an operand `[N, C]`, start indices `[E, 1]` and result `[E, C]`:
    axis 0 of the operand is collapsed and is the one the start index addresses, axis 1 is the offset axis and is
    taken whole (slice sizes `[1, C]`); the index vector lives on axis 1 of the start indices. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the operand at the row `idx[e, 0]`, read as a signed integer and clamped into
    `[0, N − 1]`, and at the same column `q`. (On axis 0 the slice has size 1, so the start is clamped to `N − 1`
    and there is no offset; on axis 1 the start is 0 and the offset is the result's column.) -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 ⟨min (idx (ix2 e ⟨0, Nat.one_pos⟩)).toInt.toNat (N - 1), by omega⟩ q) := by
  unfold Host.gather
  congr 1
  funext a
  refine Fin.ext ?_
  match a with
  | ⟨0, _⟩ =>
    -- the row: clamped start, no batching coordinate, no offset (the axis is collapsed)
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    -- the column: start 0 (the start index does not address this axis), offset the result's column
    show (rowGatherDims N E C wf).start (ix2 e q) idx 1 + (rowGatherDims N E C wf).batchCoord (ix2 e q) 1
      + (rowGatherDims N E C wf).offCoord (ix2 e q) 1 = _
    rw [GatherDims.batchCoord_eq_zero _ _ _ List.not_mem_nil]
    unfold GatherDims.start
    rw [dif_neg (show (1 : Fin 2) ∉ (rowGatherDims N E C wf).startIndexMap from
      (show (1 : Fin 2) ∉ [(0 : Fin 2)] from by decide))]
    simp only [Nat.add_zero, Nat.zero_add]
    unfold GatherDims.offCoord
    rw [dif_pos (show (1 : Fin 2) ∈ (rowGatherDims N E C wf).sKept from
      (GatherDims.mem_sKept _ _).2 ⟨(show (1 : Fin 2) ∉ [(0 : Fin 2)] from by decide), List.not_mem_nil⟩)]
    rfl

end Gather

/-! ## The accumulating row scatter: `result[n, q] = operand[n, q] + ∑_{e : idx[e, 0] = n} upd[e, q]` -/

/-- The row scatter's dimension numbers for an operand `[N, C]`, scatter indices `[E, 1]` and updates `[E, C]`:
    axis 1 of the updates is the window axis and goes to the operand's axis 1; the operand's axis 0 is an inserted
    window axis and is the one the scatter index addresses; the index vector lives on axis 1 of the scatter indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- On the operand's row axis the window of update `(e, c)` starts at the scatter index `idx[e, 0]`, read as a
    signed integer (not clamped). -/
theorem rowScatter_start0 (idx : IVec ⟨2, ![E, 1]⟩ w) (e : Fin E) (c : Fin C) :
    (rowScatterDims N E C wf).start (ix2 e c) idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the operand's column axis, which the scatter index does not address, the window starts at 0. -/
theorem rowScatter_start1 (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (show (1 : Fin 2) ∉ [(0 : Fin 2)] from by decide))]

/-- The row axis is an inserted window axis: the window coordinate of update `(e, c)` on it is 0. -/
theorem rowScatter_window0 (e : Fin E) (c : Fin C) :
    (rowScatterDims N E C wf).window (ix2 e c) 0 = 0 := by
  unfold ScatterDims.window
  rw [dif_neg]
  exact (show (0 : Fin 2) ∉ (List.finRange 2).filter (· ∉ [(0 : Fin 2)]) from by decide)

/-- The column axis receives the updates' window axis: the window coordinate of update `(e, c)` on it is `c`. -/
theorem rowScatter_window1 (e : Fin E) (c : Fin C) :
    (rowScatterDims N E C wf).window (ix2 e c) 1 = c.val := by
  unfold ScatterDims.window
  rw [dif_pos]
  · rfl
  · exact (show (1 : Fin 2) ∈ (List.finRange 2).filter (· ∉ [(0 : Fin 2)]) from by decide)

/-- WHERE AN UPDATE LANDS: update element `(e, c)` lands at operand element `(n, q)` exactly when its column is `q`
    and its scatter index `idx[e, 0]`, read signed, is `n`. (The landing index is `(idx[e, 0] + 0, 0 + c)`; the column
    `c < C` is always inside, the row is inside exactly when `0 ≤ idx[e, 0] < N`, and outside the update is dropped.) -/
theorem rowScatter_resultIdx?_eq_some_iff (idx : IVec ⟨2, ![E, 1]⟩ w) (e : Fin E) (c : Fin C) (n : Fin N) (q : Fin C) :
    (rowScatterDims N E C wf).resultIdx? (ix2 e c) idx = some (ix2 n q)
      ↔ c = q ∧ (idx (ix2 e ⟨0, Nat.one_pos⟩)).toInt = (n.val : Int) := by
  have hs0 := rowScatter_start0 wf idx e c
  have hs1 := rowScatter_start1 wf idx e c
  have hw0 := rowScatter_window0 wf e c
  have hw1 := rowScatter_window1 wf e c
  unfold ScatterDims.resultIdx?
  split
  · -- the landing index is inside the operand: compare it with `(n, q)` coordinate by coordinate
    rename_i h
    rw [Option.some.injEq]
    constructor
    · intro hf
      have h0 := congrArg Fin.val (congrFun hf 0)
      have h1 := congrArg Fin.val (congrFun hf 1)
      simp only [hs0, hs1, hw0, hw1] at h0 h1
      have hh := (h 0).1
      rw [hs0, hw0] at hh
      refine ⟨Fin.ext ?_, ?_⟩
      · have : ((ix2 n q : (⟨2, ![N, C]⟩ : Shape).Idx) 1).val = q.val := rfl
        omega
      · have : ((ix2 n q : (⟨2, ![N, C]⟩ : Shape).Idx) 0).val = n.val := rfl
        omega
    · rintro ⟨rfl, ht⟩
      funext a
      refine Fin.ext ?_
      match a with
      | ⟨0, _⟩ =>
        show ((rowScatterDims N E C wf).start (ix2 e c) idx 0
          + ((rowScatterDims N E C wf).window (ix2 e c) 0 : Int)).toNat = n.val
        rw [hs0, hw0, ht]; simp
      | ⟨1, _⟩ =>
        show ((rowScatterDims N E C wf).start (ix2 e c) idx 1
          + ((rowScatterDims N E C wf).window (ix2 e c) 1 : Int)).toNat = c.val
        rw [hs1, hw1]; simp
  · -- the landing index is outside: then the scatter index is not a row number, so the right side fails too
    rename_i h
    constructor
    · intro hf; exact absurd hf (by simp)
    · rintro ⟨rfl, ht⟩
      exfalso
      apply h
      intro a
      match a with
      | ⟨0, _⟩ =>
        show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int)
            < (N : Int)
        rw [hs0, hw0, ht]
        have := n.isLt
        omega
      | ⟨1, _⟩ =>
        show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int)
            < (C : Int)
        rw [hs1, hw1]
        have := c.isLt
        omega

/-- THE ACCUMULATING ROW SCATTER READ AT `(n, q)`, at the ideal instance: the operand's element plus the sum, over the
    update rows `e` whose scatter index `idx[e, 0]` (read signed, not clamped) is `n`, of `upd[e, q]`. (The sum over the
    update elements that land at `(n, q)` is split into rows and columns; in each row only column `q` can land there.) -/
theorem scatterAdd_rows_apply (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (rowScatterDims N E C wf) x idx upd (ix2 n q)
      = x (ix2 n q) + ∑ e : Fin E,
          if (idx (ix2 e ⟨0, Nat.one_pos⟩)).toInt = (n.val : Int) then upd (ix2 e q) else 0 := by
  unfold Ideal.hostScatterAdd
  congr 1
  rw [Finset.sum_filter, sum_idx2]
  refine Finset.sum_congr rfl fun e _ => ?_
  simp only [rowScatter_resultIdx?_eq_some_iff]
  by_cases ht : (idx (ix2 e ⟨0, Nat.one_pos⟩)).toInt = (n.val : Int)
  · simp only [ht, and_true, if_true]
    exact Finset.sum_ite_eq' Finset.univ q (fun c => upd (ix2 e c)) |>.trans (by simp)
  · simp only [ht, and_false, if_false]
    exact Finset.sum_const_zero

end Scatter

end Cert.Lib.RowOps

end
-- ==== Proof.KernelAggr.lean ====
/-
  The mean aggregation as array operations is the mean aggregation of the mathematics.

  Read at node n and column c. The quotient is taken entry by entry. Its numerator is an accumulating row scatter
  into zeros: the sum, over the edges whose target is n, of the update rows at column c; the update row of an edge is
  the gathered row of its source, so the numerator is the sum over the edges landing on n of the source row's entry
  at column c. Its denominator is the degree column spread along the rows: at (n, c) it is the column's entry for
  node n, the number of edges landing on n counted in ones, and at least one.
-/
import proofs.«152311_j26620207301224_2_alg».proof.Proof.KernelAggrOps
import proofs.«152311_j26620207301224_2_alg».proof.Proof.RefDegree
import proofs.«152311_j26620207301224_2_alg».proof.Proof.LibRowScatter
import Idealize.ShloMosaic.Lib.Pipeline.Value
import Idealize.ShloMosaic.Lib.ValueIdx
import Idealize.ShloMosaic.PureOps.Ideal.Laws

noncomputable section

open scoped BigOperators

namespace Cert.SageDist

open Idealize.ShloMosaic Idealize.ShloMosaic.ValueIdx Cert.KernelIdeal Cert.KernelIdeal.Facts₀

/-- The numerator at (n, c): the sum over the edges landing on n of their source rows' entries at column c. -/
theorem aggr_numerator (Y : Cert.KernelIdeal.S10000x256.Idx → EReal)
    (ei : (⟨Cert.ReferenceIdeal.S2x160000, .i32⟩ : BufTy).Contents (Elt Ideal)) (n : Fin 10000) (c : Fin 256) :
    Host.scatterAdd (F := Ideal) scatter_S10000x256_S160000x1_S160000x256_1_0_0_1
        (broadcastInDim S10000x256 ![] bcast_S_S10000x256 (constant (F := Ideal) S_ .f32 0x00000000#32))
        (dstCol ei)
        (Host.gather gather_S10000x256_S160000x1_S160000x256_1_0_n_n_0_1_1256 Y (srcCol ei)) (ix2 n c)
      = ∑ e : Fin 160000, if dstInt ei e = (n.val : Int) then Y (ix2 (srcRow ei e) c) else 0 := by
  show Ideal.hostScatterAdd
      (Cert.Lib.RowOps.rowScatterDims 10000 160000 256 scatter_S10000x256_S160000x1_S160000x256_1_0_0_1_wf)
      _ (dstCol ei) _ (ix2 n c) = _
  rw [Cert.Lib.RowOps.scatterAdd_rows_apply]
  have hz : broadcastInDim S10000x256 ![] bcast_S_S10000x256 (constant (F := Ideal) S_ .f32 0x00000000#32) (ix2 n c)
      = (0 : EReal) := by
    show Ideal.ofBits .f32 0x00000000#32 = 0
    exact Ideal.ofBits_zero_f32
  rw [hz, zero_add]
  refine Finset.sum_congr rfl fun e _ => ?_
  show (if dstInt ei e = (n.val : Int) then
      Host.gather (Cert.Lib.RowOps.rowGatherDims 10000 160000 256
        gather_S10000x256_S160000x1_S160000x256_1_0_n_n_0_1_1256_wf) Y (srcCol ei) (ix2 e c) else 0) = _
  rw [Cert.Lib.RowOps.gather_rows_apply (by norm_num)]
  rfl

/-- The denominator at (n, c): the degree of node n. -/
theorem aggr_denominator (ei : (⟨Cert.ReferenceIdeal.S2x160000, .i32⟩ : BufTy).Contents (Elt Ideal)) (n : Fin 10000)
    (c : Fin 256) :
    broadcastInDim S10000x256 ![0, 1] bcast_S10000x1_S10000x256_0_1 (degCol ei) (ix2 n c) = degree (dstInt ei) n := by
  rw [broadcastInDim_apply _ _ (degCol ei) (ix2 n c) (ix2 n ⟨0, Nat.one_pos⟩) (fun a => by
    match a with
    | ⟨0, _⟩ => rfl
    | ⟨1, _⟩ => rfl)]
  exact Ref.degree_col ei n

/-- The array operations compute the mean aggregation. -/
theorem aggr_mat (Y : Cert.KernelIdeal.S10000x256.Idx → EReal)
    (ei : (⟨Cert.ReferenceIdeal.S2x160000, .i32⟩ : BufTy).Contents (Elt Ideal)) :
    toMat (aggrOps Y ei) = meanAgg (srcRow ei) (dstInt ei) (toMat Y) := by
  funext n c
  simp only [toMat, aggrOps, Host.divf, meanAgg, Ideal.hostDivf_def]
  rw [aggr_numerator, aggr_denominator]

end Cert.SageDist

end
-- ==== Proof.KernelValue.lean ====
/-
  The idealized kernel's result as one function of its arguments.
  Region by region and stretch by stretch: the first region leaves the projection X · W_l; the array operations after
  it aggregate the projected rows over the edges (mean per target node) and recast the five bias vectors as rows; the
  second region leaves the chain applied to root projection + aggregated row + bias; the transposition after it hands
  the third region the same points as columns; the third region leaves the matrix of pairwise distances.  Composed,
  the result is the first arrangement of the specification (project, then aggregate; distances directly).
-/
import proofs.«152311_j26620207301224_2_alg».proof.Proof.KernelRun
import proofs.«152311_j26620207301224_2_alg».proof.Proof.KernelRegion0
import proofs.«152311_j26620207301224_2_alg».proof.Proof.KernelRegion1
import proofs.«152311_j26620207301224_2_alg».proof.Proof.KernelRegion2
import proofs.«152311_j26620207301224_2_alg».proof.Proof.KernelAggr
import Idealize.ShloMosaic.Lib.StableHlo.Run
import Idealize.ShloMosaic.Lib.Pipeline.Value

set_option maxRecDepth 16384

noncomputable section

namespace Cert.KernelIdeal.Value

open Cert.KernelIdeal Cert.KernelIdeal.Gen Cert.SageDist Cert.KernelIdeal.Products
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The array operations read at an entry -/

/-- A vector recast as a one-row array, read as a row, is the vector. -/
theorem rowVec_cast {n : Nat} (v : (⟨1, ![n]⟩ : Shape).Idx → EReal) (h : (⟨1, ![n]⟩ : Shape).ShapeCasts ⟨2, ![1, n]⟩) :
    Region1.rowVec (shapeCast ⟨2, ![1, n]⟩ v h) = toVec v := by
  funext q
  show shapeCast ⟨1 + 1, Matrix.vecCons 1 ![n]⟩ v h (ix2 0 q) = v (ix1 q)
  rw [shapeCast_addUnit_apply]
  exact congrArg v (funext fun a => by match a with | ⟨0, _⟩ => rfl)

/-- The points against their own transposition: the direct pairwise distance. -/
theorem dist_transpose (H : S10000x3.Idx → EReal) :
    Region2.dist H (transpose S3x10000 [1, 0] H transposes_S10000x3_S3x10000_1_0) = fun i => distDirect (toMat H) (i 0) (i 1) := by
  funext i
  obtain ⟨p, q, rfl⟩ : ∃ (p q : Fin 10000), i = ix2 p q := ⟨i 0, i 1, eq_ix2 i⟩
  have ht : ∀ (k : Fin 3) (j : Fin 10000), transpose S3x10000 [1, 0] H transposes_S10000x3_S3x10000_1_0 (ix2 k j) = H (ix2 j k) := fun k j =>
    transpose_apply _ _ _ _ (ix2 j k) (fun b => by match b with | ⟨0, _⟩ => rfl | ⟨1, _⟩ => rfl)
  show Ideal.sqrt (((H (ix2 p (0 : Fin 3)) - transpose S3x10000 [1, 0] H transposes_S10000x3_S3x10000_1_0 (ix2 (0 : Fin 3) q)) * (H (ix2 p (0 : Fin 3)) - transpose S3x10000 [1, 0] H transposes_S10000x3_S3x10000_1_0 (ix2 (0 : Fin 3) q))
      + (H (ix2 p (1 : Fin 3)) - transpose S3x10000 [1, 0] H transposes_S10000x3_S3x10000_1_0 (ix2 (1 : Fin 3) q)) * (H (ix2 p (1 : Fin 3)) - transpose S3x10000 [1, 0] H transposes_S10000x3_S3x10000_1_0 (ix2 (1 : Fin 3) q)))
      + (H (ix2 p (2 : Fin 3)) - transpose S3x10000 [1, 0] H transposes_S10000x3_S3x10000_1_0 (ix2 (2 : Fin 3) q)) * (H (ix2 p (2 : Fin 3)) - transpose S3x10000 [1, 0] H transposes_S10000x3_S3x10000_1_0 (ix2 (2 : Fin 3) q))) = _
  rw [ht 0 q, ht 1 q, ht 2 q]
  rfl

/-! ## The contents at the segment boundaries -/

/-- The launch contents are the launch memory. -/
theorem V0_eq (c : Dev nD) (b : Ref sig .tc) : V0 m ρ c b = m ((c : Thread nD τ).loc b) := rfl

/-- After the first region the projection array holds X · W_l. -/
theorem y_eq (c : Dev nD) :
    W1 m ρ c (Proc.devRef .tc main_v0) = Region0.proj (m ((c : Thread nD τ).loc main_arg0)) (m ((c : Thread nD τ).loc main_arg2)) :=
  (W1_arr m ρ c 2).trans (Region0.final (V0 m ρ) c)

/-- The first region leaves the edge array alone. -/
theorem ei_eq (c : Dev nD) : W1 m ρ c (Proc.devRef .tc main_arg1) = m ((c : Thread nD τ).loc main_arg1) :=
  W1_of_ne m ρ c main_arg1 (by decide)

/-! ### The arguments at the later boundaries -/

theorem arg0_after0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem arg3_after0 (c : Dev nD) : W1 m ρ c (Proc.devRef .tc main_arg3) = m ((c : Thread nD τ).loc main_arg3) :=
  W1_of_ne m ρ c main_arg3 (by decide)
theorem arg4_after0 (c : Dev nD) : W1 m ρ c (Proc.devRef .tc main_arg4) = m ((c : Thread nD τ).loc main_arg4) :=
  W1_of_ne m ρ c main_arg4 (by decide)
theorem arg5_after0 (c : Dev nD) : W1 m ρ c (Proc.devRef .tc main_arg5) = m ((c : Thread nD τ).loc main_arg5) :=
  W1_of_ne m ρ c main_arg5 (by decide)
theorem arg6_after0 (c : Dev nD) : W1 m ρ c (Proc.devRef .tc main_arg6) = m ((c : Thread nD τ).loc main_arg6) :=
  W1_of_ne m ρ c main_arg6 (by decide)
theorem arg7_after0 (c : Dev nD) : W1 m ρ c (Proc.devRef .tc main_arg7) = m ((c : Thread nD τ).loc main_arg7) :=
  W1_of_ne m ρ c main_arg7 (by decide)
theorem arg8_after0 (c : Dev nD) : W1 m ρ c (Proc.devRef .tc main_arg8) = m ((c : Thread nD τ).loc main_arg8) :=
  W1_of_ne m ρ c main_arg8 (by decide)
theorem arg9_after0 (c : Dev nD) : W1 m ρ c (Proc.devRef .tc main_arg9) = m ((c : Thread nD τ).loc main_arg9) :=
  W1_of_ne m ρ c main_arg9 (by decide)
theorem arg10_after0 (c : Dev nD) : W1 m ρ c (Proc.devRef .tc main_arg10) = m ((c : Thread nD τ).loc main_arg10) :=
  W1_of_ne m ρ c main_arg10 (by decide)
theorem arg11_after0 (c : Dev nD) : W1 m ρ c (Proc.devRef .tc main_arg11) = m ((c : Thread nD τ).loc main_arg11) :=
  W1_of_ne m ρ c main_arg11 (by decide)
theorem arg12_after0 (c : Dev nD) : W1 m ρ c (Proc.devRef .tc main_arg12) = m ((c : Thread nD τ).loc main_arg12) :=
  W1_of_ne m ρ c main_arg12 (by decide)

theorem arg0_after1 (c : Dev nD) : V2 m ρ c main_arg0 = m ((c : Thread nD τ).loc main_arg0) := by
  show StableHlo.after hostOps1 (W1 m ρ c) (Proc.devRef .tc main_arg0) = _
  after_results_simp
  exact arg0_after0 m ρ c
theorem arg4_after1 (c : Dev nD) : V2 m ρ c main_arg4 = m ((c : Thread nD τ).loc main_arg4) := by
  show StableHlo.after hostOps1 (W1 m ρ c) (Proc.devRef .tc main_arg4) = _
  after_results_simp
  exact arg4_after0 m ρ c
theorem arg5_after1 (c : Dev nD) : V2 m ρ c main_arg5 = m ((c : Thread nD τ).loc main_arg5) := by
  show StableHlo.after hostOps1 (W1 m ρ c) (Proc.devRef .tc main_arg5) = _
  after_results_simp
  exact arg5_after0 m ρ c
theorem arg7_after1 (c : Dev nD) : V2 m ρ c main_arg7 = m ((c : Thread nD τ).loc main_arg7) := by
  show StableHlo.after hostOps1 (W1 m ρ c) (Proc.devRef .tc main_arg7) = _
  after_results_simp
  exact arg7_after0 m ρ c
theorem arg9_after1 (c : Dev nD) : V2 m ρ c main_arg9 = m ((c : Thread nD τ).loc main_arg9) := by
  show StableHlo.after hostOps1 (W1 m ρ c) (Proc.devRef .tc main_arg9) = _
  after_results_simp
  exact arg9_after0 m ρ c
theorem arg11_after1 (c : Dev nD) : V2 m ρ c main_arg11 = m ((c : Thread nD τ).loc main_arg11) := by
  show StableHlo.after hostOps1 (W1 m ρ c) (Proc.devRef .tc main_arg11) = _
  after_results_simp
  exact arg11_after0 m ρ c

theorem row24_after1 (c : Dev nD) : V2 m ρ c main_v24 = shapeCast S1x256 (m ((c : Thread nD τ).loc main_arg3)) shapeCasts_S256_S1x256 := by
  show StableHlo.after hostOps1 (W1 m ρ c) (Proc.devRef .tc main_v24) = _
  after_results_simp
  rw [arg3_after0 m ρ c]
  rfl
theorem row25_after1 (c : Dev nD) : V2 m ρ c main_v25 = shapeCast S1x128 (m ((c : Thread nD τ).loc main_arg6)) shapeCasts_S128_S1x128 := by
  show StableHlo.after hostOps1 (W1 m ρ c) (Proc.devRef .tc main_v25) = _
  after_results_simp
  rw [arg6_after0 m ρ c]
  rfl
theorem row26_after1 (c : Dev nD) : V2 m ρ c main_v26 = shapeCast S1x64 (m ((c : Thread nD τ).loc main_arg8)) shapeCasts_S64_S1x64 := by
  show StableHlo.after hostOps1 (W1 m ρ c) (Proc.devRef .tc main_v26) = _
  after_results_simp
  rw [arg8_after0 m ρ c]
  rfl
theorem row27_after1 (c : Dev nD) : V2 m ρ c main_v27 = shapeCast S1x32 (m ((c : Thread nD τ).loc main_arg10)) shapeCasts_S32_S1x32 := by
  show StableHlo.after hostOps1 (W1 m ρ c) (Proc.devRef .tc main_v27) = _
  after_results_simp
  rw [arg10_after0 m ρ c]
  rfl
theorem row28_after1 (c : Dev nD) : V2 m ρ c main_v28 = shapeCast S1x3 (m ((c : Thread nD τ).loc main_arg12)) shapeCasts_S3_S1x3 := by
  show StableHlo.after hostOps1 (W1 m ρ c) (Proc.devRef .tc main_v28) = _
  after_results_simp
  rw [arg12_after0 m ρ c]
  rfl

/-- After the first stretch of array operations: the projection aggregated over the edges. -/
theorem aggr_eq (c : Dev nD) :
    V2 m ρ c main_v23 = aggrOps (W1 m ρ c (Proc.devRef .tc main_v0)) (W1 m ρ c (Proc.devRef .tc main_arg1)) := by
  show StableHlo.after hostOps1 (W1 m ρ c) (Proc.devRef .tc main_v23) = _
  after_results_simp
  rfl

/-- After the second region: the chain applied to the combination. -/
theorem pts_eq (c : Dev nD) :
    W3 m ρ c (Proc.devRef .tc main_v29)
      = Region1.mlp (aggrOps (Region0.proj (m ((c : Thread nD τ).loc main_arg0)) (m ((c : Thread nD τ).loc main_arg2))) (m ((c : Thread nD τ).loc main_arg1)))
          (m ((c : Thread nD τ).loc main_arg0)) (shapeCast S1x256 (m ((c : Thread nD τ).loc main_arg3)) shapeCasts_S256_S1x256)
          (m ((c : Thread nD τ).loc main_arg4)) (m ((c : Thread nD τ).loc main_arg5)) (shapeCast S1x128 (m ((c : Thread nD τ).loc main_arg6)) shapeCasts_S128_S1x128)
          (m ((c : Thread nD τ).loc main_arg7)) (shapeCast S1x64 (m ((c : Thread nD τ).loc main_arg8)) shapeCasts_S64_S1x64)
          (m ((c : Thread nD τ).loc main_arg9)) (shapeCast S1x32 (m ((c : Thread nD τ).loc main_arg10)) shapeCasts_S32_S1x32)
          (m ((c : Thread nD τ).loc main_arg11)) (shapeCast S1x3 (m ((c : Thread nD τ).loc main_arg12)) shapeCasts_S3_S1x3) := by
  refine (W3_arr m ρ c 12).trans ?_
  rw [Region1.final (V2 m ρ) c, aggr_eq, y_eq, ei_eq, arg0_after1, arg4_after1, arg5_after1, arg7_after1, arg9_after1, arg11_after1,
    row24_after1, row25_after1, row26_after1, row27_after1, row28_after1]

/-- The second stretch keeps the points and writes their transposition. -/
theorem ptsKept (c : Dev nD) : V4 m ρ c main_v29 = W3 m ρ c (Proc.devRef .tc main_v29) := by
  show StableHlo.after hostOps2 (W3 m ρ c) (Proc.devRef .tc main_v29) = _
  after_results_simp
theorem ptsT (c : Dev nD) : V4 m ρ c main_v30 = transpose S3x10000 [1, 0] (W3 m ρ c (Proc.devRef .tc main_v29)) transposes_S10000x3_S3x10000_1_0 := by
  show StableHlo.after hostOps2 (W3 m ρ c) (Proc.devRef .tc main_v30) = _
  after_results_simp

/-- THE RESULT: the last boundary's contents at the result buffer are the first arrangement of the specification
    on the launch memory's argument arrays. -/
theorem result_eq (c : Dev nD) :
    W5 m ρ c (Proc.devRef .tc main_v31) = fun i =>
      valueProj (srcRow (m ((c : Thread nD τ).loc main_arg1))) (dstInt (m ((c : Thread nD τ).loc main_arg1)))
        (toMat (m ((c : Thread nD τ).loc main_arg0))) (toMat (m ((c : Thread nD τ).loc main_arg2))) (toVec (m ((c : Thread nD τ).loc main_arg3)))
        (toMat (m ((c : Thread nD τ).loc main_arg4))) (toMat (m ((c : Thread nD τ).loc main_arg5))) (toVec (m ((c : Thread nD τ).loc main_arg6)))
        (toMat (m ((c : Thread nD τ).loc main_arg7))) (toVec (m ((c : Thread nD τ).loc main_arg8)))
        (toMat (m ((c : Thread nD τ).loc main_arg9))) (toVec (m ((c : Thread nD τ).loc main_arg10)))
        (toMat (m ((c : Thread nD τ).loc main_arg11))) (toVec (m ((c : Thread nD τ).loc main_arg12))) (i 0) (i 1) := by
  refine (W5_arr m ρ c 2).trans ?_
  rw [Region2.final (V4 m ρ) c, ptsT, ptsKept, dist_transpose, pts_eq]
  funext i
  have hA := aggr_mat (Region0.proj (m ((c : Thread nD τ).loc main_arg0)) (m ((c : Thread nD τ).loc main_arg2))) (m ((c : Thread nD τ).loc main_arg1))
  show distDirect (chain (Region1.combine (toMat (aggrOps (Region0.proj (m ((c : Thread nD τ).loc main_arg0)) (m ((c : Thread nD τ).loc main_arg2))) (m ((c : Thread nD τ).loc main_arg1))))
      (toMat (m ((c : Thread nD τ).loc main_arg0))) (toMat (m ((c : Thread nD τ).loc main_arg4))) (Region1.rowVec (shapeCast S1x256 (m ((c : Thread nD τ).loc main_arg3)) shapeCasts_S256_S1x256)))
      (toMat (m ((c : Thread nD τ).loc main_arg5))) (Region1.rowVec (shapeCast S1x128 (m ((c : Thread nD τ).loc main_arg6)) shapeCasts_S128_S1x128))
      (toMat (m ((c : Thread nD τ).loc main_arg7))) (Region1.rowVec (shapeCast S1x64 (m ((c : Thread nD τ).loc main_arg8)) shapeCasts_S64_S1x64))
      (toMat (m ((c : Thread nD τ).loc main_arg9))) (Region1.rowVec (shapeCast S1x32 (m ((c : Thread nD τ).loc main_arg10)) shapeCasts_S32_S1x32))
      (toMat (m ((c : Thread nD τ).loc main_arg11))) (Region1.rowVec (shapeCast S1x3 (m ((c : Thread nD τ).loc main_arg12)) shapeCasts_S3_S1x3))) (i 0) (i 1) = _
  rw [hA, rowVec_cast, rowVec_cast, rowVec_cast, rowVec_cast, rowVec_cast]
  rfl

end Cert.KernelIdeal.Value

end
-- ==== Proof.RefValueDist.lean ====
/-
  The last stage of the reference: from the matrix of points in R^3 to the matrix of pairwise distances through the
  norm identity |a|^2 + |b|^2 - 2 a.b, clamped at zero, with the square root guarded where the clamped square vanishes.
-/
import proofs.«152311_j26620207301224_2_alg».proof.Proof.Gen.ReferenceIdeal.Read
import proofs.«152311_j26620207301224_2_alg».proof.Proof.Spec
import Idealize.ShloMosaic.Lib.ValueIdx
import Idealize.ShloMosaic.PureOps.Ideal.Laws

noncomputable section

open scoped BigOperators

namespace Cert.SageDist.Ref

open Idealize.ShloMosaic Idealize.ShloMosaic.ValueIdx Cert.ReferenceIdeal Cert.ReferenceIdeal.Read Cert.SageDist

variable (x0 : (⟨S10000x512, .f32⟩ : BufTy).Contents (Elt Ideal))
variable (x1 : (⟨S2x160000, .i32⟩ : BufTy).Contents (Elt Ideal))
variable (x2 : (⟨S512x256, .f32⟩ : BufTy).Contents (Elt Ideal))
variable (x3 : (⟨S256, .f32⟩ : BufTy).Contents (Elt Ideal))
variable (x4 : (⟨S512x256, .f32⟩ : BufTy).Contents (Elt Ideal))
variable (x5 : (⟨S256x128, .f32⟩ : BufTy).Contents (Elt Ideal))
variable (x6 : (⟨S128, .f32⟩ : BufTy).Contents (Elt Ideal))
variable (x7 : (⟨S128x64, .f32⟩ : BufTy).Contents (Elt Ideal))
variable (x8 : (⟨S64, .f32⟩ : BufTy).Contents (Elt Ideal))
variable (x9 : (⟨S64x32, .f32⟩ : BufTy).Contents (Elt Ideal))
variable (x10 : (⟨S32, .f32⟩ : BufTy).Contents (Elt Ideal))
variable (x11 : (⟨S32x3, .f32⟩ : BufTy).Contents (Elt Ideal))
variable (x12 : (⟨S3, .f32⟩ : BufTy).Contents (Elt Ideal))

/-- A select on the bit of "s is positive" is the `if` on that comparison. -/
theorem select_pos (s a b : EReal) : Scalar.select (Ideal.cmp .ogt s 0) a b = if 0 < s then a else b := by
  by_cases h : 0 < s
  · simp [Scalar.select, Ideal.cmp, h]
  · simp [Scalar.select, Ideal.cmp, h]

/-- The squared norm of point p: the sum of the squares of its three coordinates (the sum starts from zero). -/
theorem sqnorm_at (p : Fin 10000) :
    val_main_v50 x0 x1 x2 x3 x4 x5 x6 x7 x8 x9 x10 x11 x12 (ix1 p)
      = ∑ k : Fin 3, toMat (val_main_v48 x0 x1 x2 x3 x4 x5 x6 x7 x8 x9 x10 x11 x12) p k * toMat (val_main_v48 x0 x1 x2 x3 x4 x5 x6 x7 x8 x9 x10 x11 x12) p k := by
  rw [val_main_v50_apply, val_main_cst_4_apply, Ideal.ofBits_def, Ideal.ofBits_zero_f32, zero_add]
  refine Finset.sum_congr rfl fun k _ => ?_
  rw [val_main_v49_apply, Ideal.mulf_def]
  have e : idx_main_v50 (ix1 p) k = ix2 p k := by
    funext a; match a with | ⟨0, _⟩ => rfl | ⟨1, _⟩ => rfl
  rw [e]; rfl

/-- The inner product of points p and q: the product of the matrix of points with its transpose, entry (p, q). -/
theorem inner_at (p q : Fin 10000) :
    val_main_v57 x0 x1 x2 x3 x4 x5 x6 x7 x8 x9 x10 x11 x12 (ix2 p q)
      = ∑ k : Fin 3, toMat (val_main_v48 x0 x1 x2 x3 x4 x5 x6 x7 x8 x9 x10 x11 x12) p k * toMat (val_main_v48 x0 x1 x2 x3 x4 x5 x6 x7 x8 x9 x10 x11 x12) q k := by
  rw [val_main_v57_apply]
  refine Finset.sum_congr rfl fun k _ => ?_
  rw [val_main_v56_apply]
  have el : lidx_main_v57 (ix2 p q) k = ix2 p k := by
    funext a; match a with | ⟨0, _⟩ => rfl | ⟨1, _⟩ => rfl
  have er : idx_main_v56 (ridx_main_v57 (ix2 p q) k) = ix2 q k := by
    funext a; match a with | ⟨0, _⟩ => rfl | ⟨1, _⟩ => rfl
  rw [el, er]; rfl

/-- The clamped squared distance of points p and q. -/
theorem sq_at (p q : Fin 10000) :
    val_main_v62 x0 x1 x2 x3 x4 x5 x6 x7 x8 x9 x10 x11 x12 (ix2 p q) = sqNormTrick (toMat (val_main_v48 x0 x1 x2 x3 x4 x5 x6 x7 x8 x9 x10 x11 x12)) p q := by
  rw [val_main_v62_apply, val_main_v61_apply, val_main_cst_6_apply, val_main_v60_apply, val_main_v55_apply,
    val_main_v59_apply, val_main_v58_apply, val_main_cst_5_apply, val_main_v53_apply, val_main_v54_apply,
    val_main_v51_apply, val_main_v52_apply, inner_at]
  have e1 : idx_main_v51 (idx_main_v53 (ix2 p q)) = ix1 p := by
    funext a; match a with | ⟨0, _⟩ => rfl
  have e2 : idx_main_v52 (idx_main_v54 (ix2 p q)) = ix1 q := by
    funext a; match a with | ⟨0, _⟩ => rfl
  rw [e1, e2, sqnorm_at, sqnorm_at]
  simp only [Ideal.ofBits_def, Ideal.ofBits_zero_f32, Ideal.maximumf_def, Ideal.subf_def, Ideal.addf_def, Ideal.mulf_def]
  rfl

/-- THE DISTANCE STAGE: the reference's result is the pairwise distance, through the norm identity, of the rows of the
    matrix of points. -/
theorem dist_stage :
    toMat (val_main_v69 x0 x1 x2 x3 x4 x5 x6 x7 x8 x9 x10 x11 x12) = distNormTrick (toMat (val_main_v48 x0 x1 x2 x3 x4 x5 x6 x7 x8 x9 x10 x11 x12)) := by
  funext p q
  show val_main_v69 x0 x1 x2 x3 x4 x5 x6 x7 x8 x9 x10 x11 x12 (ix2 p q) = _
  rw [val_main_v69_apply, val_main_v67_apply, val_main_v68_apply, val_main_v65_apply, val_main_v64_apply,
    val_main_v66_apply, val_main_v63_apply, val_main_cst_9_apply, val_main_cst_7_apply,
    val_main_call5_v1_apply, val_main_call5_v0_apply, val_main_cst_10_apply,
    val_main_call4_v1_apply, val_main_call4_v0_apply, val_main_cst_8_apply, sq_at]
  simp only [Ideal.ofBits_def, Ideal.ofBits_zero_f32, Ideal.cmpf_def, Ideal.hostUnary_sqrt_def, select_pos]
  rfl

end Cert.SageDist.Ref

end
-- ==== Proof.RefValueChain.lean ====
/-
  The middle of the reference: after the graph layer, a positive part and then four affine maps with a positive part
  between them.  Each stage is read as a matrix and identified with the corresponding term of the chain.
-/
import proofs.«152311_j26620207301224_2_alg».proof.Proof.Gen.ReferenceIdeal.Read
import proofs.«152311_j26620207301224_2_alg».proof.Proof.Spec
import Idealize.ShloMosaic.Lib.ValueIdx
import Idealize.ShloMosaic.PureOps.Ideal.Laws

noncomputable section

open scoped BigOperators

namespace Cert.SageDist.Ref

open Idealize.ShloMosaic Idealize.ShloMosaic.ValueIdx Cert.ReferenceIdeal Cert.ReferenceIdeal.Read Cert.SageDist

variable (x0 : (⟨S10000x512, .f32⟩ : BufTy).Contents (Elt Ideal))
variable (x1 : (⟨S2x160000, .i32⟩ : BufTy).Contents (Elt Ideal))
variable (x2 : (⟨S512x256, .f32⟩ : BufTy).Contents (Elt Ideal))
variable (x3 : (⟨S256, .f32⟩ : BufTy).Contents (Elt Ideal))
variable (x4 : (⟨S512x256, .f32⟩ : BufTy).Contents (Elt Ideal))
variable (x5 : (⟨S256x128, .f32⟩ : BufTy).Contents (Elt Ideal))
variable (x6 : (⟨S128, .f32⟩ : BufTy).Contents (Elt Ideal))
variable (x7 : (⟨S128x64, .f32⟩ : BufTy).Contents (Elt Ideal))
variable (x8 : (⟨S64, .f32⟩ : BufTy).Contents (Elt Ideal))
variable (x9 : (⟨S64x32, .f32⟩ : BufTy).Contents (Elt Ideal))
variable (x10 : (⟨S32, .f32⟩ : BufTy).Contents (Elt Ideal))
variable (x11 : (⟨S32x3, .f32⟩ : BufTy).Contents (Elt Ideal))
variable (x12 : (⟨S3, .f32⟩ : BufTy).Contents (Elt Ideal))

/-- The positive part after stage 28: a maximum with the zero constant. -/
theorem relu_a : toMat (val_main_v29 x0 x1 x2 x3 x4) = relu (toMat (val_main_v28 x0 x1 x2 x3 x4)) := by
  funext p q
  simp only [toMat, relu]
  rw [val_main_v29_apply, val_main_call0_v0_apply, val_main_call0_cst_apply, Ideal.ofBits_def,
    Ideal.ofBits_zero_f32, Ideal.maximumf_def]

/-- The product with the weight matrix: entry (p, q) is the sum over the contracted index. -/
theorem mm_affine_a : toMat (val_main_v30 x0 x1 x2 x3 x4 x5) = mm (toMat (val_main_v29 x0 x1 x2 x3 x4)) (toMat x5) := by
  funext p q
  simp only [toMat, mm]
  rw [val_main_v30_apply]
  refine Finset.sum_congr rfl fun k _ => ?_
  have el : lidx_main_v30 (ix2 p q) k = ix2 p k := by
    funext a; match a with | ⟨0, _⟩ => rfl | ⟨1, _⟩ => rfl
  have er : ridx_main_v30 (ix2 p q) k = ix2 k q := by
    funext a; match a with | ⟨0, _⟩ => rfl | ⟨1, _⟩ => rfl
  rw [el, er]

/-- An affine layer: the product with the weight matrix plus the bias row. -/
theorem affine_a : toMat (val_main_v33 x0 x1 x2 x3 x4 x5 x6) = affine (toMat (val_main_v29 x0 x1 x2 x3 x4)) (toMat x5) (toVec x6) := by
  funext p q
  simp only [affine]
  rw [← mm_affine_a]
  simp only [toMat, toVec]
  have eb : idx_main_v31 (idx_main_v32 (ix2 p q)) = ix1 q := by
    funext a; match a with | ⟨0, _⟩ => rfl
  rw [val_main_v33_apply, val_main_v32_apply, val_main_v31_apply, Ideal.addf_def, eb]

/-- The positive part after stage 33: a maximum with the zero constant. -/
theorem relu_1 : toMat (val_main_v34 x0 x1 x2 x3 x4 x5 x6) = relu (toMat (val_main_v33 x0 x1 x2 x3 x4 x5 x6)) := by
  funext p q
  simp only [toMat, relu]
  rw [val_main_v34_apply, val_main_call1_v0_apply, val_main_call1_cst_apply, Ideal.ofBits_def,
    Ideal.ofBits_zero_f32, Ideal.maximumf_def]

/-- The product with the weight matrix: entry (p, q) is the sum over the contracted index. -/
theorem mm_affine_1 : toMat (val_main_v35 x0 x1 x2 x3 x4 x5 x6 x7) = mm (toMat (val_main_v34 x0 x1 x2 x3 x4 x5 x6)) (toMat x7) := by
  funext p q
  simp only [toMat, mm]
  rw [val_main_v35_apply]
  refine Finset.sum_congr rfl fun k _ => ?_
  have el : lidx_main_v35 (ix2 p q) k = ix2 p k := by
    funext a; match a with | ⟨0, _⟩ => rfl | ⟨1, _⟩ => rfl
  have er : ridx_main_v35 (ix2 p q) k = ix2 k q := by
    funext a; match a with | ⟨0, _⟩ => rfl | ⟨1, _⟩ => rfl
  rw [el, er]

/-- An affine layer: the product with the weight matrix plus the bias row. -/
theorem affine_1 : toMat (val_main_v38 x0 x1 x2 x3 x4 x5 x6 x7 x8) = affine (toMat (val_main_v34 x0 x1 x2 x3 x4 x5 x6)) (toMat x7) (toVec x8) := by
  funext p q
  simp only [affine]
  rw [← mm_affine_1]
  simp only [toMat, toVec]
  have eb : idx_main_v36 (idx_main_v37 (ix2 p q)) = ix1 q := by
    funext a; match a with | ⟨0, _⟩ => rfl
  rw [val_main_v38_apply, val_main_v37_apply, val_main_v36_apply, Ideal.addf_def, eb]

/-- The positive part after stage 38: a maximum with the zero constant. -/
theorem relu_2 : toMat (val_main_v39 x0 x1 x2 x3 x4 x5 x6 x7 x8) = relu (toMat (val_main_v38 x0 x1 x2 x3 x4 x5 x6 x7 x8)) := by
  funext p q
  simp only [toMat, relu]
  rw [val_main_v39_apply, val_main_call2_v0_apply, val_main_call2_cst_apply, Ideal.ofBits_def,
    Ideal.ofBits_zero_f32, Ideal.maximumf_def]

/-- The product with the weight matrix: entry (p, q) is the sum over the contracted index. -/
theorem mm_affine_2 : toMat (val_main_v40 x0 x1 x2 x3 x4 x5 x6 x7 x8 x9) = mm (toMat (val_main_v39 x0 x1 x2 x3 x4 x5 x6 x7 x8)) (toMat x9) := by
  funext p q
  simp only [toMat, mm]
  rw [val_main_v40_apply]
  refine Finset.sum_congr rfl fun k _ => ?_
  have el : lidx_main_v40 (ix2 p q) k = ix2 p k := by
    funext a; match a with | ⟨0, _⟩ => rfl | ⟨1, _⟩ => rfl
  have er : ridx_main_v40 (ix2 p q) k = ix2 k q := by
    funext a; match a with | ⟨0, _⟩ => rfl | ⟨1, _⟩ => rfl
  rw [el, er]

/-- An affine layer: the product with the weight matrix plus the bias row. -/
theorem affine_2 : toMat (val_main_v43 x0 x1 x2 x3 x4 x5 x6 x7 x8 x9 x10) = affine (toMat (val_main_v39 x0 x1 x2 x3 x4 x5 x6 x7 x8)) (toMat x9) (toVec x10) := by
  funext p q
  simp only [affine]
  rw [← mm_affine_2]
  simp only [toMat, toVec]
  have eb : idx_main_v41 (idx_main_v42 (ix2 p q)) = ix1 q := by
    funext a; match a with | ⟨0, _⟩ => rfl
  rw [val_main_v43_apply, val_main_v42_apply, val_main_v41_apply, Ideal.addf_def, eb]

/-- The positive part after stage 43: a maximum with the zero constant. -/
theorem relu_3 : toMat (val_main_v44 x0 x1 x2 x3 x4 x5 x6 x7 x8 x9 x10) = relu (toMat (val_main_v43 x0 x1 x2 x3 x4 x5 x6 x7 x8 x9 x10)) := by
  funext p q
  simp only [toMat, relu]
  rw [val_main_v44_apply, val_main_call3_v0_apply, val_main_call3_cst_apply, Ideal.ofBits_def,
    Ideal.ofBits_zero_f32, Ideal.maximumf_def]

/-- The product with the weight matrix: entry (p, q) is the sum over the contracted index. -/
theorem mm_affine_3 : toMat (val_main_v45 x0 x1 x2 x3 x4 x5 x6 x7 x8 x9 x10 x11) = mm (toMat (val_main_v44 x0 x1 x2 x3 x4 x5 x6 x7 x8 x9 x10)) (toMat x11) := by
  funext p q
  simp only [toMat, mm]
  rw [val_main_v45_apply]
  refine Finset.sum_congr rfl fun k _ => ?_
  have el : lidx_main_v45 (ix2 p q) k = ix2 p k := by
    funext a; match a with | ⟨0, _⟩ => rfl | ⟨1, _⟩ => rfl
  have er : ridx_main_v45 (ix2 p q) k = ix2 k q := by
    funext a; match a with | ⟨0, _⟩ => rfl | ⟨1, _⟩ => rfl
  rw [el, er]

/-- An affine layer: the product with the weight matrix plus the bias row. -/
theorem affine_3 : toMat (val_main_v48 x0 x1 x2 x3 x4 x5 x6 x7 x8 x9 x10 x11 x12) = affine (toMat (val_main_v44 x0 x1 x2 x3 x4 x5 x6 x7 x8 x9 x10)) (toMat x11) (toVec x12) := by
  funext p q
  simp only [affine]
  rw [← mm_affine_3]
  simp only [toMat, toVec]
  have eb : idx_main_v46 (idx_main_v47 (ix2 p q)) = ix1 q := by
    funext a; match a with | ⟨0, _⟩ => rfl
  rw [val_main_v48_apply, val_main_v47_apply, val_main_v46_apply, Ideal.addf_def, eb]

/-- THE CHAIN: the matrix of points is the chain of affine maps and positive parts applied to the graph layer's output. -/
theorem chain_stage :
    toMat (val_main_v48 x0 x1 x2 x3 x4 x5 x6 x7 x8 x9 x10 x11 x12)
      = chain (toMat (val_main_v28 x0 x1 x2 x3 x4)) (toMat x5) (toVec x6) (toMat x7) (toVec x8) (toMat x9) (toVec x10)
          (toMat x11) (toVec x12) := by
  unfold chain
  rw [affine_3, relu_3, affine_2, relu_2, affine_1, relu_1, affine_a, relu_a]

end Cert.SageDist.Ref

end
-- ==== Proof.RefValueHead.lean ====
/-
  The head of the reference: the graph layer.  The feature rows are gathered along the edges' sources and added up at
  the edges' targets; the number of edges landing on a node is counted in ones; the row sums are divided by that count
  (at least one), projected through the neighbour weights, and added to the bias and to the node's own projection.
-/
import proofs.«152311_j26620207301224_2_alg».proof.Proof.Gen.ReferenceIdeal.Read
import proofs.«152311_j26620207301224_2_alg».proof.Proof.Spec
import proofs.«152311_j26620207301224_2_alg».proof.Proof.Edges
import proofs.«152311_j26620207301224_2_alg».proof.Proof.LibRowScatter
import proofs.«152311_j26620207301224_2_alg».proof.Proof.LibScatterGather
import proofs.«152311_j26620207301224_2_alg».proof.Proof.RefDegree
import Idealize.ShloMosaic.Lib.ValueIdx
import Idealize.ShloMosaic.PureOps.Ideal.Laws

noncomputable section

open scoped BigOperators

namespace Cert.SageDist.Ref

open Idealize.ShloMosaic Idealize.ShloMosaic.ValueIdx Cert.ReferenceIdeal Cert.ReferenceIdeal.Read Cert.SageDist

variable (x0 : (⟨S10000x512, .f32⟩ : BufTy).Contents (Elt Ideal))
variable (x1 : (⟨S2x160000, .i32⟩ : BufTy).Contents (Elt Ideal))
variable (x2 : (⟨S512x256, .f32⟩ : BufTy).Contents (Elt Ideal))
variable (x3 : (⟨S256, .f32⟩ : BufTy).Contents (Elt Ideal))
variable (x4 : (⟨S512x256, .f32⟩ : BufTy).Contents (Elt Ideal))
variable (x5 : (⟨S256x128, .f32⟩ : BufTy).Contents (Elt Ideal))
variable (x6 : (⟨S128, .f32⟩ : BufTy).Contents (Elt Ideal))
variable (x7 : (⟨S128x64, .f32⟩ : BufTy).Contents (Elt Ideal))
variable (x8 : (⟨S64, .f32⟩ : BufTy).Contents (Elt Ideal))
variable (x9 : (⟨S64x32, .f32⟩ : BufTy).Contents (Elt Ideal))
variable (x10 : (⟨S32, .f32⟩ : BufTy).Contents (Elt Ideal))
variable (x11 : (⟨S32x3, .f32⟩ : BufTy).Contents (Elt Ideal))
variable (x12 : (⟨S3, .f32⟩ : BufTy).Contents (Elt Ideal))

/-- A matrix read at an entry. -/
theorem toMat_apply {a b : Nat} (M : (⟨2, ![a, b]⟩ : Shape).Idx → EReal) (p : Fin a) (q : Fin b) :
    toMat M p q = M (ix2 p q) := rfl

/-- The node's own projection: the features times the root weights. -/
theorem proj_root : toMat (val_main_v27 x0 x4) = mm (toMat (x0)) (toMat x4) := by
  funext p q
  simp only [toMat, mm]
  rw [val_main_v27_apply]
  refine Finset.sum_congr rfl fun k _ => ?_
  have el : lidx_main_v27 (ix2 p q) k = ix2 p k := by
    funext a; match a with | ⟨0, _⟩ => rfl | ⟨1, _⟩ => rfl
  have er : ridx_main_v27 (ix2 p q) k = ix2 k q := by
    funext a; match a with | ⟨0, _⟩ => rfl | ⟨1, _⟩ => rfl
  rw [el, er]

/-- The neighbour projection: the averaged features times the neighbour weights. -/
theorem proj_nbr : toMat (val_main_v23 x0 x1 x2) = mm (toMat (val_main_v22 x0 x1)) (toMat x2) := by
  funext p q
  simp only [toMat, mm]
  rw [val_main_v23_apply]
  refine Finset.sum_congr rfl fun k _ => ?_
  have el : lidx_main_v23 (ix2 p q) k = ix2 p k := by
    funext a; match a with | ⟨0, _⟩ => rfl | ⟨1, _⟩ => rfl
  have er : ridx_main_v23 (ix2 p q) k = ix2 k q := by
    funext a; match a with | ⟨0, _⟩ => rfl | ⟨1, _⟩ => rfl
  rw [el, er]

/-- The gathered row of edge e is the feature row of the edge's source. -/
theorem gather_at (e : Fin 160000) (c : Fin 512) :
    val_main_v10 x0 x1 (ix2 e c) = toMat x0 (srcRow x1 e) c := by
  unfold val_main_v10
  exact Cert.Lib.RowOps.gather_rows_apply (N := 10000) (E := 160000) (C := 512) (by decide)
    (gather_S10000x512_S160000x1_S160000x512_1_0_n_n_0_1_1512).wf x0 (val_main_v9 (F := Ideal) x1) e c

/-- The row sums: entry (n, c) adds, over the edges whose target is n, the source's feature c (starting from zero). -/
theorem sums_at (n : Fin 10000) (c : Fin 512) :
    val_main_v13 x0 x1 (ix2 n c)
      = ∑ e : Fin 160000, if dstInt x1 e = (n.val : Int) then toMat x0 (srcRow x1 e) c else 0 := by
  unfold val_main_v13 Host.scatterAdd
  rw [Ideal.hostScatterAdd_def]
  refine (Cert.Lib.RowOps.scatterAdd_rows_apply (N := 10000) (E := 160000) (C := 512) (scatter_S10000x512_S160000x1_S160000x512_1_0_0_1).wf
    (val_main_v11 (F := Ideal)) (val_main_v12 (F := Ideal) x1) (val_main_v10 (F := Ideal) x0 x1) n c).trans ?_
  rw [val_main_v11_apply, val_main_cst_apply, Ideal.ofBits_def, Ideal.ofBits_zero_f32, zero_add]
  refine Finset.sum_congr rfl fun e _ => ?_
  rw [gather_at, dstInt_eq]

/-- The averaged features: the row sums divided by the count, which is at least one. -/
theorem mean_stage : toMat (val_main_v22 x0 x1) = meanAgg (srcRow x1) (dstInt x1) (toMat x0) := by
  funext n c
  unfold meanAgg
  rw [toMat_apply, val_main_v22_apply, Ideal.hostDivf_def, sums_at, val_main_v21_apply]
  have e : idx_main_v21 (ix2 n c) = ix2 n ⟨0, Nat.one_pos⟩ := by
    funext a; match a with | ⟨0, _⟩ => rfl | ⟨1, _⟩ => rfl
  rw [e, degree_col]

/-- THE GRAPH LAYER: neighbour projection of the averaged features, plus the bias, plus the node's own projection. -/
theorem head_stage :
    toMat (val_main_v28 x0 x1 x2 x3 x4)
      = headAggr (srcRow x1) (dstInt x1) (toMat x0) (toMat x2) (toMat x4) (toVec x3) := by
  funext n c
  simp only [headAggr]
  rw [← mean_stage x0 x1, ← proj_nbr x0 x1 x2, ← proj_root x0 x4]
  simp only [toMat, toVec]
  have eb : idx_main_v24 (idx_main_v25 (ix2 n c)) = ix1 c := by
    funext a; match a with | ⟨0, _⟩ => rfl
  rw [val_main_v28_apply, val_main_v26_apply, val_main_v25_apply, val_main_v24_apply, Ideal.addf_def, Ideal.addf_def, eb]

end Cert.SageDist.Ref

end
-- ==== Proof.RefValue.lean ====
/-
  The reference's value, end to end: the graph layer with mean aggregation of the raw features, the chain of affine
  maps and positive parts, and the pairwise distances through the norm identity, composed.
-/
import proofs.«152311_j26620207301224_2_alg».proof.Proof.Gen.ReferenceIdeal.Read
import proofs.«152311_j26620207301224_2_alg».proof.Proof.Spec
import proofs.«152311_j26620207301224_2_alg».proof.Proof.Edges
import proofs.«152311_j26620207301224_2_alg».proof.Proof.LibRowScatter
import proofs.«152311_j26620207301224_2_alg».proof.Proof.LibScatterGather
import proofs.«152311_j26620207301224_2_alg».proof.Proof.RefValueDist
import proofs.«152311_j26620207301224_2_alg».proof.Proof.RefValueChain
import proofs.«152311_j26620207301224_2_alg».proof.Proof.RefValueHead
import Idealize.ShloMosaic.Lib.ValueIdx
import Idealize.ShloMosaic.Lib.Pipeline.Value
import Idealize.ShloMosaic.PureOps.Ideal.Laws

noncomputable section

open scoped BigOperators

namespace Cert.SageDist.Ref

open Idealize.ShloMosaic Idealize.ShloMosaic.ValueIdx Cert.ReferenceIdeal Cert.ReferenceIdeal.Read Cert.SageDist

variable (x0 : (⟨S10000x512, .f32⟩ : BufTy).Contents (Elt Ideal))
variable (x1 : (⟨S2x160000, .i32⟩ : BufTy).Contents (Elt Ideal))
variable (x2 : (⟨S512x256, .f32⟩ : BufTy).Contents (Elt Ideal))
variable (x3 : (⟨S256, .f32⟩ : BufTy).Contents (Elt Ideal))
variable (x4 : (⟨S512x256, .f32⟩ : BufTy).Contents (Elt Ideal))
variable (x5 : (⟨S256x128, .f32⟩ : BufTy).Contents (Elt Ideal))
variable (x6 : (⟨S128, .f32⟩ : BufTy).Contents (Elt Ideal))
variable (x7 : (⟨S128x64, .f32⟩ : BufTy).Contents (Elt Ideal))
variable (x8 : (⟨S64, .f32⟩ : BufTy).Contents (Elt Ideal))
variable (x9 : (⟨S64x32, .f32⟩ : BufTy).Contents (Elt Ideal))
variable (x10 : (⟨S32, .f32⟩ : BufTy).Contents (Elt Ideal))
variable (x11 : (⟨S32x3, .f32⟩ : BufTy).Contents (Elt Ideal))
variable (x12 : (⟨S3, .f32⟩ : BufTy).Contents (Elt Ideal))

/-- THE REFERENCE'S VALUE: at every index (i, j) the reference's result is the second arrangement of the computation. -/
theorem ref_value :
    Cert.ReferenceIdeal.Read.val_main_v69 (F := Ideal) x0 x1 x2 x3 x4 x5 x6 x7 x8 x9 x10 x11 x12
      = fun i => valueAggr (srcRow x1) (dstInt x1) (toMat x0) (toMat x2) (toVec x3) (toMat x4) (toMat x5) (toVec x6)
          (toMat x7) (toVec x8) (toMat x9) (toVec x10) (toMat x11) (toVec x12) (i 0) (i 1) := by
  have hM : toMat (val_main_v69 (F := Ideal) x0 x1 x2 x3 x4 x5 x6 x7 x8 x9 x10 x11 x12)
      = valueAggr (srcRow x1) (dstInt x1) (toMat x0) (toMat x2) (toVec x3) (toMat x4) (toMat x5) (toVec x6)
          (toMat x7) (toVec x8) (toMat x9) (toVec x10) (toMat x11) (toVec x12) := by
    unfold valueAggr
    rw [dist_stage, chain_stage, head_stage]
  funext i
  refine Eq.trans ?_ (congrFun (congrFun hM (i 0)) (i 1))
  show val_main_v69 (F := Ideal) x0 x1 x2 x3 x4 x5 x6 x7 x8 x9 x10 x11 x12 i
    = val_main_v69 (F := Ideal) x0 x1 x2 x3 x4 x5 x6 x7 x8 x9 x10 x11 x12 (ix2 (i 0) (i 1))
  exact congrArg _ (eq_ix2 i)

end Cert.SageDist.Ref

end
-- ==== Proof.LibReal.lean ====
/-
  Extended reals that are real numbers. An entry of a finite input is one (its absolute value lies below +infinity);
  sums, differences, products, finite sums and quotients by a nonzero real of such entries are again real, and so is the
  value of any f32 pattern whose exponent field is not all ones. What an algebraic law that needs finiteness is applied
  to is first shown to be of this kind.
-/
import Idealize.ShloMosaic.PureOps.Ideal
import Mathlib.Algebra.BigOperators.Group.Finset.Basic

namespace Idealize.ShloMosaic.RealEntries

open Idealize.ShloMosaic

/-- The extended real `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A quotient by a nonzero real. -/
theorem IsReal.div_coe {a : EReal} (ha : IsReal a) {y : ℝ} (hy : y ≠ 0) : IsReal (Ideal.div a (y : EReal)) := by
  rw [Ideal.div_coe hy]; exact ha.mul (IsReal.coe _)

/-- An f32 pattern whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split_ifs <;> exact ⟨_, rfl⟩

/-- An extended real whose absolute value lies below +infinity is a real number. -/
theorem isReal_of_abs_lt_top {a : EReal} (h : max a (-a) < ⊤) : IsReal a := by
  induction a using EReal.rec with
  | bot => simp at h
  | coe r => exact ⟨r, rfl⟩
  | top => simp at h

end Idealize.ShloMosaic.RealEntries
-- ==== Proof.LibMoments.lean ====
/-
  Moments of finitely many reals, and the two forms of an affine normalisation, on the extended reals.
  With every sample a real number, a mean is a real, the mean of the squared deviations from the mean is the mean of
  the squares less the square of the mean, and `(x - m) / s * w + b = x * (w / s) + (b - m * (w / s))` for a nonzero
  real `s`; the quotients are the extended reals' (a product with the reciprocal of a nonzero real divisor).
  None of these survives an infinite entry (each moves a factor across a sum), which is why they are stated over reals.
-/
import Idealize.ShloMosaic.PureOps.Ideal
import Mathlib.Algebra.BigOperators.Field
import Mathlib.Tactic.FieldSimp
import Mathlib.Tactic.Ring
import Mathlib.Tactic.NormNum

namespace Idealize.ShloMosaic.Moments

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean of the squared deviations from the mean is the mean of the squares less the square of the
    mean (`N` the number of samples). -/
theorem mean_sq_dev {ι : Type*} [Fintype ι] (x : ι → ℝ) (N : ℝ) (hN : N ≠ 0) (hcard : (Fintype.card ι : ℝ) = N) :
    (∑ i, (x i - (∑ j, x j) / N) * (x i - (∑ j, x j) / N)) / N
      = (∑ i, x i * x i) / N - ((∑ j, x j) / N) * ((∑ j, x j) / N) := by
  have hS : ∑ j, x j = N * ((∑ j, x j) / N) := by field_simp
  generalize (∑ j, x j) / N = μ at hS ⊢
  have hexp : ∀ i, (x i - μ) * (x i - μ) = x i * x i - 2 * μ * x i + μ * μ := fun i => by ring
  have h1 : ∑ i, (x i - μ) * (x i - μ) = (∑ i, x i * x i) - 2 * μ * (∑ i, x i) + N * (μ * μ) := by
    simp only [hexp, Finset.sum_add_distrib, Finset.sum_sub_distrib, ← Finset.mul_sum, Finset.sum_const,
      Finset.card_univ, nsmul_eq_mul, hcard]
    ring
  rw [h1, hS]
  field_simp
  ring

/-- A mean of reals on the extended reals is the real mean. -/
theorem div_sum_coe {ι : Type*} [Fintype ι] (r : ι → ℝ) (N : ℝ) (hN : N ≠ 0) :
    Ideal.div (∑ i, (r i : EReal)) (N : EReal) = (((∑ i, r i) / N : ℝ) : EReal) := by
  rw [← coe_sum, Ideal.div_coe hN, ← EReal.coe_mul]
  congr 1
  field_simp

/-- On the extended reals, every sample a real: the mean of the squared deviations from the mean is the mean of the
    squares less the square of the mean. -/
theorem var_centered_eq {ι : Type*} [Fintype ι] (r : ι → ℝ) (N : ℝ) (hN : N ≠ 0) (hcard : (Fintype.card ι : ℝ) = N) :
    Ideal.div (∑ i, ((r i : EReal) - Ideal.div (∑ j, (r j : EReal)) (N : EReal))
        * ((r i : EReal) - Ideal.div (∑ j, (r j : EReal)) (N : EReal))) (N : EReal)
      = Ideal.div (∑ i, (r i : EReal) * (r i : EReal)) (N : EReal)
        - Ideal.div (∑ j, (r j : EReal)) (N : EReal) * Ideal.div (∑ j, (r j : EReal)) (N : EReal) := by
  rw [div_sum_coe r N hN]
  have e1 : ∀ i, ((r i : EReal) - (((∑ j, r j) / N : ℝ) : EReal)) * ((r i : EReal) - (((∑ j, r j) / N : ℝ) : EReal))
      = (((r i - (∑ j, r j) / N) * (r i - (∑ j, r j) / N) : ℝ) : EReal) := fun i => by
    rw [← EReal.coe_sub, ← EReal.coe_mul]
  have e2 : ∀ i, (r i : EReal) * (r i : EReal) = ((r i * r i : ℝ) : EReal) := fun i => (EReal.coe_mul _ _).symm
  simp only [e1, e2]
  rw [div_sum_coe _ N hN, div_sum_coe _ N hN, ← EReal.coe_mul, ← EReal.coe_sub, mean_sq_dev r N hN hcard]

/-- The two forms of an affine normalisation agree for a nonzero real divisor. -/
theorem affine_forms (x m w b s : ℝ) (hs : s ≠ 0) :
    Ideal.div ((x : EReal) - (m : EReal)) (s : EReal) * (w : EReal) + (b : EReal)
      = (x : EReal) * Ideal.div (w : EReal) (s : EReal) + ((b : EReal) - (m : EReal) * Ideal.div (w : EReal) (s : EReal)) := by
  rw [Ideal.div_coe hs, Ideal.div_coe hs]
  rw [← EReal.coe_sub, ← EReal.coe_mul, ← EReal.coe_mul, ← EReal.coe_add, ← EReal.coe_mul, ← EReal.coe_mul, ← EReal.coe_mul,
    ← EReal.coe_sub, ← EReal.coe_add]
  congr 1
  field_simp
  ring

/-- The square root of a positive real, on the extended reals, is a nonzero real. -/
theorem sqrt_pos_coe {r : ℝ} (hr : 0 < r) : Ideal.sqrt (r : EReal) = ((Real.sqrt r : ℝ) : EReal) ∧ Real.sqrt r ≠ 0 := by
  refine ⟨?_, (Real.sqrt_pos.mpr hr).ne'⟩
  rw [Ideal.sqrt_coe, if_neg (not_lt.mpr hr.le)]

end Idealize.ShloMosaic.Moments
-- ==== Proof.Algebra.lean ====
/-
  The two arrangements of the computation agree when every entry of every argument is a real number.

  Three facts carry it.
  * The divisor of a node is a real number, at least one: it is the larger of a count of ones and one. A quotient by
    it is therefore a product with a real reciprocal, and a product with a real moves across a finite sum.
  * Projecting the averaged rows is averaging the projected rows: both are the double sum, over the edges landing on
    the node and over the contracted feature index, of feature times weight, times the reciprocal of the divisor; the
    two orders of summation agree, and the three summands of the layer are added in a different order only.
  * For points of R^3 the sum of the squared coordinate differences is |a|^2 + |b|^2 - 2 a.b. Being a sum of squares it
    is not negative, so clamping it at zero changes nothing; where it is zero its root is zero, which is what the guard
    returns, and where it is positive the guard hands it to the root unchanged.
  Real entries stay real through matrix products, affine maps and the positive part, so the third fact applies to what
  the chain of affine maps produces.
-/
import proofs.«152311_j26620207301224_2_alg».proof.Proof.Spec
import proofs.«152311_j26620207301224_2_alg».proof.Proof.LibReal
import proofs.«152311_j26620207301224_2_alg».proof.Proof.LibMoments
import Mathlib.Data.EReal.Basic
import Mathlib.Algebra.BigOperators.Fin
import Mathlib.Tactic.Ring
import Mathlib.Tactic.NormNum
import Mathlib.Tactic.Positivity

noncomputable section

namespace Cert.SageDist

open Idealize.ShloMosaic Idealize.ShloMosaic.RealEntries Idealize.ShloMosaic.Moments

/-! ### Coercion helpers -/

/-- The larger of two reals, coerced, is the larger of the coercions. -/
theorem coe_max' (x y : ℝ) : ((max x y : ℝ) : EReal) = max (x : EReal) (y : EReal) :=
  EReal.coe_strictMono.monotone.map_max

/-- A choice between a real and zero, coerced. -/
theorem ite_coe_zero (p : Prop) [Decidable p] (a : ℝ) :
    (if p then (a : EReal) else 0) = ((if p then a else 0 : ℝ) : EReal) := by
  split_ifs <;> rfl

/-- A matrix of real entries is the coercion of a real matrix. -/
theorem exists_real_mat {a b : Nat} (A : Mat a b) (h : ∀ i j, IsReal (A i j)) :
    ∃ A' : Fin a → Fin b → ℝ, A = fun i j => (A' i j : EReal) := by
  choose A' hA' using h
  exact ⟨A', funext fun i => funext fun j => hA' i j⟩

/-- A vector of real entries is the coercion of a real vector. -/
theorem exists_real_vec {a : Nat} (v : Fin a → EReal) (h : ∀ i, IsReal (v i)) :
    ∃ v' : Fin a → ℝ, v = fun i => (v' i : EReal) := by
  choose v' hv' using h
  exact ⟨v', funext fun i => hv' i⟩

/-! ### The two float constants and the divisor -/

theorem oneF_eq : oneF = ((1 : ℝ) : EReal) := by
  simp [oneF, Ideal.ofBits, Ideal.ieee]
  norm_cast
  norm_num

theorem twoF_eq : twoF = ((2 : ℝ) : EReal) := by
  simp [twoF, Ideal.ofBits, Ideal.ieee]
  norm_cast
  norm_num

/-- The divisor of a node is a real number, at least one. -/
theorem degree_real {N E : Nat} (d : Fin E → Int) (n : Fin N) :
    ∃ r : ℝ, 1 ≤ r ∧ degree d n = (r : EReal) := by
  refine ⟨max (∑ e : Fin E, if d e = (n.val : Int) then (1 : ℝ) else 0) 1, le_max_right _ _, ?_⟩
  unfold degree
  rw [oneF_eq, coe_max', coe_sum]
  simp only [ite_coe_zero]

/-! ### Real entries stay real -/

theorem isReal_mm {a k b : Nat} {A : Mat a k} {B : Mat k b} (hA : ∀ i j, IsReal (A i j)) (hB : ∀ i j, IsReal (B i j)) :
    ∀ i j, IsReal (mm A B i j) := fun i j =>
  IsReal.sum _ _ fun t _ => (hA i t).mul (hB t j)

theorem isReal_affine {a k b : Nat} {H : Mat a k} {W : Mat k b} {bias : Fin b → EReal}
    (hH : ∀ i j, IsReal (H i j)) (hW : ∀ i j, IsReal (W i j)) (hb : ∀ j, IsReal (bias j)) :
    ∀ i j, IsReal (affine H W bias i j) := fun i j => (isReal_mm hH hW i j).add (hb j)

theorem isReal_relu {a b : Nat} {H : Mat a b} (hH : ∀ i j, IsReal (H i j)) : ∀ i j, IsReal (relu H i j) := fun i j => by
  obtain ⟨x, hx⟩ := hH i j
  refine ⟨max x 0, ?_⟩
  show max (H i j) 0 = _
  rw [hx, coe_max']
  rfl

theorem isReal_meanAgg {N E C : Nat} (s : Fin E → Fin N) (d : Fin E → Int) {Z : Mat N C} (hZ : ∀ i j, IsReal (Z i j)) :
    ∀ n c, IsReal (meanAgg s d Z n c) := fun n c => by
  obtain ⟨r, hr1, hr⟩ := degree_real (N := N) d n
  have hr0 : r ≠ 0 := (lt_of_lt_of_le one_pos hr1).ne'
  show IsReal (Ideal.div _ (degree d n))
  rw [hr]
  refine IsReal.div_coe (IsReal.sum _ _ fun e _ => ?_) hr0
  split_ifs
  · exact hZ _ _
  · exact IsReal.zero

theorem isReal_headAggr {N E D C : Nat} (s : Fin E → Fin N) (d : Fin E → Int) {X : Mat N D} {Wl Wr : Mat D C} {bl : Fin C → EReal}
    (hX : ∀ i j, IsReal (X i j)) (hWl : ∀ i j, IsReal (Wl i j)) (hWr : ∀ i j, IsReal (Wr i j)) (hbl : ∀ j, IsReal (bl j)) :
    ∀ n c, IsReal (headAggr s d X Wl Wr bl n c) := fun n c =>
  ((isReal_mm (isReal_meanAgg s d hX) hWl n c).add (hbl c)).add (isReal_mm hX hWr n c)

theorem isReal_chain {N C C1 C2 C3 C4 : Nat} {H0 : Mat N C} {Wa : Mat C C1} {ba : Fin C1 → EReal} {W1 : Mat C1 C2} {b1 : Fin C2 → EReal}
    {W2 : Mat C2 C3} {b2 : Fin C3 → EReal} {W3 : Mat C3 C4} {b3 : Fin C4 → EReal}
    (hH : ∀ i j, IsReal (H0 i j)) (hWa : ∀ i j, IsReal (Wa i j)) (hba : ∀ j, IsReal (ba j))
    (hW1 : ∀ i j, IsReal (W1 i j)) (hb1 : ∀ j, IsReal (b1 j)) (hW2 : ∀ i j, IsReal (W2 i j)) (hb2 : ∀ j, IsReal (b2 j))
    (hW3 : ∀ i j, IsReal (W3 i j)) (hb3 : ∀ j, IsReal (b3 j)) :
    ∀ i j, IsReal (chain H0 Wa ba W1 b1 W2 b2 W3 b3 i j) :=
  isReal_affine (isReal_relu (isReal_affine (isReal_relu (isReal_affine (isReal_relu (isReal_affine (isReal_relu hH)
    hWa hba)) hW1 hb1)) hW2 hb2)) hW3 hb3

/-! ### Projecting the averaged rows is averaging the projected rows -/

/-- Over the reals: the sum over selected edges of a contracted row, times a factor, is the contraction of the selected
    sums each times the factor (the two orders of a double sum). -/
theorem sum_ite_mul_comm {E D : Nat} (d : Fin E → Int) (m : Int) (f : Fin E → Fin D → ℝ) (w : Fin D → ℝ) (r : ℝ) :
    (∑ e, if d e = m then ∑ t, f e t * w t else 0) * r = ∑ t, ((∑ e, if d e = m then f e t else 0) * r) * w t := by
  have h1 : ∀ e, (if d e = m then ∑ t, f e t * w t else 0) = ∑ t, (if d e = m then f e t else 0) * w t := fun e => by
    split_ifs <;> simp
  simp only [h1, Finset.sum_mul]
  rw [Finset.sum_comm]
  exact Finset.sum_congr rfl fun t _ => Finset.sum_congr rfl fun e _ => by ring

theorem head_eq_real {N E D C : Nat} (s : Fin E → Fin N) (d : Fin E → Int) (x : Fin N → Fin D → ℝ) (wl wr : Fin D → Fin C → ℝ)
    (bl : Fin C → ℝ) :
    headProj s d (fun i j => (x i j : EReal)) (fun i j => (wl i j : EReal)) (fun i j => (wr i j : EReal)) (fun j => (bl j : EReal))
      = headAggr s d (fun i j => (x i j : EReal)) (fun i j => (wl i j : EReal)) (fun i j => (wr i j : EReal))
          (fun j => (bl j : EReal)) := by
  funext n c
  obtain ⟨r, hr1, hr⟩ := degree_real (N := N) d n
  have hr0 : r ≠ 0 := (lt_of_lt_of_le one_pos hr1).ne'
  simp only [headProj, headAggr, meanAgg, mm, hr, Ideal.div_coe hr0]
  simp only [← EReal.coe_mul, ← coe_sum, ite_coe_zero, ← EReal.coe_add]
  rw [EReal.coe_eq_coe_iff, sum_ite_mul_comm]
  ring

/-! ### The distance through the norm identity -/

/-- On real points the clamped square is the sum of the three squared coordinate differences. -/
theorem sqNormTrick_coe {N : Nat} (h : Fin N → Fin 3 → ℝ) (i j : Fin N) :
    sqNormTrick (fun i k => (h i k : EReal)) i j
      = ((((h i 0 - h j 0) * (h i 0 - h j 0) + (h i 1 - h j 1) * (h i 1 - h j 1)) + (h i 2 - h j 2) * (h i 2 - h j 2) : ℝ) : EReal) := by
  unfold sqNormTrick
  rw [twoF_eq]
  simp only [← EReal.coe_mul, ← coe_sum, ← EReal.coe_add, ← EReal.coe_sub]
  rw [← EReal.coe_zero, ← coe_max', EReal.coe_eq_coe_iff]
  simp only [Fin.sum_univ_three]
  rw [max_eq_left]
  · ring
  · nlinarith [mul_self_nonneg (h i 0 - h j 0), mul_self_nonneg (h i 1 - h j 1), mul_self_nonneg (h i 2 - h j 2)]

theorem dist_eq_real {N : Nat} (h : Fin N → Fin 3 → ℝ) :
    distDirect (fun i k => (h i k : EReal)) = distNormTrick (fun i k => (h i k : EReal)) := by
  funext i j
  simp only [distDirect, distNormTrick]
  rw [sqNormTrick_coe]
  simp only [← EReal.coe_sub, ← EReal.coe_mul, ← EReal.coe_add]
  have hq0 : 0 ≤ ((h i 0 - h j 0) * (h i 0 - h j 0) + (h i 1 - h j 1) * (h i 1 - h j 1)) + (h i 2 - h j 2) * (h i 2 - h j 2) :=
    add_nonneg (add_nonneg (mul_self_nonneg _) (mul_self_nonneg _)) (mul_self_nonneg _)
  generalize ((h i 0 - h j 0) * (h i 0 - h j 0) + (h i 1 - h j 1) * (h i 1 - h j 1)) + (h i 2 - h j 2) * (h i 2 - h j 2) = q at hq0 ⊢
  by_cases hpos : 0 < q
  · rw [if_pos (EReal.coe_pos.mpr hpos), if_pos (EReal.coe_pos.mpr hpos)]
  · have hq : q = 0 := le_antisymm (not_lt.mp hpos) hq0
    rw [if_neg (fun hc => hpos (EReal.coe_pos.mp hc)), hq, Ideal.sqrt_coe, if_neg (lt_irrefl 0), Real.sqrt_zero]
    rfl

/-! ### The two arrangements agree -/

theorem value_eq {N E D C C1 C2 C3 : Nat} (s : Fin E → Fin N) (d : Fin E → Int) (X : Mat N D) (Wl : Mat D C) (bl : Fin C → EReal)
    (Wr : Mat D C) (Wa : Mat C C1) (ba : Fin C1 → EReal) (W1 : Mat C1 C2) (b1 : Fin C2 → EReal)
    (W2 : Mat C2 C3) (b2 : Fin C3 → EReal) (W3 : Mat C3 3) (b3 : Fin 3 → EReal)
    (hX : ∀ i j, IsReal (X i j)) (hWl : ∀ i j, IsReal (Wl i j)) (hbl : ∀ j, IsReal (bl j)) (hWr : ∀ i j, IsReal (Wr i j))
    (hWa : ∀ i j, IsReal (Wa i j)) (hba : ∀ j, IsReal (ba j)) (hW1 : ∀ i j, IsReal (W1 i j)) (hb1 : ∀ j, IsReal (b1 j))
    (hW2 : ∀ i j, IsReal (W2 i j)) (hb2 : ∀ j, IsReal (b2 j)) (hW3 : ∀ i j, IsReal (W3 i j)) (hb3 : ∀ j, IsReal (b3 j)) :
    valueProj s d X Wl bl Wr Wa ba W1 b1 W2 b2 W3 b3 = valueAggr s d X Wl bl Wr Wa ba W1 b1 W2 b2 W3 b3 := by
  obtain ⟨H, hH⟩ := exists_real_mat _
    (isReal_chain (isReal_headAggr s d hX hWl hWr hbl) hWa hba hW1 hb1 hW2 hb2 hW3 hb3)
  obtain ⟨x, rfl⟩ := exists_real_mat X hX
  obtain ⟨wl, rfl⟩ := exists_real_mat Wl hWl
  obtain ⟨wr, rfl⟩ := exists_real_mat Wr hWr
  obtain ⟨bl', rfl⟩ := exists_real_vec bl hbl
  unfold valueProj valueAggr
  rw [head_eq_real, hH]
  exact dist_eq_real H

end Cert.SageDist

end
-- ==== Proof.Finite.lean ====
/-
  From the precondition to real entries.

  The precondition is the conjunction, over the twelve float arguments, of "every entry's absolute value lies below
  +infinity": each conjunct is a reduction by "and", from one, of the entry-by-entry comparison of the absolute values
  with the splat of the pattern of +infinity, and the conjuncts are joined by "and" one after the other. That the whole
  is one therefore gives each reduction one, hence each comparison one at every index, hence each entry's absolute
  value below +infinity; and an extended real whose absolute value lies below +infinity is a real number.
-/
import proofs.«152311_j26620207301224_2_alg».proof.Defs
import proofs.«152311_j26620207301224_2_alg».proof.Proof.Gen.Pre_finite_inputs
import proofs.«152311_j26620207301224_2_alg».proof.Proof.LibReal
import Idealize.ShloMosaic.Lib.ReduceAll
import Idealize.ShloMosaic.Lib.ValueIdx

noncomputable section

namespace Cert.SageDist

open Idealize.ShloMosaic Idealize.ShloMosaic.RealEntries Cert.Pre_finite_inputs

/-- The shape of rank 0 has one index. -/
instance subsingleton_scalarIdx : Subsingleton S_.Idx := ⟨fun a b => funext fun d => d.elim0⟩

/-- A truth value as a one-bit word is one exactly when it is true. -/
theorem ofBool_eq_one_iff (b : Bool) : BitVec.ofBool b = 1#1 ↔ b = true := by cases b <;> decide

/-- The f32 pattern with exponent all ones and significand zero is +infinity. -/
theorem ofBits_inf_f32 : Ideal.ofBits .f32 0x7F800000#32 = ⊤ := by simp [Ideal.ofBits, Ideal.ieee]

/-- One conjunct: if the reduction by "and" of "absolute value below +infinity" over a whole array is one, every
    entry of the array is a real number. -/
theorem isReal_of_all_lt_inf {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : IsReal (x i) := by
  have h1 := Host.reduce_andi_all _ _ hr hu j e i
  have h2 : Ideal.cmp .olt (max (x i) (-(x i))) (Ideal.ofBits .f32 0x7F800000#32) = 1#1 := h1
  rw [ofBits_inf_f32] at h2
  have h3 : BitVec.ofBool (decide (max (x i) (-(x i)) < ⊤)) = 1#1 := h2
  exact isReal_of_abs_lt_top (of_decide_eq_true ((ofBool_eq_one_iff _).1 h3))

/-- The precondition gives: every entry of every float argument is a real number. -/
theorem finite_of_pre [Cert.Pre_finite_inputs.Facts]
    (a0 : FVec Ideal S10000x512 .f32) (a1 : IVec S2x160000 32) (a2 : FVec Ideal S512x256 .f32) (a3 : FVec Ideal S256 .f32)
    (a4 : FVec Ideal S512x256 .f32) (a5 : FVec Ideal S256x128 .f32) (a6 : FVec Ideal S128 .f32) (a7 : FVec Ideal S128x64 .f32)
    (a8 : FVec Ideal S64 .f32) (a9 : FVec Ideal S64x32 .f32) (a10 : FVec Ideal S32 .f32) (a11 : FVec Ideal S32x3 .f32)
    (a12 : FVec Ideal S3 .f32)
    (h : Cert.Pre_finite_inputs.fn (F := Ideal) a0 a1 a2 a3 a4 a5 a6 a7 a8 a9 a10 a11 a12 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) := by
  have h0 := congrFun h ValueIdx.ix0
  dsimp only [fn, fn_part1, fn_part2, fn_part3, Idealize.ShloMosaic.andi] at h0
  simp only [IntOp.andi_eq_one] at h0
  obtain ⟨⟨⟨⟨⟨⟨⟨⟨⟨⟨⟨e0, e2⟩, e3⟩, e4⟩, e5⟩, e6⟩, e7⟩, e8⟩, e9⟩, e10⟩, e11⟩, e12⟩ := h0
  exact ⟨isReal_of_all_lt_inf a0 _ _ _ _ e0, isReal_of_all_lt_inf a2 _ _ _ _ e2, isReal_of_all_lt_inf a3 _ _ _ _ e3,
    isReal_of_all_lt_inf a4 _ _ _ _ e4, isReal_of_all_lt_inf a5 _ _ _ _ e5, isReal_of_all_lt_inf a6 _ _ _ _ e6,
    isReal_of_all_lt_inf a7 _ _ _ _ e7, isReal_of_all_lt_inf a8 _ _ _ _ e8, isReal_of_all_lt_inf a9 _ _ _ _ e9,
    isReal_of_all_lt_inf a10 _ _ _ _ e10, isReal_of_all_lt_inf a11 _ _ _ _ e11, isReal_of_all_lt_inf a12 _ _ _ _ e12⟩

end Cert.SageDist

end
-- ==== Proof.lean ====
/-
  A graph layer with mean aggregation, a chain of four affine maps with a positive part between them, and the matrix
  of pairwise distances of the resulting ten thousand points of R^3: the kernel against its reference, at the exact
  extended-real reading, for finite inputs.

  The kernel projects the features through the neighbour weights in a first pipelined region, aggregates the projected
  rows over the edges with array operations, combines and runs the chain in a second region, and takes the distances
  directly (root of the sum of three squared differences) in a third.  The reference aggregates the raw features and then
  projects, and takes the distances through the norm identity |a|^2 + |b|^2 - 2 a.b, clamped and guarded at zero.
  Both are read as one function of the thirteen argument arrays (the two arrangements of the specification); on real
  entries the two arrangements agree: the aggregation is linear, so it commutes with the projection, and for real
  points the norm identity is exact and non-negative, so the clamp and the guard change nothing.  Finiteness of the
  inputs is what makes every intermediate entry real.

  The three frames are the programs' runs with the results dropped; the idealization rewrote nothing.
-/
import proofs.«152311_j26620207301224_2_alg».proof.Defs
import proofs.«152311_j26620207301224_2_alg».proof.Proof.Gen.Kernel
import proofs.«152311_j26620207301224_2_alg».proof.Proof.Gen.Kernel.Frame
import proofs.«152311_j26620207301224_2_alg».proof.Proof.Gen.KernelIdeal
import proofs.«152311_j26620207301224_2_alg».proof.Proof.Gen.KernelIdeal.Frame
import proofs.«152311_j26620207301224_2_alg».proof.Proof.Gen.ReferenceIdeal
import proofs.«152311_j26620207301224_2_alg».proof.Proof.Gen.ReferenceIdeal.Run
import proofs.«152311_j26620207301224_2_alg».proof.Proof.Gen.ReferenceIdeal.Read
import proofs.«152311_j26620207301224_2_alg».proof.Proof.Gen.Pre_finite_inputs
import proofs.«152311_j26620207301224_2_alg».proof.Proof.KernelRun
import proofs.«152311_j26620207301224_2_alg».proof.Proof.KernelValue
import proofs.«152311_j26620207301224_2_alg».proof.Proof.RefValue
import proofs.«152311_j26620207301224_2_alg».proof.Proof.Algebra
import proofs.«152311_j26620207301224_2_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.SageDist

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same distance matrix: the kernel's run ends at
    the first arrangement, the reference's at the second, and finite inputs make the two equal. -/
theorem algebraic : Cert.algebraic_KernelIdeal_ReferenceIdeal := by
  intro m ρ m' ρ' hpre hagree
  refine ⟨fun c => fun i =>
      valueProj (srcRow (m ((c.tc : Thread Cert.KernelIdeal.nD Cert.KernelIdeal.τ).loc Cert.KernelIdeal.main_arg1))) (dstInt (m ((c.tc : Thread Cert.KernelIdeal.nD Cert.KernelIdeal.τ).loc Cert.KernelIdeal.main_arg1)))
        (toMat (m ((c.tc : Thread Cert.KernelIdeal.nD Cert.KernelIdeal.τ).loc Cert.KernelIdeal.main_arg0))) (toMat (m ((c.tc : Thread Cert.KernelIdeal.nD Cert.KernelIdeal.τ).loc Cert.KernelIdeal.main_arg2))) (toVec (m ((c.tc : Thread Cert.KernelIdeal.nD Cert.KernelIdeal.τ).loc Cert.KernelIdeal.main_arg3))) (toMat (m ((c.tc : Thread Cert.KernelIdeal.nD Cert.KernelIdeal.τ).loc Cert.KernelIdeal.main_arg4))) (toMat (m ((c.tc : Thread Cert.KernelIdeal.nD Cert.KernelIdeal.τ).loc Cert.KernelIdeal.main_arg5))) (toVec (m ((c.tc : Thread Cert.KernelIdeal.nD Cert.KernelIdeal.τ).loc Cert.KernelIdeal.main_arg6)))
        (toMat (m ((c.tc : Thread Cert.KernelIdeal.nD Cert.KernelIdeal.τ).loc Cert.KernelIdeal.main_arg7))) (toVec (m ((c.tc : Thread Cert.KernelIdeal.nD Cert.KernelIdeal.τ).loc Cert.KernelIdeal.main_arg8))) (toMat (m ((c.tc : Thread Cert.KernelIdeal.nD Cert.KernelIdeal.τ).loc Cert.KernelIdeal.main_arg9))) (toVec (m ((c.tc : Thread Cert.KernelIdeal.nD Cert.KernelIdeal.τ).loc Cert.KernelIdeal.main_arg10))) (toMat (m ((c.tc : Thread Cert.KernelIdeal.nD Cert.KernelIdeal.τ).loc Cert.KernelIdeal.main_arg11))) (toVec (m ((c.tc : Thread Cert.KernelIdeal.nD Cert.KernelIdeal.τ).loc Cert.KernelIdeal.main_arg12))) (i 0) (i 1), ?_, ?_⟩
  · exact (θ_run Cert.KernelIdeal.defs _ _).mono
      (fun r h c => ⟨(h c).1.trans (Cert.KernelIdeal.Value.result_eq m ρ c), (h c).2⟩)
      (Cert.KernelIdeal.RunNamed.run (F := Ideal) m ρ)
  · refine (θ_run Cert.ReferenceIdeal.defs _ _).mono (fun r h c => ⟨?_, (h c).2⟩)
      (Cert.ReferenceIdeal.Value.run (F := Ideal) m' ρ')
    obtain ⟨f0, f2, f3, f4, f5, f6, f7, f8, f9, f10, f11, f12⟩ :=
      Cert.SageDist.finite_of_pre _ _ _ _ _ _ _ _ _ _ _ _ _ (hpre c)
    obtain ⟨a0, a1, a2, a3, a4, a5, a6, a7, a8, a9, a10, a11, a12⟩ := hagree c
    rw [(h c).1, Cert.ReferenceIdeal.Read.val_main_v69_eq, Cert.SageDist.Ref.ref_value,
      a0, a1, a2, a3, a4, a5, a6, a7, a8, a9, a10, a11, a12]
    funext i
    exact (congrFun (congrFun (value_eq _ _ _ _ _ _ _ _ _ _ _ _ _ _
      (fun p q => f0 (ix2 p q)) (fun p q => f2 (ix2 p q)) (fun p => f3 (ix1 p)) (fun p q => f4 (ix2 p q))
      (fun p q => f5 (ix2 p q)) (fun p => f6 (ix1 p)) (fun p q => f7 (ix2 p q)) (fun p => f8 (ix1 p))
      (fun p q => f9 (ix2 p q)) (fun p => f10 (ix1 p)) (fun p q => f11 (ix2 p q)) (fun p => f12 (ix1 p))) (i 0)) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
